-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part5 {F : FTy → Type} [FloatOps F] (main_arg19 : FVec F S256x128 .f32) (main_arg20 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x128 .f32 := Host.absf main_arg19
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg15 : FVec F S256x128 .f32) (main_arg16 : FVec F S128 .f32) (main_arg17 : FVec F S128x128 .f32) (main_arg18 : FVec F S128 .f32) (main_arg19 : FVec F S256x128 .f32) (main_arg20 : FVec F S128 .f32) (main_v63 : IVec S_ 1) (main_v67 : IVec S_ 1) : IVec S_ 1 :=
  let main_v68 : IVec S_ 1 := andi main_v63 main_v67
  let main_v69 : FVec F S256x128 .f32 := Host.absf main_arg15
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128 .f32) (main_arg13 : FVec F S128x128 .f32) (main_arg14 : FVec F S128 .f32) (main_arg15 : FVec F S256x128 .f32) (main_arg16 : FVec F S128 .f32) (main_arg17 : FVec F S128x128 .f32) (main_arg18 : FVec F S128 .f32) (main_arg19 : FVec F S256x128 .f32) (main_arg20 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S256x128 .f32) (main_arg16 : FVec F S128 .f32) (main_arg17 : FVec F S128x128 .f32) (main_arg18 : FVec F S128 .f32) (main_arg19 : FVec F S256x128 .f32) (main_arg20 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S256x128 .f32) (main_arg16 : FVec F S128 .f32) (main_arg17 : FVec F S128x128 .f32) (main_arg18 : FVec F S128 .f32) (main_arg19 : FVec F S256x128 .f32) (main_arg20 : FVec F S128 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S10000x128 .f32) (main_arg1 : IVec S2x640000 32) (main_arg2 : FVec F S640000 .f32) (main_arg3 : FVec F S10000x128 .f32) (main_arg4 : FVec F S10000x128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S256x128 .f32) (main_arg12 : FVec F S128 .f32) (main_arg13 : FVec F S128x128 .f32) (main_arg14 : FVec F S128 .f32) (main_arg15 : FVec F S256x128 .f32) (main_arg16 : FVec F S128 .f32) (main_arg17 : FVec F S128x128 .f32) (main_arg18 : FVec F S128 .f32) (main_arg19 : FVec F S256x128 .f32) (main_arg20 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S10000x128 .f32 := Host.absf main_arg3
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S10000x128 .f32 := Host.absf main_arg4
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S10000 : Shape := ⟨1, ![10000]⟩
abbrev S1x640000 : Shape := ⟨2, ![1, 640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S128x384 : Shape := ⟨2, ![128, 384]⟩
abbrev S384 : Shape := ⟨1, ![384]⟩
abbrev S1x384 : Shape := ⟨2, ![1, 384]⟩
abbrev S1x128 : Shape := ⟨2, ![1, 128]⟩
abbrev S1000x128 : Shape := ⟨2, ![1000, 128]⟩
abbrev S1000x384 : Shape := ⟨2, ![1000, 384]⟩

abbrev nBuf : Space → Nat
  | .hbm => 99
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S640000, .f32⟩
  | .hbm, ⟨3, _⟩ => ⟨S10000x128, .f32⟩
  | .hbm, ⟨4, _⟩ => ⟨S10000x128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S256x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S256x128, .f32⟩
  | .hbm, ⟨20, _⟩ => ⟨S128, .f32⟩
  | .hbm, ⟨21, _⟩ => ⟨S10000, .i32⟩
  | .hbm, ⟨22, _⟩ => ⟨S1x640000, .i32⟩
  | .hbm, ⟨23, _⟩ => ⟨S640000, .i32⟩
  | .hbm, ⟨24, _⟩ => ⟨S650000, .i32⟩
  | .hbm, ⟨25, _⟩ => ⟨S1x640000, .i32⟩
  | .hbm, ⟨26, _⟩ => ⟨S640000, .i32⟩
  | .hbm, ⟨27, _⟩ => ⟨S650000, .i32⟩
  | .hbm, ⟨28, _⟩ => ⟨S_, .f32⟩
  | .hbm, ⟨29, _⟩ => ⟨S10000, .f32⟩
  | .hbm, ⟨30, _⟩ => ⟨S650000, .f32⟩
  | .hbm, ⟨31, _⟩ => ⟨S_, .f32⟩
  | .hbm, ⟨32, _⟩ => ⟨S10000, .f32⟩
  | .hbm, ⟨33, _⟩ => ⟨S650000x1, .i32⟩
  | .hbm, ⟨34, _⟩ => ⟨S10000, .f32⟩
  | .hbm, ⟨35, _⟩ => ⟨S_, .f32⟩
  | .hbm, ⟨36, _⟩ => ⟨S10000, .f32⟩
  | .hbm, ⟨37, _⟩ => ⟨S10000, .i1⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000, .f32⟩
  | .hbm, ⟨42, _⟩ => ⟨S_, .f32⟩
  | .hbm, ⟨43, _⟩ => ⟨S_, .f32⟩
  | .hbm, ⟨44, _⟩ => ⟨S10000, .f32⟩
  | .hbm, ⟨45, _⟩ => ⟨S10000, .f32⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S650000x1, .i32⟩
  | .hbm, ⟨54, _⟩ => ⟨S650000, .f32⟩
  | .hbm, ⟨55, _⟩ => ⟨S650000, .f32⟩
  | .hbm, ⟨56, _⟩ => ⟨S_, .i32⟩
  | .hbm, ⟨57, _⟩ => ⟨S650000, .i32⟩
  | .hbm, ⟨58, _⟩ => ⟨S650000, .i1⟩
  | .hbm, ⟨59, _⟩ => ⟨S_, .i32⟩
  | .hbm, ⟨60, _⟩ => ⟨S650000, .i32⟩
  | .hbm, ⟨61, _⟩ => ⟨S650000, .i32⟩
  | .hbm, ⟨62, _⟩ => ⟨S650000, .i32⟩
  | .hbm, ⟨63, _⟩ => ⟨S650000x1, .i32⟩
  | .hbm, ⟨64, _⟩ => ⟨S650000, .f32⟩
  | .hbm, ⟨65, _⟩ => ⟨S650000, .f32⟩
  | .hbm, ⟨66, _⟩ => ⟨S_, .i32⟩
  | .hbm, ⟨67, _⟩ => ⟨S650000, .i32⟩
  | .hbm, ⟨68, _⟩ => ⟨S650000, .i1⟩
  | .hbm, ⟨69, _⟩ => ⟨S_, .i32⟩
  | .hbm, ⟨70, _⟩ => ⟨S650000, .i32⟩
  | .hbm, ⟨71, _⟩ => ⟨S650000, .i32⟩
  | .hbm, ⟨72, _⟩ => ⟨S650000, .i32⟩
  | .hbm, ⟨73, _⟩ => ⟨S650000x1, .i32⟩
  | .hbm, ⟨74, _⟩ => ⟨S650000x128, .f32⟩
  | .hbm, ⟨75, _⟩ => ⟨S650000x1, .f32⟩
  | .hbm, ⟨76, _⟩ => ⟨S650000x128, .f32⟩
  | .hbm, ⟨77, _⟩ => ⟨S650000x128, .f32⟩
  | .hbm, ⟨78, _⟩ => ⟨S_, .f32⟩
  | .hbm, ⟨79, _⟩ => ⟨S10000x128, .f32⟩
  | .hbm, ⟨80, _⟩ => ⟨S650000x1, .i32⟩
  | .hbm, ⟨81, _⟩ => ⟨S10000x128, .f32⟩
  | .hbm, ⟨82, _⟩ => ⟨S128x384, .f32⟩
  | .hbm, ⟨83, _⟩ => ⟨S384, .f32⟩
  | .hbm, ⟨84, _⟩ => ⟨S1x384, .f32⟩
  | .hbm, ⟨85, _⟩ => ⟨S128x128, .f32⟩
  | .hbm, ⟨86, _⟩ => ⟨S128x128, .f32⟩
  | .hbm, ⟨87, _⟩ => ⟨S128x128, .f32⟩
  | .hbm, ⟨88, _⟩ => ⟨S128x128, .f32⟩
  | .hbm, ⟨89, _⟩ => ⟨S128x128, .f32⟩
  | .hbm, ⟨90, _⟩ => ⟨S128x128, .f32⟩
  | .hbm, ⟨91, _⟩ => ⟨S128x128, .f32⟩
  | .hbm, ⟨92, _⟩ => ⟨S128x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S10000x128, .f32⟩
  | .hbm, ⟨98, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S128x384, .f32⟩
  | .local _ .vmem, ⟨7, _⟩ => ⟨S1x384, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v17 : Ref sig .tc := ⟨.hbm, 45, rfl⟩
abbrev main_c : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_7 : Ref sig .tc := ⟨.hbm, 66, rfl⟩
abbrev main_v34 : Ref sig .tc := ⟨.hbm, 67, rfl⟩
abbrev main_v35 : Ref sig .tc := ⟨.hbm, 68, rfl⟩
abbrev main_c_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_9 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62_0 : Ref sig .tc := ⟨.hbm, 97, rfl⟩
abbrev main_v62_1 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  slices_S256x128_S128x128_0_0 : S256x128.Slices ![0, 0] S128x128
  slices_S256x128_S128x128_128_0 : S256x128.Slices ![128, 0] S128x128
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S1000x128_S128x384_S1000x384_1_0_0_1_n_n_wf : DotDims.WF S1000x128 S128x384 S1000x384 [1] [0] [0] [1] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1000x128.size a ≤ S10000x128.size a
  hwx0_17 : ∀ i : grid0.Coords, EltTy.bits .f32 = 32 ∨ (Rect.block (s := S10000x128) S1000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1000x128.size a ≤ S10000x128.size a
  hwx0_18 : ∀ i : grid0.Coords, EltTy.bits .f32 = 32 ∨ (Rect.block (s := S10000x128) S1000x128.size (cc0_transform_18 i) (hinb0_18 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_v46) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v51) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v58) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v59) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v54) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v55) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v60) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v56) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v57) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v61) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v62_0) S1000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v62_1) S1000x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S640000 : Shape := ⟨1, ![640000]⟩
abbrev S128x128 : Shape := ⟨2, ![128, 128]⟩
abbrev S128 : Shape := ⟨1, ![128]⟩
abbrev S256x128 : Shape := ⟨2, ![256, 128]⟩
abbrev S10000 : Shape := ⟨1, ![10000]⟩
abbrev S1x640000 : Shape := ⟨2, ![1, 640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S10000x256 : Shape := ⟨2, ![10000, 256]⟩

abbrev nBuf : Space → Nat
  | .hbm => 176
  | .vmem => 0
  | .smem => 0
  | _ => 0

abbrev hbmTy0_0 (i : Nat) : BufTy := match i % 128 with
  | 0 => ⟨S10000x128, .f32⟩
  | 1 => ⟨S2x640000, .i32⟩
  | 2 => ⟨S640000, .f32⟩
  | 3 => ⟨S10000x128, .f32⟩
  | 4 => ⟨S10000x128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S256x128, .f32⟩
  | 12 => ⟨S128, .f32⟩
  | 13 => ⟨S128x128, .f32⟩
  | 14 => ⟨S128, .f32⟩
  | 15 => ⟨S256x128, .f32⟩
  | 16 => ⟨S128, .f32⟩
  | 17 => ⟨S128x128, .f32⟩
  | 18 => ⟨S128, .f32⟩
  | 19 => ⟨S256x128, .f32⟩
  | 20 => ⟨S128, .f32⟩
  | 21 => ⟨S10000, .i32⟩
  | 22 => ⟨S1x640000, .i32⟩
  | 23 => ⟨S640000, .i32⟩
  | 24 => ⟨S650000, .i32⟩
  | 25 => ⟨S1x640000, .i32⟩
  | 26 => ⟨S640000, .i32⟩
  | 27 => ⟨S650000, .i32⟩
  | 28 => ⟨S_, .f32⟩
  | 29 => ⟨S10000, .f32⟩
  | 30 => ⟨S650000, .f32⟩
  | 31 => ⟨S_, .f32⟩
  | 32 => ⟨S10000, .f32⟩
  | 33 => ⟨S650000x1, .i32⟩
  | 34 => ⟨S10000, .f32⟩
  | 35 => ⟨S_, .f32⟩
  | 36 => ⟨S10000, .f32⟩
  | 37 => ⟨S10000, .i1⟩
  | 38 => ⟨S_, .f32⟩
  | 39 => ⟨S10000, .f32⟩
  | 40 => ⟨S10000, .f32⟩
  | 41 => ⟨S10000, .f32⟩
  | 42 => ⟨S_, .f32⟩
  | 43 => ⟨S_, .f32⟩
  | 44 => ⟨S10000, .f32⟩
  | 45 => ⟨S10000, .f32⟩
  | 46 => ⟨S_, .i32⟩
  | 47 => ⟨S650000, .i32⟩
  | 48 => ⟨S650000, .i1⟩
  | 49 => ⟨S_, .i32⟩
  | 50 => ⟨S650000, .i32⟩
  | 51 => ⟨S650000, .i32⟩
  | 52 => ⟨S650000, .i32⟩
  | 53 => ⟨S650000x1, .i32⟩
  | 54 => ⟨S650000, .f32⟩
  | 55 => ⟨S650000, .f32⟩
  | 56 => ⟨S_, .i32⟩
  | 57 => ⟨S650000, .i32⟩
  | 58 => ⟨S650000, .i1⟩
  | 59 => ⟨S_, .i32⟩
  | 60 => ⟨S650000, .i32⟩
  | 61 => ⟨S650000, .i32⟩
  | 62 => ⟨S650000, .i32⟩
  | 63 => ⟨S650000x1, .i32⟩
  | 64 => ⟨S650000, .f32⟩
  | 65 => ⟨S650000, .f32⟩
  | 66 => ⟨S10000x128, .f32⟩
  | 67 => ⟨S_, .i32⟩
  | 68 => ⟨S650000, .i32⟩
  | 69 => ⟨S650000, .i1⟩
  | 70 => ⟨S_, .i32⟩
  | 71 => ⟨S650000, .i32⟩
  | 72 => ⟨S650000, .i32⟩
  | 73 => ⟨S650000, .i32⟩
  | 74 => ⟨S650000x1, .i32⟩
  | 75 => ⟨S650000x128, .f32⟩
  | 76 => ⟨S650000x1, .f32⟩
  | 77 => ⟨S650000x128, .f32⟩
  | 78 => ⟨S650000x128, .f32⟩
  | 79 => ⟨S_, .f32⟩
  | 80 => ⟨S10000x128, .f32⟩
  | 81 => ⟨S650000x1, .i32⟩
  | 82 => ⟨S10000x128, .f32⟩
  | 83 => ⟨S1x128, .f32⟩
  | 84 => ⟨S10000x128, .f32⟩
  | 85 => ⟨S10000x128, .f32⟩
  | 86 => ⟨S10000x128, .f32⟩
  | 87 => ⟨S_, .i32⟩
  | 88 => ⟨S650000, .i32⟩
  | 89 => ⟨S650000, .i1⟩
  | 90 => ⟨S_, .i32⟩
  | 91 => ⟨S650000, .i32⟩
  | 92 => ⟨S650000, .i32⟩
  | 93 => ⟨S650000, .i32⟩
  | 94 => ⟨S650000x1, .i32⟩
  | 95 => ⟨S650000x128, .f32⟩
  | 96 => ⟨S650000x1, .f32⟩
  | 97 => ⟨S650000x128, .f32⟩
  | 98 => ⟨S650000x128, .f32⟩
  | 99 => ⟨S_, .f32⟩
  | 100 => ⟨S10000x128, .f32⟩
  | 101 => ⟨S650000x1, .i32⟩
  | 102 => ⟨S10000x128, .f32⟩
  | 103 => ⟨S1x128, .f32⟩
  | 104 => ⟨S10000x128, .f32⟩
  | 105 => ⟨S10000x128, .f32⟩
  | 106 => ⟨S10000x128, .f32⟩
  | 107 => ⟨S_, .i32⟩
  | 108 => ⟨S650000, .i32⟩
  | 109 => ⟨S650000, .i1⟩
  | 110 => ⟨S_, .i32⟩
  | 111 => ⟨S650000, .i32⟩
  | 112 => ⟨S650000, .i32⟩
  | 113 => ⟨S650000, .i32⟩
  | 114 => ⟨S650000x1, .i32⟩
  | 115 => ⟨S650000x128, .f32⟩
  | 116 => ⟨S650000x1, .f32⟩
  | 117 => ⟨S650000x128, .f32⟩
  | 118 => ⟨S650000x128, .f32⟩
  | 119 => ⟨S_, .f32⟩
  | 120 => ⟨S10000x128, .f32⟩
  | 121 => ⟨S650000x1, .i32⟩
  | 122 => ⟨S10000x128, .f32⟩
  | 123 => ⟨S1x128, .f32⟩
  | 124 => ⟨S10000x128, .f32⟩
  | 125 => ⟨S10000x128, .f32⟩
  | 126 => ⟨S10000x256, .f32⟩
  | 127 => ⟨S10000x128, .f32⟩
  | _ => ⟨S10000x128, .f32⟩

abbrev hbmTy0_1 (i : Nat) : BufTy := match i % 128 with
  | 0 => ⟨S1x128, .f32⟩
  | 1 => ⟨S10000x128, .f32⟩
  | 2 => ⟨S10000x128, .f32⟩
  | 3 => ⟨S10000x128, .f32⟩
  | 4 => ⟨S10000x128, .f32⟩
  | 5 => ⟨S_, .f32⟩
  | 6 => ⟨S10000x128, .f32⟩
  | 7 => ⟨S10000x128, .f32⟩
  | 8 => ⟨S_, .f32⟩
  | 9 => ⟨S10000x128, .f32⟩
  | 10 => ⟨S10000x128, .f32⟩
  | 11 => ⟨S10000x256, .f32⟩
  | 12 => ⟨S10000x128, .f32⟩
  | 13 => ⟨S1x128, .f32⟩
  | 14 => ⟨S10000x128, .f32⟩
  | 15 => ⟨S10000x128, .f32⟩
  | 16 => ⟨S10000x128, .f32⟩
  | 17 => ⟨S10000x128, .f32⟩
  | 18 => ⟨S_, .f32⟩
  | 19 => ⟨S10000x128, .f32⟩
  | 20 => ⟨S10000x128, .f32⟩
  | 21 => ⟨S_, .f32⟩
  | 22 => ⟨S10000x128, .f32⟩
  | 23 => ⟨S10000x128, .f32⟩
  | 24 => ⟨S10000x256, .f32⟩
  | 25 => ⟨S10000x128, .f32⟩
  | 26 => ⟨S1x128, .f32⟩
  | 27 => ⟨S10000x128, .f32⟩
  | 28 => ⟨S10000x128, .f32⟩
  | 29 => ⟨S10000x128, .f32⟩
  | 30 => ⟨S10000x128, .f32⟩
  | 31 => ⟨S_, .f32⟩
  | 32 => ⟨S10000x128, .f32⟩
  | 33 => ⟨S10000x128, .f32⟩
  | 34 => ⟨S_, .f32⟩
  | 35 => ⟨S10000x128, .f32⟩
  | 36 => ⟨S10000x128, .f32⟩
  | 37 => ⟨S10000x256, .f32⟩
  | 38 => ⟨S10000x128, .f32⟩
  | 39 => ⟨S1x128, .f32⟩
  | 40 => ⟨S10000x128, .f32⟩
  | 41 => ⟨S10000x128, .f32⟩
  | 42 => ⟨S10000x128, .f32⟩
  | 43 => ⟨S10000x128, .f32⟩
  | 44 => ⟨S10000x128, .f32⟩
  | 45 => ⟨S10000x128, .f32⟩
  | 46 => ⟨S10000x128, .f32⟩
  | 47 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v17 : Ref sig .tc := ⟨.hbm, 45, rfl⟩
abbrev main_c : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_7 : Ref sig .tc := ⟨.hbm, 67, rfl⟩
abbrev main_v35 : Ref sig .tc := ⟨.hbm, 68, rfl⟩
abbrev main_v36 : Ref sig .tc := ⟨.hbm, 69, rfl⟩
abbrev main_c_8 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_c_10 : Ref sig .tc := ⟨.hbm, 87, rfl⟩
abbrev main_v52 : Ref sig .tc := ⟨.hbm, 88, rfl⟩
abbrev main_v53 : Ref sig .tc := ⟨.hbm, 89, rfl⟩
abbrev main_c_11 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_12 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_c_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_16 : Ref sig .tc := ⟨.hbm, 133, rfl⟩
abbrev main_v92 : Ref sig .tc := ⟨.hbm, 134, rfl⟩
abbrev main_v93 : Ref sig .tc := ⟨.hbm, 135, rfl⟩
abbrev main_cst_17 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_cst_18 : Ref sig .tc := ⟨.hbm, 146, rfl⟩
abbrev main_v103 : Ref sig .tc := ⟨.hbm, 147, rfl⟩
abbrev main_v104 : Ref sig .tc := ⟨.hbm, 148, rfl⟩
abbrev main_cst_19 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_20 : Ref sig .tc := ⟨.hbm, 159, rfl⟩
abbrev main_v114 : Ref sig .tc := ⟨.hbm, 160, rfl⟩
abbrev main_v115 : Ref sig .tc := ⟨.hbm, 161, rfl⟩
abbrev main_cst_21 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S10000 : S_.BroadcastsInDim S10000 (![] : Fin 0 → Fin S10000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  concatenates_S10000x128_S10000x128_S10000x256_d1 : Shape.Concatenates [S10000x128, S10000x128] S10000x256 1
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S10000x256_S256x128_S10000x128_1_0_0_1_n_n_wf : DotDims.WF S10000x256 S256x128 S10000x128 [1] [0] [0] [1] [] []

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.FrameData.lean ====
/- The kernel's frame, part one: the buffers' contents when the one region is entered, each window's block at a
   grid point, and the proof data of the pipeline — every input's staging buffer holds its block, and each of the two
   output buffers holds, after the body at a point, the one whole-block store's payload over the input blocks. -/
import proofs.«155784_j56238301774267_2_alg».proof.Proof.Gen.KernelIdeal.Launch
import proofs.«155784_j56238301774267_2_alg».proof.Proof.Gen.KernelIdeal.Skeleton
import proofs.«155784_j56238301774267_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its region: the three stretches of host operations, then the region, nothing after it. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (an unfetched
    window's block index has not moved), for any proof data whose array is the region-entry one and whose body leaves
    the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- The whole block of each shape: every load and both stores of the body go through one of these. -/
abbrev rA : Rect S1000x128 := Rect.unit (s := S1000x128) ![0, 0] S1000x128.size inb_S1000x128_S1000x128_0_0
abbrev rB : Rect S128x384 := Rect.unit (s := S128x384) ![0, 0] S128x384.size inb_S128x384_S128x384_0_0
abbrev rC : Rect S1x384 := Rect.unit (s := S1x384) ![0, 0] S1x384.size inb_S1x384_S1x384_0_0
abbrev rD : Rect S128x128 := Rect.unit (s := S128x128) ![0, 0] S128x128.size inb_S128x128_S128x128_0_0
abbrev rE : Rect S1x128 := Rect.unit (s := S1x128) ![0, 0] S1x128.size inb_S1x128_S1x128_0_0

section Payloads

/-- The three gates and the candidate the body computes from the seventeen input blocks (input, forget and output gate:
    a logistic each; the candidate: the pre-activation the cell update takes the tanh of). -/
def gateI (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay7 (View.ld x0 rA) (View.ld x1 rA) (View.ld x3 rB) (View.ld x4 rC) (View.ld x5 rD) (View.ld x6 rD) (View.ld x7 rE)
def gateF (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay10 (k0_pay6 (View.ld x1 rA)) (k0_pay8 (View.ld x0 rA) (View.ld x3 rB) (View.ld x4 rC)) (k0_pay9 (View.ld x8 rD)) (View.ld x9 rD) (View.ld x10 rE)
def gateO (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay11 (k0_pay5 (View.ld x0 rA) (View.ld x3 rB) (View.ld x4 rC)) (k0_pay6 (View.ld x1 rA)) (View.ld x11 rD) (View.ld x12 rD) (View.ld x13 rE)
def cand (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay12 (k0_pay4 (View.ld x0 rA) (View.ld x3 rB) (View.ld x4 rC)) (k0_pay6 (View.ld x1 rA)) (View.ld x14 rD) (View.ld x15 rD) (View.ld x16 rE)

/-- The payload of the store into the second output (the new cell state), -/
def payC (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay1 (View.ld x2 rA) (gateI x0 x1 x2 x3 x4 x5 x6 x7 x8 x9 x10 x11 x12 x13 x14 x15 x16) (gateF x0 x1 x2 x3 x4 x5 x6 x7 x8 x9 x10 x11 x12 x13 x14 x15 x16) (cand x0 x1 x2 x3 x4 x5 x6 x7 x8 x9 x10 x11 x12 x13 x14 x15 x16)
/-- and of the store into the first (the new hidden state). -/
def payH (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay2 (View.ld x2 rA) (gateI x0 x1 x2 x3 x4 x5 x6 x7 x8 x9 x10 x11 x12 x13 x14 x15 x16) (gateF x0 x1 x2 x3 x4 x5 x6 x7 x8 x9 x10 x11 x12 x13 x14 x15 x16) (gateO x0 x1 x2 x3 x4 x5 x6 x7 x8 x9 x10 x11 x12 x13 x14 x15 x16) (cand x0 x1 x2 x3 x4 x5 x6 x7 x8 x9 x10 x11 x12 x13 x14 x15 x16)

/-- Window 17's staging buffer after the body: its one whole-block store. -/
def out17 (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : Vec F S1000x128 .f32 := View.canon [⟨rA, payH x0 x1 x2 x3 x4 x5 x6 x7 x8 x9 x10 x11 x12 x13 x14 x15 x16⟩]
/-- Window 18's staging buffer after the body: its one whole-block store. -/
def out18 (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : Vec F S1000x128 .f32 := View.canon [⟨rA, payC x0 x1 x2 x3 x4 x5 x6 x7 x8 x9 x10 x11 x12 x13 x14 x15 x16⟩]

end Payloads

/-- One whole-block store covers the buffer. -/
theorem coverA (p0 : Vec F S1000x128 .f32) (y : S1000x128.Idx) :
    ∃ pc ∈ ([⟨rA, p0⟩] : List (View.Piece (Elt F) S1000x128 .f32)), y ∈ pc.1.set :=
  View.cover_of_tiled [⟨rA, p0⟩] S1000x128.size (by rfl) y

/-! ## The pipeline's proof data -/

/-- The proof data of the one pipeline on core `c`: the arrays as the region finds them; after the body at point `t`
    each input's buffer at its block and each output's at its store's payload over the input blocks; the invariant the
    scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 19, h⟩ => absurd h (Nat.not_lt.2 (Nat.le_add_left _ _))
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after18 (c : Dev nD) (t : Fin cfg0.N) : (dats m 0 c).after 18 t = out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-! Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d

end Cert.KernelIdeal.Hand

end
-- ==== Proof.FrameBody.lean ====
/- The kernel's frame, part two: the body's triple on whole staging buffers — every input buffer is read and handed
   back as found, each output buffer is read once (the value is dropped) and then stored whole — and the pipeline's body
   obligation at every grid point. -/
import proofs.«155784_j56238301774267_2_alg».proof.Proof.FrameData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging buffers, the inputs' at contents `xW` and the outputs' at anything, runs to the
    continuation holding the inputs' as they were and each output's at its one store's payload over the inputs. -/
theorem sound_kernel (c : Dev nD) (E : Set ℕ) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S1000x128 .f32) (harg18 : arg18.IsWhole) (arg19 : Memref sig .tc .vmem S1000x128 .f32) (harg19 : arg19.IsWhole)
    (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out17 x0 x1 x2 x3 x4 x5 x6 x7 x8 x9 x10 x11 x12 x13 x14 x15 x16) ∗ owns (c : Thread nD τ) arg19 fullShare (out18 x0 x1 x2 x3 x4 x5 x6 x7 x8 x9 x10 x11 x12 x13 x14 x15 x16)) -∗ K ⟨⟩))
      ⊢ wp frame (wpE (defs₀ (F := F)) Variants.none c none) E (cc0__fused_gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_gate_kernel_eq_skeleton]; unfold cc0__fused_gate_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact View.read_writes_eq_canon _ _ _ (coverA _)
  iexists _; isplitr
  swap; · iexact H18
  ipureintro
  exact View.read_writes_eq_canon _ _ _ (coverA _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 1000000 in
/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameArgs.lean ====
/- The kernel's frame, part three: no host operation before the region writes an argument array, so the region finds
   each of them as launched. -/
import proofs.«155784_j56238301774267_2_alg».proof.Proof.FrameData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg14`. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg15`. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg16`. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg17`. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg18`. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg19`. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg20`. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.KernelIdeal.Hand

end
-- ==== Proof.FrameRun.lean ====
/- The kernel's frame, part four: the run of the whole program — the host operations, then the region under the
   pipeline's proof data — with each output array after the run named, every argument array unchanged; what each grid
   point writes back to the two output arrays; and the frame claim. -/
import proofs.«155784_j56238301774267_2_alg».proof.Proof.FrameBody
import proofs.«155784_j56238301774267_2_alg».proof.Proof.FrameArgs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- From any memory with zero counters, every weakly fair execution of the program on the TensorCores terminates, and
    every final state has every array of the pipeline at what the proof data's write-backs leave and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The frame claim's post from the run's -/

/-- For any proof data whose arrays are the region-entry contents, a run to the frame post read at the argument
    arrays — a staged input array is never written back, an array no window stages is as the region found it, and the
    region found each as launched — is the frame claim's post. -/
theorem frame_of (dats' : (p : Fin 1) → (c : Dev nD) → Dat τ (Elt F) Unit ℕ (UR sig nD τ) ℕ (cfgs p) c)
    (hA : ∀ c w, (dats' 0 c).A w = V m c (Pipeline.arrRef spec0 w))
    (h : θ_run defs (onTc (τ := τ) (main (F := F))) (s₀ m ρ) (Pipeline.FramePost cfgs dats' 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats' 0 c).arrAt_in 1 rfl _).trans ((hA c 1).trans (V_main_arg3 m c))),
      ((h c).1 2).trans (((dats' 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-- THE FRAME: the program runs and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-! ## Blockwise: what each point writes back to the two output arrays -/

/-- What point `t` writes back to output window 17's array: the body's store for that window, read through the
    window's block. -/
theorem flushed17 (c : Dev nD) (t : Fin cfg0.N) :
    (dats m 0 c).flushed 17 t = (cfg0.win 17).cut (grid0.coords t) (out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 17).cut (grid0.coords t) ((dats m 0 c).after 17 t) = _
  rw [after17]

/-- The index map sends distinct grid points to distinct block indices (decided over the ten points). -/
theorem idx_inj17 : ∀ t t' : Fin cfg0.N, win0_17.index t = win0_17.index t' → t = t' :=
  (by decide +kernel : ∀ t t' : Fin grid0.N, win0_17.index t = win0_17.index t' → t = t')

/-- So two points' blocks share no array index. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- Block `t` of the final array, read back through the window, is what point `t` wrote back. -/
theorem blocks17 (c : Dev nD) (t : Fin cfg0.N) :
    ((cfg0.win 17).blk t).view.read (Elt F) ((dats m 0 c).arrAt 17 cfg0.N) = (dats m 0 c).flushed 17 t :=
  (dats m 0 c).read_blk_arrAt_eq_flushed 17 disjoint17 cfg0.N t t.isLt (flush0_17 t)

/-- After the run, output window 17's array is what the write-backs leave. -/
theorem post17 (r : PUnit × MemSt nD τ sig (Elt F)) (h : Pipeline.FramePost cfgs (dats m) 0 (V m) r) (c : Dev nD) :
    r.2.mem ((c : Thread nD τ).loc main_v62_0) = (dats m 0 c).arrAt 17 cfg0.N :=
  (h c).1 17

/-- What point `t` writes back to output window 18's array: the body's store for that window, read through the
    window's block. -/
theorem flushed18 (c : Dev nD) (t : Fin cfg0.N) :
    (dats m 0 c).flushed 18 t = (cfg0.win 18).cut (grid0.coords t) (out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 18).cut (grid0.coords t) ((dats m 0 c).after 18 t) = _
  rw [after18]

/-- The index map sends distinct grid points to distinct block indices (decided over the ten points). -/
theorem idx_inj18 : ∀ t t' : Fin cfg0.N, win0_18.index t = win0_18.index t' → t = t' :=
  (by decide +kernel : ∀ t t' : Fin grid0.N, win0_18.index t = win0_18.index t' → t = t')

/-- So two points' blocks share no array index. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- Block `t` of the final array, read back through the window, is what point `t` wrote back. -/
theorem blocks18 (c : Dev nD) (t : Fin cfg0.N) :
    ((cfg0.win 18).blk t).view.read (Elt F) ((dats m 0 c).arrAt 18 cfg0.N) = (dats m 0 c).flushed 18 t :=
  (dats m 0 c).read_blk_arrAt_eq_flushed 18 disjoint18 cfg0.N t t.isLt (flush0_18 t)

/-- After the run, output window 18's array is what the write-backs leave. -/
theorem post18 (r : PUnit × MemSt nD τ sig (Elt F)) (h : Pipeline.FramePost cfgs (dats m) 0 (V m) r) (c : Dev nD) :
    r.2.mem ((c : Thread nD τ).loc main_v62_1) = (dats m 0 c).arrAt 18 cfg0.N :=
  (h c).1 18

/-- The run with each output array after it named, the arguments unchanged. -/
theorem run_blocks : θ_run defs (onTc (τ := τ) (main (F := F))) ⟨m, fun _ => 0, ρ⟩ fun r => ∀ c : Dev nD,
      r.2.mem ((c : Thread nD τ).loc main_v62_0) = (dats m 0 c).arrAt 17 cfg0.N
      ∧ r.2.mem ((c : Thread nD τ).loc main_v62_1) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post17 m r h c, post18 m r h c,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩)
    (run_main m ρ)

end Cert.KernelIdeal.Hand

end
-- ==== Proof.KFrameData.lean ====
/- The kernel's frame, part one: the buffers' contents when the one region is entered, each window's block at a
   grid point, and the proof data of the pipeline — every input's staging buffer holds its block, and each of the two
   output buffers holds, after the body at a point, the one whole-block store's payload over the input blocks. -/
import proofs.«155784_j56238301774267_2_alg».proof.Proof.Gen.Kernel.Launch
import proofs.«155784_j56238301774267_2_alg».proof.Proof.Gen.Kernel.Skeleton
import proofs.«155784_j56238301774267_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- Core `c`'s buffers when the region is entered: the launch memory after the three stretches of host operations. -/
abbrev V (c : Dev nD) (b : Ref sig .tc) : Buf (Elt F) ((c : Thread nD τ).loc b) :=
  StableHlo.after (List.flatten [hostOps0, hostOps0_1, hostOps0_2]) (fun b => m (c, b)) b

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to its region: the three stretches of host operations, then the region, nothing after it. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (an unfetched
    window's block index has not moved), for any proof data whose array is the region-entry one and whose body leaves
    the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two output buffers -/

/-- The whole block of each shape: every load and both stores of the body go through one of these. -/
abbrev rA : Rect S1000x128 := Rect.unit (s := S1000x128) ![0, 0] S1000x128.size inb_S1000x128_S1000x128_0_0
abbrev rB : Rect S128x384 := Rect.unit (s := S128x384) ![0, 0] S128x384.size inb_S128x384_S128x384_0_0
abbrev rC : Rect S1x384 := Rect.unit (s := S1x384) ![0, 0] S1x384.size inb_S1x384_S1x384_0_0
abbrev rD : Rect S128x128 := Rect.unit (s := S128x128) ![0, 0] S128x128.size inb_S128x128_S128x128_0_0
abbrev rE : Rect S1x128 := Rect.unit (s := S1x128) ![0, 0] S1x128.size inb_S1x128_S1x128_0_0

section Payloads

/-- The three gates and the candidate the body computes from the seventeen input blocks (input, forget and output gate:
    a logistic each; the candidate: the pre-activation the cell update takes the tanh of). -/
def gateI (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay7 (View.ld x0 rA) (View.ld x1 rA) (View.ld x3 rB) (View.ld x4 rC) (View.ld x5 rD) (View.ld x6 rD) (View.ld x7 rE)
def gateF (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay10 (k0_pay6 (View.ld x1 rA)) (k0_pay8 (View.ld x0 rA) (View.ld x3 rB) (View.ld x4 rC)) (k0_pay9 (View.ld x8 rD)) (View.ld x9 rD) (View.ld x10 rE)
def gateO (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay11 (k0_pay5 (View.ld x0 rA) (View.ld x3 rB) (View.ld x4 rC)) (k0_pay6 (View.ld x1 rA)) (View.ld x11 rD) (View.ld x12 rD) (View.ld x13 rE)
def cand (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay12 (k0_pay4 (View.ld x0 rA) (View.ld x3 rB) (View.ld x4 rC)) (k0_pay6 (View.ld x1 rA)) (View.ld x14 rD) (View.ld x15 rD) (View.ld x16 rE)

/-- The payload of the store into the second output (the new cell state), -/
def payC (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay1 (View.ld x2 rA) (gateI x0 x1 x2 x3 x4 x5 x6 x7 x8 x9 x10 x11 x12 x13 x14 x15 x16) (gateF x0 x1 x2 x3 x4 x5 x6 x7 x8 x9 x10 x11 x12 x13 x14 x15 x16) (cand x0 x1 x2 x3 x4 x5 x6 x7 x8 x9 x10 x11 x12 x13 x14 x15 x16)
/-- and of the store into the first (the new hidden state). -/
def payH (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : FVec F S1000x128 .f32 :=
  k0_pay2 (View.ld x2 rA) (gateI x0 x1 x2 x3 x4 x5 x6 x7 x8 x9 x10 x11 x12 x13 x14 x15 x16) (gateF x0 x1 x2 x3 x4 x5 x6 x7 x8 x9 x10 x11 x12 x13 x14 x15 x16) (gateO x0 x1 x2 x3 x4 x5 x6 x7 x8 x9 x10 x11 x12 x13 x14 x15 x16) (cand x0 x1 x2 x3 x4 x5 x6 x7 x8 x9 x10 x11 x12 x13 x14 x15 x16)

/-- Window 17's staging buffer after the body: its one whole-block store. -/
def out17 (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : Vec F S1000x128 .f32 := View.canon [⟨rA, payH x0 x1 x2 x3 x4 x5 x6 x7 x8 x9 x10 x11 x12 x13 x14 x15 x16⟩]
/-- Window 18's staging buffer after the body: its one whole-block store. -/
def out18 (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) : Vec F S1000x128 .f32 := View.canon [⟨rA, payC x0 x1 x2 x3 x4 x5 x6 x7 x8 x9 x10 x11 x12 x13 x14 x15 x16⟩]

end Payloads

/-- One whole-block store covers the buffer. -/
theorem coverA (p0 : Vec F S1000x128 .f32) (y : S1000x128.Idx) :
    ∃ pc ∈ ([⟨rA, p0⟩] : List (View.Piece (Elt F) S1000x128 .f32)), y ∈ pc.1.set :=
  View.cover_of_tiled [⟨rA, p0⟩] S1000x128.size (by rfl) y

/-! ## The pipeline's proof data -/

/-- The proof data of the one pipeline on core `c`: the arrays as the region finds them; after the body at point `t`
    each input's buffer at its block and each output's at its store's payload over the input blocks; the invariant the
    scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 19, h⟩ => absurd h (Nat.not_lt.2 (Nat.le_add_left _ _))
  Φ _ := Pipeline.ΦA spec0 c
  q _ := fullShare
  owed _ := 0

/-- The proof data's arrays are the region-entry contents (projected, never unfolded). -/
theorem A_eq (c : Dev nD) (w : Fin cfg0.W) : (dats m 0 c).A w = V m c (Pipeline.arrRef spec0 w) := by
  dsimp only [dats]

/-! What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after18 (c : Dev nD) (t : Fin cfg0.N) : (dats m 0 c).after 18 t = out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-! Each input's current staging buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d

end Cert.Kernel.Hand

end
-- ==== Proof.KFrameBody.lean ====
/- The kernel's frame, part two: the body's triple on whole staging buffers — every input buffer is read and handed
   back as found, each output buffer is read once (the value is dropped) and then stored whole — and the pipeline's body
   obligation at every grid point. -/
import proofs.«155784_j56238301774267_2_alg».proof.Proof.KFrameData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The kernel body on whole staging buffers, the inputs' at contents `xW` and the outputs' at anything, runs to the
    continuation holding the inputs' as they were and each output's at its one store's payload over the inputs. -/
theorem sound_kernel (c : Dev nD) (E : Set ℕ) (i : grid0.Coords) (arg1 : Memref sig .tc .vmem S1000x128 .f32) (harg1 : arg1.IsWhole) (arg2 : Memref sig .tc .vmem S1000x128 .f32) (harg2 : arg2.IsWhole) (arg3 : Memref sig .tc .vmem S1000x128 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S1x128 .f32) (harg17 : arg17.IsWhole) (arg18 : Memref sig .tc .vmem S1000x128 .f32) (harg18 : arg18.IsWhole) (arg19 : Memref sig .tc .vmem S1000x128 .f32) (harg19 : arg19.IsWhole)
    (x0 : Vec F S1000x128 .f32) (x1 : Vec F S1000x128 .f32) (x2 : Vec F S1000x128 .f32) (x3 : Vec F S128x384 .f32) (x4 : Vec F S1x384 .f32) (x5 : Vec F S128x128 .f32) (x6 : Vec F S128x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out17 x0 x1 x2 x3 x4 x5 x6 x7 x8 x9 x10 x11 x12 x13 x14 x15 x16) ∗ owns (c : Thread nD τ) arg19 fullShare (out18 x0 x1 x2 x3 x4 x5 x6 x7 x8 x9 x10 x11 x12 x13 x14 x15 x16)) -∗ K ⟨⟩))
      ⊢ wp frame (wpE (defs₀ (F := F)) Variants.none c none) E (cc0__fused_gate_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__fused_gate_kernel_eq_skeleton]; unfold cc0__fused_gate_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact View.read_writes_eq_canon _ _ _ (coverA _)
  iexists _; isplitr
  swap; · iexact H18
  ipureintro
  exact View.read_writes_eq_canon _ _ _ (coverA _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 1000000 in
/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The pipeline's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrameArgs.lean ====
/- The kernel's frame, part three: no host operation before the region writes an argument array, so the region finds
   each of them as launched. -/
import proofs.«155784_j56238301774267_2_alg».proof.Proof.KFrameData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg11`. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg12`. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg13`. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg14`. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg15`. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg16`. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg17`. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg18`. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg19`. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg20`. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

end Cert.Kernel.Hand

end
-- ==== Proof.KFrameRun.lean ====
/- The kernel's frame, part four: the run of the whole program — the host operations, then the region under the
   pipeline's proof data — with each output array after the run named, every argument array unchanged; what each grid
   point writes back to the two output arrays; and the frame claim. -/
import proofs.«155784_j56238301774267_2_alg».proof.Proof.KFrameBody
import proofs.«155784_j56238301774267_2_alg».proof.Proof.KFrameArgs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

set_option backward.isDefEq.respectTransparency.types false in
/-- From any memory with zero counters, every weakly fair execution of the program on the TensorCores terminates, and
    every final state has every array of the pipeline at what the proof data's write-backs leave and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The frame claim's post from the run's -/

/-- For any proof data whose arrays are the region-entry contents, a run to the frame post read at the argument
    arrays — a staged input array is never written back, an array no window stages is as the region found it, and the
    region found each as launched — is the frame claim's post. -/
theorem frame_of (dats' : (p : Fin 1) → (c : Dev nD) → Dat τ (Elt F) Unit ℕ (UR sig nD τ) ℕ (cfgs p) c)
    (hA : ∀ c w, (dats' 0 c).A w = V m c (Pipeline.arrRef spec0 w))
    (h : θ_run defs (onTc (τ := τ) (main (F := F))) (s₀ m ρ) (Pipeline.FramePost cfgs dats' 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats' 0 c).arrAt_in 1 rfl _).trans ((hA c 1).trans (V_main_arg3 m c))),
      ((h c).1 2).trans (((dats' 0 c).arrAt_in 2 rfl _).trans ((hA c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩) h

/-- THE FRAME: the program runs and its argument arrays end unchanged, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (A_eq m) (run_main m ρ)

/-! ## Blockwise: what each point writes back to the two output arrays -/

/-- What point `t` writes back to output window 17's array: the body's store for that window, read through the
    window's block. -/
theorem flushed17 (c : Dev nD) (t : Fin cfg0.N) :
    (dats m 0 c).flushed 17 t = (cfg0.win 17).cut (grid0.coords t) (out17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 17).cut (grid0.coords t) ((dats m 0 c).after 17 t) = _
  rw [after17]

/-- The index map sends distinct grid points to distinct block indices (decided over the ten points). -/
theorem idx_inj17 : ∀ t t' : Fin cfg0.N, win0_17.index t = win0_17.index t' → t = t' :=
  (by decide +kernel : ∀ t t' : Fin grid0.N, win0_17.index t = win0_17.index t' → t = t')

/-- So two points' blocks share no array index. -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- Block `t` of the final array, read back through the window, is what point `t` wrote back. -/
theorem blocks17 (c : Dev nD) (t : Fin cfg0.N) :
    ((cfg0.win 17).blk t).view.read (Elt F) ((dats m 0 c).arrAt 17 cfg0.N) = (dats m 0 c).flushed 17 t :=
  (dats m 0 c).read_blk_arrAt_eq_flushed 17 disjoint17 cfg0.N t t.isLt (flush0_17 t)

/-- After the run, output window 17's array is what the write-backs leave. -/
theorem post17 (r : PUnit × MemSt nD τ sig (Elt F)) (h : Pipeline.FramePost cfgs (dats m) 0 (V m) r) (c : Dev nD) :
    r.2.mem ((c : Thread nD τ).loc main_v62_0) = (dats m 0 c).arrAt 17 cfg0.N :=
  (h c).1 17

/-- What point `t` writes back to output window 18's array: the body's store for that window, read through the
    window's block. -/
theorem flushed18 (c : Dev nD) (t : Fin cfg0.N) :
    (dats m 0 c).flushed 18 t = (cfg0.win 18).cut (grid0.coords t) (out18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) := by
  show (cfg0.win 18).cut (grid0.coords t) ((dats m 0 c).after 18 t) = _
  rw [after18]

/-- The index map sends distinct grid points to distinct block indices (decided over the ten points). -/
theorem idx_inj18 : ∀ t t' : Fin cfg0.N, win0_18.index t = win0_18.index t' → t = t' :=
  (by decide +kernel : ∀ t t' : Fin grid0.N, win0_18.index t = win0_18.index t' → t = t')

/-- So two points' blocks share no array index. -/
theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (idx_inj18 t t' h)

/-- Block `t` of the final array, read back through the window, is what point `t` wrote back. -/
theorem blocks18 (c : Dev nD) (t : Fin cfg0.N) :
    ((cfg0.win 18).blk t).view.read (Elt F) ((dats m 0 c).arrAt 18 cfg0.N) = (dats m 0 c).flushed 18 t :=
  (dats m 0 c).read_blk_arrAt_eq_flushed 18 disjoint18 cfg0.N t t.isLt (flush0_18 t)

/-- After the run, output window 18's array is what the write-backs leave. -/
theorem post18 (r : PUnit × MemSt nD τ sig (Elt F)) (h : Pipeline.FramePost cfgs (dats m) 0 (V m) r) (c : Dev nD) :
    r.2.mem ((c : Thread nD τ).loc main_v62_1) = (dats m 0 c).arrAt 18 cfg0.N :=
  (h c).1 18

/-- The run with each output array after it named, the arguments unchanged. -/
theorem run_blocks : θ_run defs (onTc (τ := τ) (main (F := F))) ⟨m, fun _ => 0, ρ⟩ fun r => ∀ c : Dev nD,
      r.2.mem ((c : Thread nD τ).loc main_v62_0) = (dats m 0 c).arrAt 17 cfg0.N
      ∧ r.2.mem ((c : Thread nD τ).loc main_v62_1) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨post17 m r h c, post18 m r h c,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c)⟩)
    (run_main m ρ)

end Cert.Kernel.Hand

end
-- ==== Proof.LibConcat3.lean ====
/-
  Three arrays of one shape [R, n] laid side by side along the lanes, read at an index.

  The concatenation of three [R, n] arrays along axis 1 is an [R, w] array with w = n + n + n. Its entry in row r
  and lane l comes from the piece whose span of lanes holds l: the first at lane l when l < n, the second at lane
  l - n when n ≤ l < n + n, the third at lane l - (n + n) otherwise; the row is the same in every case.
-/
import Idealize.ShloMosaic.Lib.Pipeline.Value
import Idealize.ShloMosaic.Lib.ValueIdx

namespace Cert.LibConcat3

open Idealize.ShloMosaic Idealize.ShloMosaic.ValueIdx

/-- Row `r`, lane `l` of three [R, n] arrays laid side by side: the piece whose lanes hold `l`, at `l` less the
    lanes of the pieces before it. -/
def side3 {α : Type} {R n w : Nat} (hw : w = n + n + n) (a b c : (⟨2, ![R, n]⟩ : Shape).Idx → α)
    (r : Fin R) (l : Fin w) : α :=
  if h0 : l.val < n then a (ix2 r ⟨l.val, h0⟩)
  else if h1 : l.val < n + n then b (ix2 r ⟨l.val - n, by omega⟩)
  else c (ix2 r ⟨l.val - (n + n), by have := l.isLt; omega⟩)

/-- `side3` reads one row of each piece: pieces that agree on the rows read give the same row of 3 n lanes. -/
theorem side3_congr {α : Type} {R R' n w : Nat} (hw : w = n + n + n)
    {a b c : (⟨2, ![R, n]⟩ : Shape).Idx → α} {a' b' c' : (⟨2, ![R', n]⟩ : Shape).Idx → α} {r : Fin R} {r' : Fin R'}
    (ha : ∀ q : Fin n, a (ix2 r q) = a' (ix2 r' q)) (hb : ∀ q : Fin n, b (ix2 r q) = b' (ix2 r' q))
    (hc : ∀ q : Fin n, c (ix2 r q) = c' (ix2 r' q)) :
    side3 hw a b c r = side3 hw a' b' c' r' := by
  funext l
  unfold side3
  by_cases h0 : l.val < n
  · rw [dif_pos h0, dif_pos h0]; exact ha _
  · rw [dif_neg h0, dif_neg h0]
    by_cases h1 : l.val < n + n
    · rw [dif_pos h1, dif_pos h1]; exact hb _
    · rw [dif_neg h1, dif_neg h1]; exact hc _

/-- **The concatenation of three [R, n] arrays along the lanes, read at row `r` and lane `l`**, is `side3`. -/
theorem concatenate3_lanes_apply {α : Type} {R n w : Nat} (hw : w = n + n + n)
    (a b c : (⟨2, ![R, n]⟩ : Shape).Idx → α)
    (h : Shape.Concatenates ([(⟨⟨2, ![R, n]⟩, a⟩ : (s : Shape) × (s.Idx → α)), ⟨⟨2, ![R, n]⟩, b⟩, ⟨⟨2, ![R, n]⟩, c⟩].map (·.1))
      ⟨2, ![R, w]⟩ (1 : Fin 2))
    (r : Fin R) (l : Fin w) :
    concatenate ⟨2, ![R, w]⟩ (1 : Fin 2) [⟨⟨2, ![R, n]⟩, a⟩, ⟨⟨2, ![R, n]⟩, b⟩, ⟨⟨2, ![R, n]⟩, c⟩] h (ix2 r l)
      = side3 hw a b c r l := by
  unfold side3
  have hoff : ∀ (i : (⟨2, ![R, n]⟩ : Shape).Idx), (i 0).val = r.val →
      ∀ bb : Fin (⟨2, ![R, n]⟩ : Shape).rank, bb.cast (rfl : (⟨2, ![R, n]⟩ : Shape).rank = (⟨2, ![R, w]⟩ : Shape).rank) ≠ (1 : Fin 2) →
        (i bb).val = ((ix2 r l : (⟨2, ![R, w]⟩ : Shape).Idx) (bb.cast rfl)).val := by
    intro i hi bb hbb
    match bb with
    | ⟨0, _⟩ => exact hi
    | ⟨1, _⟩ => exact absurd rfl hbb
  by_cases h0 : l.val < n
  · rw [dif_pos h0]
    exact concatenate_apply_piece (1 : Fin 2) _ h (ix2 r l) 0 (by simp) ⟨2, ![R, n]⟩ a rfl rfl 0 rfl
      (ix2 r ⟨l.val, h0⟩) (hoff _ rfl) (by show 0 + l.val = l.val; omega)
  · rw [dif_neg h0]
    by_cases h1 : l.val < n + n
    · rw [dif_pos h1]
      exact concatenate_apply_piece (1 : Fin 2) _ h (ix2 r l) 1 (by simp) ⟨2, ![R, n]⟩ b rfl rfl n (by simp)
        (ix2 r ⟨l.val - n, by omega⟩) (hoff _ rfl) (by show n + (l.val - n) = l.val; omega)
    · rw [dif_neg h1]
      exact concatenate_apply_piece (1 : Fin 2) _ h (ix2 r l) 2 (by simp) ⟨2, ![R, n]⟩ c rfl rfl (n + n) (by simp)
        (ix2 r ⟨l.val - (n + n), by have := l.isLt; omega⟩) (hoff _ rfl)
        (by show n + n + (l.val - (n + n)) = l.val; omega)

end Cert.LibConcat3
-- ==== Proof.LibRowGather.lean ====
/-
  Rows gathered and scatter-added through an index column.

  For an array `H : [N, C]` and a column of start indices `idx : [E, 1]`, the gather that takes row `idx[e]` for every
  `e` reads `H` at the start index taken signed and clamped into `[0, N - 1]`; the same for a vector `D : [N]`. The
  scatter-add of updates `u : [E, C]` through a column of indices adds `u[e, c]` to element `(idx[e], c)` when the
  signed index lies in `[0, N)` and drops it otherwise. So an update that lands on row `n` has index word `n`, and
  a factor that depends only on the landing row — nonnegative and not `+∞`, so that it distributes over a sum of
  extended reals — moves out of the scatter-add.
-/
import Mathlib
import Idealize.ShloMosaic.PureOps.Ideal
import Idealize.ShloMosaic.PureOps.Ideal.Laws
import Idealize.ShloMosaic.Lib.ValueIdx

noncomputable section

open scoped BigOperators

namespace Cert.LibRowGather

open Idealize.ShloMosaic Idealize.ShloMosaic.ValueIdx

variable {α : Type}

/-- Dimension numbers of `D[idx]` for `D : [N]`, `idx : [E, 1]`, result `[E]`. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Dimension numbers of `H[idx]` (whole rows) for `H : [N, C]`, `idx : [E, 1]`, result `[E, C]`. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Dimension numbers of the row scatter: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The index-column position of edge `e`. -/
abbrev edgeIdx {E : Nat} (e : Fin E) : (⟨2, ![E, 1]⟩ : Shape).Idx := ix2 e (0 : Fin 1)

/-- A start-index word read signed and clamped into `[0, N - 1]`. -/
def rowOf (N : Nat) (hN : 0 < N) {w : Nat} (b : BitVec w) : Fin N := ⟨min b.toInt.toNat (N - 1), by omega⟩

/-- A word whose signed value is a row number below `N` clamps to that row. -/
theorem rowOf_of_toInt {N : Nat} (hN : 0 < N) {w : Nat} (b : BitVec w) (n : Fin N) (h : b.toInt = (n.val : ℤ)) :
    rowOf N hN b = n := by
  refine Fin.ext ?_
  unfold rowOf
  show min b.toInt.toNat (N - 1) = n.val
  rw [h, Int.toNat_natCast]
  have := n.isLt
  omega

/-- The vector gather at edge `e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf N hN (idx (edgeIdx e)))) := by
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = edgeIdx e := by
    funext b; refine Fin.ext ?_
    match b with
    | ⟨0, _⟩ => rfl
    | ⟨1, _⟩ => rfl
  rw [hsi]
  rfl

/-- The row gather at edge `e`, lane `c`. -/
theorem gather_row_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims N E C wf) x idx (ix2 e c) = x (ix2 (rowOf N hN (idx (edgeIdx e))) c) := by
  unfold Host.gather
  congr 1
  funext a
  refine Fin.ext ?_
  match a with
  | ⟨0, _⟩ =>
    show (rowDims N E C wf).start (ix2 e c) idx 0 + (rowDims N E C wf).batchCoord (ix2 e c) 0
      + (rowDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e c) ⟨List.idxOf (0 : Fin 2) (rowDims N E C wf).startIndexMap,
        List.idxOf_lt_length_iff.2 (List.mem_singleton.mpr rfl)⟩ = edgeIdx e := by
      funext b; refine Fin.ext ?_
      match b with
      | ⟨0, _⟩ => rfl
      | ⟨1, _⟩ => rfl
    rw [hsi]
    rfl
  | ⟨1, _⟩ =>
    show (rowDims N E C wf).start (ix2 e c) idx 1 + (rowDims N E C wf).batchCoord (ix2 e c) 1
      + (rowDims N E C wf).offCoord (ix2 e c) 1 = c.val
    rw [GatherDims.batchCoord_eq_zero _ _ _ List.not_mem_nil]
    have hs : (rowDims N E C wf).start (ix2 e c) idx 1 = 0 := by
      unfold GatherDims.start
      rw [dif_neg (show ¬ (1 : Fin 2) ∈ (rowDims N E C wf).startIndexMap from
        (by decide : ¬ (1 : Fin 2) ∈ ([0] : List (Fin 2))))]
    have ho : (rowDims N E C wf).offCoord (ix2 e c) 1 = c.val := by
      unfold GatherDims.offCoord
      rw [dif_pos (show (1 : Fin 2) ∈ (rowDims N E C wf).sKept from
        (GatherDims.mem_sKept _ _).mpr ⟨(by decide : ¬ (1 : Fin 2) ∈ ([0] : List (Fin 2))), List.not_mem_nil⟩)]
      rfl
    rw [hs, ho, Nat.zero_add]

/-- An update `(e, c)` that the row scatter lands on element `(n, c')` has index word `n` (signed) and `c = c'`. -/
theorem scatter_row_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C)
    (h : (rowScatterDims N E C wf).resultIdx? (ix2 e c) idx = some (ix2 n c')) :
    (idx (edgeIdx e)).toInt = (n.val : ℤ) ∧ c = c' := by
  have hs0 : (rowScatterDims N E C wf).start (ix2 e c) idx 0 = (idx (edgeIdx e)).toInt := by
    unfold ScatterDims.start
    rw [dif_pos (show (0 : Fin 2) ∈ (rowScatterDims N E C wf).scatterDimsToOperandDims from List.mem_singleton.mpr rfl)]
    have hsi : (rowScatterDims N E C wf).siIdx (ix2 e c)
        ⟨List.idxOf (0 : Fin 2) (rowScatterDims N E C wf).scatterDimsToOperandDims,
          List.idxOf_lt_length_iff.2 (List.mem_singleton.mpr rfl)⟩ = edgeIdx e := by
      funext b; refine Fin.ext ?_
      match b with
      | ⟨0, _⟩ => rfl
      | ⟨1, _⟩ => rfl
    rw [hsi]
  have hs1 : (rowScatterDims N E C wf).start (ix2 e c) idx 1 = 0 := by
    unfold ScatterDims.start
    rw [dif_neg (show ¬ (1 : Fin 2) ∈ (rowScatterDims N E C wf).scatterDimsToOperandDims from
      (by decide : ¬ (1 : Fin 2) ∈ ([0] : List (Fin 2))))]
  have hw0 : (rowScatterDims N E C wf).window (ix2 e c) 0 = 0 := by
    unfold ScatterDims.window
    rw [dif_neg (show ¬ (0 : Fin 2) ∈ (rowScatterDims N E C wf).sKept from
      (by decide : ¬ (0 : Fin 2) ∈ (List.finRange 2).filter (fun a => a ∉ ([0] : List (Fin 2)))))]
  have hw1 : (rowScatterDims N E C wf).window (ix2 e c) 1 = c.val := by
    unfold ScatterDims.window
    rw [dif_pos (show (1 : Fin 2) ∈ (rowScatterDims N E C wf).sKept from
      (by decide : (1 : Fin 2) ∈ (List.finRange 2).filter (fun a => a ∉ ([0] : List (Fin 2)))))]
    rfl
  unfold ScatterDims.resultIdx? at h
  split at h
  · rename_i hall
    have h' := Option.some.inj h
    have h0 : ((rowScatterDims N E C wf).start (ix2 e c) idx 0 + (rowScatterDims N E C wf).window (ix2 e c) 0).toNat
        = n.val := congrArg (fun f => (f 0).val) h'
    have h1 : ((rowScatterDims N E C wf).start (ix2 e c) idx 1 + (rowScatterDims N E C wf).window (ix2 e c) 1).toNat
        = c'.val := congrArg (fun f => (f 1).val) h'
    have ha0 := (hall 0).1
    rw [hs0, hw0] at h0 ha0
    rw [hs1, hw1] at h1
    refine ⟨?_, Fin.ext ?_⟩
    · omega
    · omega
  · exact absurd h (by simp)

/-- A nonnegative factor other than `+∞` distributes over a finite sum of extended reals. -/
theorem mul_sum_of_nonneg_ne_top {ι : Type*} (s : Finset ι) (f : ι → EReal) {a : EReal} (h0 : 0 ≤ a) (ht : a ≠ ⊤) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- A factor `a` (nonnegative, not `+∞`) carried by every update that lands on element `i` moves out of the
    scatter-add into zero at `i`. -/
theorem hostScatterAdd_scale {s si su : Shape} (d : ScatterDims s si su) {w : Nat} (Z : s.Idx → EReal) (idx : IVec si w)
    (f g : su.Idx → EReal) (i : s.Idx) (hZ : Z i = 0) {a : EReal} (h0 : 0 ≤ a) (ht : a ≠ ⊤)
    (hfg : ∀ j, d.resultIdx? j idx = some i → f j = a * g j) :
    Ideal.hostScatterAdd d Z idx f i = a * Ideal.hostScatterAdd d Z idx g i := by
  show Z i + _ = a * (Z i + _)
  rw [hZ, zero_add, zero_add, mul_sum_of_nonneg_ne_top _ _ h0 ht]
  refine Finset.sum_congr rfl fun j hj => ?_
  exact hfg j (Finset.mem_filter.mp hj).2

/-- Equal updates on what lands at `i` give equal scatter-adds at `i`. -/
theorem hostScatterAdd_congr {s si su : Shape} (d : ScatterDims s si su) {w : Nat} (Z Z' : s.Idx → EReal) (idx : IVec si w)
    (f g : su.Idx → EReal) (i : s.Idx) (hZ : Z i = Z' i)
    (hfg : ∀ j, d.resultIdx? j idx = some i → f j = g j) :
    Ideal.hostScatterAdd d Z idx f i = Ideal.hostScatterAdd d Z' idx g i := by
  show Z i + _ = Z' i + _
  rw [hZ]
  congr 1
  refine Finset.sum_congr rfl fun j hj => ?_
  exact hfg j (Finset.mem_filter.mp hj).2

/-- The reciprocal square root of an extended real that is at least one is a nonnegative extended real other than `+∞`. -/
theorem rsqrt_of_one_le (y : EReal) (h : 1 ≤ y) : 0 ≤ Ideal.rsqrt y ∧ Ideal.rsqrt y ≠ ⊤ := by
  induction y using EReal.rec with
  | bot => exact absurd h (not_le.mpr (EReal.bot_lt_coe 1))
  | top => exact ⟨le_refl _, EReal.zero_ne_top⟩
  | coe r =>
    have hr : (1 : ℝ) ≤ r := by exact_mod_cast h
    have h1 : ¬ r < 0 := by linarith
    have h2 : ¬ r = 0 := by intro h0; rw [h0] at hr; linarith
    have hv : Ideal.rsqrt (r : EReal) = (((Real.sqrt r)⁻¹ : ℝ) : EReal) := by
      show (if r < 0 then ⊥ else if r = 0 then ⊤ else (((Real.sqrt r)⁻¹ : ℝ) : EReal)) = _
      rw [if_neg h1, if_neg h2]
    rw [hv]
    exact ⟨EReal.coe_nonneg.mpr (inv_nonneg.mpr (Real.sqrt_nonneg r)), EReal.coe_ne_top _⟩

end Cert.LibRowGather

end
-- ==== Proof.LibRowScatterSum.lean ====
/-
  A row scatter-add through an index column, read at an entry as a sum over the edges that land on the row.

  For an operand [N, C], indices [E, 1] and updates [E, C], update (e, c) lands on entry (n, c') exactly when
  the signed index word of e is n and c = c'. So the scatter-add at entry (n, c) is the operand's entry plus the sum,
  over the edges e whose word is n, of the update (e, c); and the same for a vector operand [N] with updates [E].
-/
import Mathlib
import Idealize.ShloMosaic.PureOps.Ideal
import Idealize.ShloMosaic.PureOps.Ideal.Laws
import Idealize.ShloMosaic.Lib.ValueIdx
import proofs.«155784_j56238301774267_2_alg».proof.Proof.LibRowGather

noncomputable section

open scoped BigOperators

namespace Cert.LibRowScatterSum

open Idealize.ShloMosaic Idealize.ShloMosaic.ValueIdx Cert.LibRowGather

variable {N E C w : Nat} (wf : ScatterDims.WF ⟨2, ![N, C]⟩ ⟨2, ![E, 1]⟩ ⟨2, ![E, C]⟩ [1] [0] [0] 1)

/-- The window of update (e, c) starts, on the row axis, at the signed index word of e. -/
theorem start_row (idx : IVec ⟨2, ![E, 1]⟩ w) (e : Fin E) (c : Fin C) :
    (rowScatterDims N E C wf).start (ix2 e c) idx 0 = (idx (edgeIdx e)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = edgeIdx e := by
    funext b; refine Fin.ext ?_
    match b with
    | ⟨0, _⟩ => rfl
    | ⟨1, _⟩ => rfl
  rw [hsi]

/-- … and, on the lane axis, at zero. -/
theorem start_lane (idx : IVec ⟨2, ![E, 1]⟩ w) (e : Fin E) (c : Fin C) :
    (rowScatterDims N E C wf).start (ix2 e c) idx 1 = 0 := by
  unfold ScatterDims.start
  rw [dif_neg (show ¬ (1 : Fin 2) ∈ (rowScatterDims N E C wf).scatterDimsToOperandDims from
    (by decide : ¬ (1 : Fin 2) ∈ ([0] : List (Fin 2))))]

/-- The window coordinate of update (e, c) is zero on the row axis … -/
theorem window_row (e : Fin E) (c : Fin C) : (rowScatterDims N E C wf).window (ix2 e c) 0 = 0 := by
  unfold ScatterDims.window
  rw [dif_neg (show ¬ (0 : Fin 2) ∈ (rowScatterDims N E C wf).sKept from
    (by decide : ¬ (0 : Fin 2) ∈ (List.finRange 2).filter (fun a => a ∉ ([0] : List (Fin 2)))))]

/-- … and its lane on the lane axis. -/
theorem window_lane (e : Fin E) (c : Fin C) : (rowScatterDims N E C wf).window (ix2 e c) 1 = c.val := by
  unfold ScatterDims.window
  rw [dif_pos (show (1 : Fin 2) ∈ (rowScatterDims N E C wf).sKept from
    (by decide : (1 : Fin 2) ∈ (List.finRange 2).filter (fun a => a ∉ ([0] : List (Fin 2)))))]
  rfl

/-- Update (e, c) lands on entry (n, c') exactly when the signed word of e is n and the lanes agree. -/
theorem lands_iff (idx : IVec ⟨2, ![E, 1]⟩ w) (e : Fin E) (c : Fin C) (n : Fin N) (c' : Fin C) :
    (rowScatterDims N E C wf).resultIdx? (ix2 e c) idx = some (ix2 n c')
      ↔ (idx (edgeIdx e)).toInt = (n.val : ℤ) ∧ c = c' := by
  constructor
  · exact scatter_row_lands wf idx e c n c'
  · rintro ⟨hw, rfl⟩
    have hall : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        have h0 := start_row wf idx e c
        have h1 := window_row wf e c
        have hn := n.isLt
        show 0 ≤ (rowScatterDims N E C wf).start (ix2 e c) idx 0 + ((rowScatterDims N E C wf).window (ix2 e c) 0 : ℤ)
          ∧ (rowScatterDims N E C wf).start (ix2 e c) idx 0 + ((rowScatterDims N E C wf).window (ix2 e c) 0 : ℤ) < (N : ℤ)
        rw [h0, h1, hw]; constructor <;> omega
      | ⟨1, _⟩ =>
        have h0 := start_lane wf idx e c
        have h1 := window_lane wf e c
        have hc := c.isLt
        show 0 ≤ (rowScatterDims N E C wf).start (ix2 e c) idx 1 + ((rowScatterDims N E C wf).window (ix2 e c) 1 : ℤ)
          ∧ (rowScatterDims N E C wf).start (ix2 e c) idx 1 + ((rowScatterDims N E C wf).window (ix2 e c) 1 : ℤ) < (C : ℤ)
        rw [h0, h1]; constructor <;> omega
    unfold ScatterDims.resultIdx?
    rw [dif_pos hall]
    refine congrArg some ?_
    funext a
    refine Fin.ext ?_
    match a with
    | ⟨0, _⟩ =>
      show ((rowScatterDims N E C wf).start (ix2 e c) idx 0 + ((rowScatterDims N E C wf).window (ix2 e c) 0 : ℤ)).toNat = n.val
      rw [start_row wf idx e c, window_row wf e c, hw]; omega
    | ⟨1, _⟩ =>
      show ((rowScatterDims N E C wf).start (ix2 e c) idx 1 + ((rowScatterDims N E C wf).window (ix2 e c) 1 : ℤ)).toNat = c.val
      rw [start_lane wf idx e c, window_lane wf e c]; omega

/-- The row scatter-add at entry (n, c): the operand's entry plus the updates (e, c) of the edges whose word is n. -/
theorem hostScatterAdd_rows_apply (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd (rowScatterDims N E C wf) Z idx u (ix2 n c)
      = Z (ix2 n c) + ∑ e ∈ Finset.univ.filter (fun e : Fin E => (idx (edgeIdx e)).toInt = (n.val : ℤ)), u (ix2 e c) := by
  classical
  show Z (ix2 n c) + _ = _
  congr 1
  rw [Finset.sum_filter, sum_idx2, Finset.sum_filter]
  refine Finset.sum_congr rfl fun e _ => ?_
  by_cases hw : (idx (edgeIdx e)).toInt = (n.val : ℤ)
  · rw [if_pos hw, Finset.sum_eq_single c]
    · rw [if_pos ((lands_iff wf idx e c n c).mpr ⟨hw, rfl⟩)]
    · intro c₁ _ hne
      rw [if_neg]
      intro h
      exact hne ((lands_iff wf idx e c₁ n c).mp h).2
    · intro h; exact absurd (Finset.mem_univ c) h
  · rw [if_neg hw]
    refine Finset.sum_eq_zero fun c₁ _ => ?_
    rw [if_neg]
    intro h
    exact hw ((lands_iff wf idx e c₁ n c).mp h).1

end Cert.LibRowScatterSum

end
-- ==== Proof.LibRowDims.lean ====
/-
  Row gathers and row scatter-adds through an index column, for any dimension-number record with the right fields.

  A record of gather (or scatter) dimension numbers is determined by its fields. So the readings of the row gather and of
  the row scatter-add at an entry hold for every record whose fields say "rows through an index column", whatever name a
  program gives that record.
-/
import Mathlib
import Idealize.ShloMosaic.PureOps.Ideal
import Idealize.ShloMosaic.PureOps.Ideal.Laws
import Idealize.ShloMosaic.Lib.ValueIdx
import proofs.«155784_j56238301774267_2_alg».proof.Proof.LibRowGather
import proofs.«155784_j56238301774267_2_alg».proof.Proof.LibRowScatterSum

noncomputable section

open scoped BigOperators

namespace Cert.LibRowDims

open Idealize.ShloMosaic Idealize.ShloMosaic.ValueIdx Cert.LibRowGather

variable {N E C w : Nat}

/-- The row scatter-add at entry (n, c), for any record with the row-scatter fields. -/
theorem hostScatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (Z : (⟨2, ![N, C]⟩ : Shape).Idx → EReal) (idx : IVec ⟨2, ![E, 1]⟩ w)
    (u : (⟨2, ![E, C]⟩ : Shape).Idx → EReal) (n : Fin N) (c : Fin C) :
    Ideal.hostScatterAdd d Z idx u (ix2 n c)
      = Z (ix2 n c) + ∑ e ∈ Finset.univ.filter (fun e : Fin E => (idx (edgeIdx e)).toInt = (n.val : ℤ)), u (ix2 e c) := by
  obtain ⟨uw, iw, sd, iv, wf⟩ := d
  dsimp only at h1 h2 h3 h4
  subst h1 h2 h3 h4
  exact Cert.LibRowScatterSum.hostScatterAdd_rows_apply wf Z idx u n c

/-- The row gather at edge e, lane c, for any record with the row-gather fields. -/
theorem gather_row_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 (rowOf N hN (idx (edgeIdx e))) c) := by
  obtain ⟨od, cs, ob, sb, sm, iv, ss, wf⟩ := d
  dsimp only at h1 h2 h3 h4 h5 h6 h7
  subst h1 h2 h3 h4 h5 h6 h7
  exact Cert.LibRowGather.gather_row_apply hN wf x idx e c

end Cert.LibRowDims

end
-- ==== Proof.Spec.lean ====
/-
  The cell's result, entry by entry, as one function of the argument arrays.

  Nodes n < 10000, features k, j < 128, edges e < 650000 (the given edges followed by one self loop per node). An edge
  carries a source row (its source word read signed and clamped into the node range), a destination word, and a
  weight nrm e. Edge e lands on node n when its destination word, read signed, is n.

    agg n k   = Σ over the edges e landing on n of  X[src e, k] · nrm e          (the neighbourhood sum of X)
    conv n j  = Σ_k agg n k · W[k, j] + b[j]                                      (one graph convolution)
    gate j    = Σ_k g k · Wl[k, j] + Σ_k h k · Wl[128 + k, j] + bl[j]             (a linear layer on [g, h])
    c' = tanh(gate_ct) · σ(gate_i) + σ(gate_f) · c ,   h' = σ(gate_o) · tanh(c')

  where gate_i reads conv_i, gate_f and gate_ct read conv_f, gate_o reads conv_o, and all read the row of H.
-/
import Mathlib
import Idealize.ShloMosaic.PureOps.Ideal
import Idealize.ShloMosaic.PureOps.Ideal.Laws
import Idealize.ShloMosaic.Lib.ValueIdx
import proofs.«155784_j56238301774267_2_alg».proof.Proof.LibRowGather

noncomputable section

open scoped BigOperators

namespace Cert.Spec

open Idealize.ShloMosaic Idealize.ShloMosaic.ValueIdx Cert.LibRowGather

/-- Node arrays [10000, 128], square weights [128, 128], stacked weights [256, 128], biases [128], the edge index
    column [650000, 1] and the edge weights [650000]. -/
abbrev SNode : Shape := ⟨2, ![10000, 128]⟩
abbrev SSq : Shape := ⟨2, ![128, 128]⟩
abbrev SStk : Shape := ⟨2, ![256, 128]⟩
abbrev SBias : Shape := ⟨1, ![128]⟩
abbrev SCol : Shape := ⟨2, ![650000, 1]⟩
abbrev SEdge : Shape := ⟨1, ![650000]⟩

/-- The node whose row edge `e` reads: the source word signed and clamped into the node range. -/
def srcRow (src : IVec SCol 32) (e : Fin 650000) : Fin 10000 := rowOf 10000 (by decide) (src (edgeIdx e))

/-- The edges that land on node `n`: those whose destination word, read signed, is `n`. -/
def landing (dst : IVec SCol 32) (n : Fin 10000) : Finset (Fin 650000) :=
  Finset.univ.filter fun e => (dst (edgeIdx e)).toInt = (n.val : ℤ)

/-- The neighbourhood sum of `X`: over the edges landing on `n`, the source row's feature `k` times the edge's weight. -/
def agg (X : SNode.Idx → EReal) (src dst : IVec SCol 32) (nrm : SEdge.Idx → EReal) (n : Fin 10000) (k : Fin 128) : EReal :=
  ∑ e ∈ landing dst n, X (ix2 (srcRow src e) k) * nrm (ix1 e)

/-- A row of 128 features against a column of 128 weights, plus a bias. -/
def dotb (a w : Fin 128 → EReal) (b : EReal) : EReal := (∑ k : Fin 128, a k * w k) + b

/-- One graph convolution at node `n`, output feature `j`. -/
def conv (X : SNode.Idx → EReal) (src dst : IVec SCol 32) (nrm : SEdge.Idx → EReal) (W : SSq.Idx → EReal)
    (b : SBias.Idx → EReal) (n : Fin 10000) (j : Fin 128) : EReal :=
  dotb (agg X src dst nrm n) (fun k => W (ix2 k j)) (b (ix1 j))

/-- Rows of the stacked weight: the top half multiplies the convolution, the bottom half the hidden state. -/
def top (k : Fin 128) : Fin 256 := ⟨k.val, by have := k.isLt; omega⟩
def bot (k : Fin 128) : Fin 256 := ⟨128 + k.val, by have := k.isLt; omega⟩

/-- Two rows of 128 features, each against its own column of weights, plus a bias. -/
def lin (g h wt wb : Fin 128 → EReal) (b : EReal) : EReal :=
  ((∑ k : Fin 128, g k * wt k) + (∑ k : Fin 128, h k * wb k)) + b

/-- The linear layer on the row [g, h] of 256 features, output feature `j`: the top half of the stacked weight
    meets g, the bottom half meets h. -/
def gate (g h : Fin 128 → EReal) (Wl : SStk.Idx → EReal) (bl : SBias.Idx → EReal) (j : Fin 128) : EReal :=
  lin g h (fun k => Wl (ix2 (top k) j)) (fun k => Wl (ix2 (bot k) j)) (bl (ix1 j))

/-- The new cell state from the four pre-activations and the old cell state. -/
def cellOf (pi pf pct c : EReal) : EReal := Ideal.tanh pct * Ideal.logistic pi + Ideal.logistic pf * c

/-- The new hidden state. -/
def hiddenOf (pi pf po pct c : EReal) : EReal := Ideal.logistic po * Ideal.tanh (cellOf pi pf pct c)

/-- The arrays the cell reads, bundled: features, index columns, edge weights, states, and per gate the convolution
    weight and bias (input, forget, output) and the linear weight and bias (input, forget, output, candidate). -/
structure Args where
  X : SNode.Idx → EReal
  src : IVec SCol 32
  dst : IVec SCol 32
  nrm : SEdge.Idx → EReal
  H : SNode.Idx → EReal
  C : SNode.Idx → EReal
  Wci : SSq.Idx → EReal
  bci : SBias.Idx → EReal
  Wli : SStk.Idx → EReal
  bli : SBias.Idx → EReal
  Wcf : SSq.Idx → EReal
  bcf : SBias.Idx → EReal
  Wlf : SStk.Idx → EReal
  blf : SBias.Idx → EReal
  Wco : SSq.Idx → EReal
  bco : SBias.Idx → EReal
  Wlo : SStk.Idx → EReal
  blo : SBias.Idx → EReal
  Wlct : SStk.Idx → EReal
  blct : SBias.Idx → EReal

namespace Args
variable (A : Args)

def convI (n : Fin 10000) (j : Fin 128) : EReal := conv A.X A.src A.dst A.nrm A.Wci A.bci n j
def convF (n : Fin 10000) (j : Fin 128) : EReal := conv A.X A.src A.dst A.nrm A.Wcf A.bcf n j
def convO (n : Fin 10000) (j : Fin 128) : EReal := conv A.X A.src A.dst A.nrm A.Wco A.bco n j
def hrow (n : Fin 10000) (k : Fin 128) : EReal := A.H (ix2 n k)

def preI (n : Fin 10000) (j : Fin 128) : EReal := gate (A.convI n) (A.hrow n) A.Wli A.bli j
def preF (n : Fin 10000) (j : Fin 128) : EReal := gate (A.convF n) (A.hrow n) A.Wlf A.blf j
def preO (n : Fin 10000) (j : Fin 128) : EReal := gate (A.convO n) (A.hrow n) A.Wlo A.blo j
def preCt (n : Fin 10000) (j : Fin 128) : EReal := gate (A.convF n) (A.hrow n) A.Wlct A.blct j

/-- The new cell state at node `n`, feature `j`. -/
def cNew (n : Fin 10000) (j : Fin 128) : EReal :=
  cellOf (A.preI n j) (A.preF n j) (A.preCt n j) (A.C (ix2 n j))

/-- The new hidden state at node `n`, feature `j`. -/
def hNew (n : Fin 10000) (j : Fin 128) : EReal :=
  hiddenOf (A.preI n j) (A.preF n j) (A.preO n j) (A.preCt n j) (A.C (ix2 n j))

/-- The results as whole arrays. -/
def cArr : SNode.Idx → EReal := fun i => A.cNew (i 0) (i 1)
def hArr : SNode.Idx → EReal := fun i => A.hNew (i 0) (i 1)

end Args

end Cert.Spec

end
-- ==== Proof.KernelHost.lean ====
/-
  What the region finds in its operands: the host operations before the region, read at an entry.

  Window 0 holds the neighbourhood sums of X (rows gathered by source, scaled by the edge weight, scatter-added by
  destination into zeros); windows 1 and 2 the two states; window 3 the three convolution weights side by side, window 4
  their biases as one row; then, per gate, the top half and the bottom half of the stacked weight and the bias as a
  row.
-/
import proofs.«155784_j56238301774267_2_alg».proof.Proof.FrameData
import proofs.«155784_j56238301774267_2_alg».proof.Proof.LibConcat3
import proofs.«155784_j56238301774267_2_alg».proof.Proof.LibRowScatterSum
import proofs.«155784_j56238301774267_2_alg».proof.Proof.LibRowDims
import proofs.«155784_j56238301774267_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open scoped BigOperators

namespace Cert.KernelIdeal.HostValue

open Idealize.ShloMosaic Idealize.ShloMosaic.TcCoe Idealize.ShloMosaic.ValueIdx Idealize.SL.Sem
open Idealize.ShloMosaic.StableHlo
open Cert.KernelIdeal Cert.KernelIdeal.Gen Cert.KernelIdeal.Hand Cert.Spec Cert.LibRowGather

section Nary3
variable {nD : Nat} {τ : Topo} {sig : RefSig} {Val : EltTy → Type} {x a b y : Ref sig .tc}

/-- A three-operand operation's result, with each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl
end Nary3

/-- The buffers' contents after the host operations, by one pass over the operations. -/
macro "host_results" : tactic =>
  `(tactic| (dsimp only [V]
             simp only [hostOps0, hostOps0_1, hostOps0_2, List.flatten_cons, List.flatten_nil, List.append_nil, List.cons_append,
               List.nil_append]
             simp (disch := decide) only [after_cons, after_nil,
               nullary_result', unary_result', binary_result', ternary_result', quaternary_result', reshape_result', nary3_result', nary_result',
               unaryIndexed_result', binaryIndexed_result',
               nullary_result_ne', unary_result_ne', binary_result_ne', ternary_result_ne', quaternary_result_ne', reshape_result_ne',
               nary_result_ne', unaryIndexed_result_ne', binaryIndexed_result_ne']))

variable (m : (ℓ : Loc nD τ sig) → Buf (Elt Ideal) ℓ) (c : Dev nD)

/-- Shorthand: an argument array of core `c`. -/
abbrev arg (b : Ref sig .tc) : Buf (Elt Ideal) ((c : Thread nD τ).loc b) := m ((c : Thread nD τ).loc b)

/-! ## The stacked weights' halves and the biases as rows -/

theorem V_v50 : (V m c main_v50 : S128x128.Idx → EReal)
    = extractStridedSlice S128x128 ![0, 0] (arg m c main_arg7) slices_S256x128_S128x128_0_0 := by host_results
theorem V_v51 : (V m c main_v51 : S128x128.Idx → EReal)
    = extractStridedSlice S128x128 ![128, 0] (arg m c main_arg7) slices_S256x128_S128x128_128_0 := by host_results
theorem V_v52 : (V m c main_v52 : S128x128.Idx → EReal)
    = extractStridedSlice S128x128 ![0, 0] (arg m c main_arg11) slices_S256x128_S128x128_0_0 := by host_results
theorem V_v53 : (V m c main_v53 : S128x128.Idx → EReal)
    = extractStridedSlice S128x128 ![128, 0] (arg m c main_arg11) slices_S256x128_S128x128_128_0 := by host_results
theorem V_v54 : (V m c main_v54 : S128x128.Idx → EReal)
    = extractStridedSlice S128x128 ![0, 0] (arg m c main_arg15) slices_S256x128_S128x128_0_0 := by host_results
theorem V_v55 : (V m c main_v55 : S128x128.Idx → EReal)
    = extractStridedSlice S128x128 ![128, 0] (arg m c main_arg15) slices_S256x128_S128x128_128_0 := by host_results
theorem V_v56 : (V m c main_v56 : S128x128.Idx → EReal)
    = extractStridedSlice S128x128 ![0, 0] (arg m c main_arg19) slices_S256x128_S128x128_0_0 := by host_results
theorem V_v57 : (V m c main_v57 : S128x128.Idx → EReal)
    = extractStridedSlice S128x128 ![128, 0] (arg m c main_arg19) slices_S256x128_S128x128_128_0 := by host_results

theorem V_v58 : (V m c main_v58 : S1x128.Idx → EReal) = shapeCast S1x128 (arg m c main_arg8) shapeCasts_S128_S1x128 := by
  host_results
  rfl
theorem V_v59 : (V m c main_v59 : S1x128.Idx → EReal) = shapeCast S1x128 (arg m c main_arg12) shapeCasts_S128_S1x128 := by
  host_results
  rfl
theorem V_v60 : (V m c main_v60 : S1x128.Idx → EReal) = shapeCast S1x128 (arg m c main_arg16) shapeCasts_S128_S1x128 := by
  host_results
  rfl
theorem V_v61 : (V m c main_v61 : S1x128.Idx → EReal) = shapeCast S1x128 (arg m c main_arg20) shapeCasts_S128_S1x128 := by
  host_results
  rfl

/-- The top half of a stacked weight, at an entry: row k of the top is row k of the whole. -/
theorem top_apply (W : S256x128.Idx → EReal) (k j : Fin 128) :
    extractStridedSlice S128x128 ![0, 0] W slices_S256x128_S128x128_0_0 (ix2 k j) = W (ix2 (Spec.top k) j) :=
  extractStridedSlice_apply ![0, 0] W slices_S256x128_S128x128_0_0 (ix2 k j) (ix2 (Spec.top k) j) (fun a => by
    match a with
    | ⟨0, _⟩ => show k.val = 0 + k.val; omega
    | ⟨1, _⟩ => show j.val = 0 + j.val; omega)

/-- The bottom half: row k of the bottom is row 128 + k of the whole. -/
theorem bot_apply (W : S256x128.Idx → EReal) (k j : Fin 128) :
    extractStridedSlice S128x128 ![128, 0] W slices_S256x128_S128x128_128_0 (ix2 k j) = W (ix2 (Spec.bot k) j) :=
  extractStridedSlice_apply ![128, 0] W slices_S256x128_S128x128_128_0 (ix2 k j) (ix2 (Spec.bot k) j) (fun a => by
    match a with
    | ⟨0, _⟩ => rfl
    | ⟨1, _⟩ => show j.val = 0 + j.val; omega)

/-- A bias recast as one row, at an entry of that row. -/
theorem row_apply (b : S128.Idx → EReal) (j : Fin 128) :
    shapeCast S1x128 b shapeCasts_S128_S1x128 (ix2 (0 : Fin 1) j) = b (ix1 j) := by
  refine (shapeCast_addUnit_apply ![128] b shapeCasts_S128_S1x128 (ix2 (0 : Fin 1) j)).trans ?_
  refine congrArg b ?_
  funext a
  match a with
  | ⟨0, _⟩ => rfl

/-! ## The three convolution weights side by side, and their biases in one row -/

theorem V_v47 : (V m c main_v47 : S128x384.Idx → EReal)
    = concatenate S128x384 1 [⟨S128x128, arg m c main_arg5⟩, ⟨S128x128, arg m c main_arg9⟩, ⟨S128x128, arg m c main_arg13⟩]
        concatenates_S128x128_S128x128_S128x128_S128x384_d1 := by
  host_results
  rfl

theorem V_v49 : (V m c main_v49 : S1x384.Idx → EReal)
    = shapeCast S1x384 (concatenate S384 0 [⟨S128, arg m c main_arg6⟩, ⟨S128, arg m c main_arg10⟩, ⟨S128, arg m c main_arg14⟩]
        concatenates_S128_S128_S128_S384_d0) shapeCasts_S384_S1x384 := by
  host_results
  rfl

/-! ## The neighbourhood sums -/

theorem V_v46 : (V m c main_v46 : S10000x128.Idx → EReal)
    = Host.scatterAdd scatter_S10000x128_S650000x1_S650000x128_1_0_0_1
        (broadcastInDim S10000x128 ![] bcast_S_S10000x128 (constant (F := Ideal) S_ .f32 0x00000000#32))
        (V m c main_v45)
        (mulf (Host.gather gather_S10000x128_S650000x1_S650000x128_1_0_n_n_0_1_1128 (arg m c main_arg0) (V m c main_v39))
          (broadcastInDim S650000x128 ![0, 1] bcast_S650000x1_S650000x128_0_1
            (broadcastInDim S650000x1 ![0] bcast_S650000_S650000x1_0 (V m c main_v33)))) := by
  host_results

/-- Three bias vectors [n] laid end to end, read at position q: the piece whose span holds q. -/
def end3 {α : Type} (a b c : S128.Idx → α) (q : Fin 384) : α :=
  if h0 : q.val < 128 then a (ix1 ⟨q.val, h0⟩)
  else if h1 : q.val < 256 then b (ix1 ⟨q.val - 128, by omega⟩)
  else c (ix1 ⟨q.val - 256, by have := q.isLt; omega⟩)

theorem concat3_vec_apply {α : Type} (a b c : S128.Idx → α)
    (h : Shape.Concatenates ([(⟨S128, a⟩ : (s : Shape) × (s.Idx → α)), ⟨S128, b⟩, ⟨S128, c⟩].map (·.1)) S384 (0 : Fin 1))
    (q : Fin 384) :
    concatenate S384 (0 : Fin 1) [⟨S128, a⟩, ⟨S128, b⟩, ⟨S128, c⟩] h (ix1 q) = end3 a b c q := by
  unfold end3
  have hoff : ∀ (i : S128.Idx) (bb : Fin S128.rank), bb.cast (rfl : S128.rank = S384.rank) ≠ (0 : Fin 1) →
      (i bb).val = ((ix1 q : S384.Idx) (bb.cast rfl)).val := by
    intro i bb hbb
    match bb with
    | ⟨0, _⟩ => exact absurd rfl hbb
  by_cases h0 : q.val < 128
  · rw [dif_pos h0]
    exact concatenate_apply_piece (0 : Fin 1) _ h (ix1 q) 0 (by simp) S128 a rfl rfl 0 rfl
      (ix1 ⟨q.val, h0⟩) (hoff _) (by show 0 + q.val = q.val; omega)
  · rw [dif_neg h0]
    by_cases h1 : q.val < 256
    · rw [dif_pos h1]
      exact concatenate_apply_piece (0 : Fin 1) _ h (ix1 q) 1 (by simp) S128 b rfl rfl 128 (by simp)
        (ix1 ⟨q.val - 128, by omega⟩) (hoff _) (by show 128 + (q.val - 128) = q.val; omega)
    · rw [dif_neg h1]
      exact concatenate_apply_piece (0 : Fin 1) _ h (ix1 q) 2 (by simp) S128 c rfl rfl 256 (by simp)
        (ix1 ⟨q.val - 256, by have := q.isLt; omega⟩) (hoff _)
        (by show 256 + (q.val - 256) = q.val; omega)

/-- Window 3 at row k, lane q: the convolution weight whose span of lanes holds q. -/
theorem V_v47_apply (k : Fin 128) (q : Fin 384) :
    (V m c main_v47 : S128x384.Idx → EReal) (ix2 k q)
      = Cert.LibConcat3.side3 (n := 128) (w := 384) rfl (arg m c main_arg5) (arg m c main_arg9) (arg m c main_arg13) k q := by
  rw [V_v47]
  exact Cert.LibConcat3.concatenate3_lanes_apply (R := 128) (n := 128) (w := 384) rfl _ _ _ _ k q

/-- Window 4 at lane q: the convolution bias whose span holds q. -/
theorem V_v49_apply (q : Fin 384) :
    (V m c main_v49 : S1x384.Idx → EReal) (ix2 (0 : Fin 1) q)
      = end3 (arg m c main_arg6) (arg m c main_arg10) (arg m c main_arg14) q := by
  rw [V_v49]
  refine (shapeCast_addUnit_apply ![384] _ shapeCasts_S384_S1x384 (ix2 (0 : Fin 1) q)).trans ?_
  refine Eq.trans (congrArg _ ?_) (concat3_vec_apply _ _ _ _ q)
  funext a
  match a with
  | ⟨0, _⟩ => rfl

/-- The host's row scatter-add at entry (n, j): the operand's entry plus the updates (e, j) of the edges landing on n. -/
theorem scatter_apply (Z : FVec Ideal S10000x128 .f32) (dst : IVec S650000x1 32) (u : FVec Ideal S650000x128 .f32)
    (n : Fin 10000) (j : Fin 128) :
    Host.scatterAdd scatter_S10000x128_S650000x1_S650000x128_1_0_0_1 Z dst u (ix2 n j)
      = Z (ix2 n j) + ∑ e ∈ landing dst n, u (ix2 e j) := by
  have h1 : Host.scatterAdd scatter_S10000x128_S650000x1_S650000x128_1_0_0_1 Z dst u
      = Ideal.hostScatterAdd scatter_S10000x128_S650000x1_S650000x128_1_0_0_1 Z dst u := rfl
  rw [h1]
  exact Cert.LibRowDims.hostScatterAdd_rows_apply scatter_S10000x128_S650000x1_S650000x128_1_0_0_1 rfl rfl rfl rfl Z dst u n j

/-- The edge weight laid along the 128 lanes of the edge's row reads, at (e, c), the weight of edge e. -/
theorem laneWeight_apply (nrm : FVec Ideal S650000 .f32) (e : Fin 650000) (c : Fin 128) :
    broadcastInDim S650000x128 ![0, 1] bcast_S650000x1_S650000x128_0_1
      (broadcastInDim S650000x1 ![0] bcast_S650000_S650000x1_0 nrm) (ix2 e c) = nrm (ix1 e) := by
  refine (broadcastInDim_apply _ bcast_S650000x1_S650000x128_0_1 _ (ix2 e c) (ix2 e (0 : Fin 1)) (fun a => match a with
    | ⟨0, _⟩ => by show e.val = if (650000 : Nat) = 1 then 0 else e.val; rw [if_neg (by decide)]
    | ⟨1, _⟩ => by show 0 = if (1 : Nat) = 1 then 0 else c.val; rw [if_pos rfl])).trans ?_
  exact broadcastInDim_apply _ bcast_S650000_S650000x1_0 nrm (ix2 e (0 : Fin 1)) (ix1 e) (fun a => match a with
    | ⟨0, _⟩ => by show e.val = if (650000 : Nat) = 1 then 0 else e.val; rw [if_neg (by decide)])

/-- Rows of X gathered by source, scaled by the edge weight and scatter-added by destination into zeros, at node n and
    feature k: the neighbourhood sum of X. -/
theorem ax_apply (X : FVec Ideal S10000x128 .f32) (src dst : IVec S650000x1 32) (nrm : FVec Ideal S650000 .f32)
    (n : Fin 10000) (k : Fin 128) :
    Host.scatterAdd (F := Ideal) scatter_S10000x128_S650000x1_S650000x128_1_0_0_1
        (broadcastInDim S10000x128 ![] bcast_S_S10000x128 (constant (F := Ideal) S_ .f32 0x00000000#32))
        dst
        (mulf (Host.gather gather_S10000x128_S650000x1_S650000x128_1_0_n_n_0_1_1128 X src)
          (broadcastInDim S650000x128 ![0, 1] bcast_S650000x1_S650000x128_0_1
            (broadcastInDim S650000x1 ![0] bcast_S650000_S650000x1_0 nrm))) (ix2 n k)
      = agg X src dst nrm n k := by
  rw [scatter_apply]
  have hz : broadcastInDim S10000x128 ![] bcast_S_S10000x128 (constant (F := Ideal) S_ .f32 0x00000000#32) (ix2 n k) = 0 :=
    Ideal.ofBits_zero_f32
  rw [hz, zero_add]
  unfold agg
  refine Finset.sum_congr rfl fun e _ => ?_
  rw [mulf_apply, laneWeight_apply]
  refine congrArg (· * nrm (ix1 e)) ?_
  exact Cert.LibRowDims.gather_row_apply (by decide : 0 < 10000) gather_S10000x128_S650000x1_S650000x128_1_0_n_n_0_1_1128
    rfl rfl rfl rfl rfl rfl rfl X src e k

/-- Window 0 at node n, feature k. -/
theorem V_v46_apply (n : Fin 10000) (k : Fin 128) :
    (V m c main_v46 : S10000x128.Idx → EReal) (ix2 n k)
      = agg (arg m c main_arg0) (V m c main_v39) (V m c main_v45) (V m c main_v33) n k :=
  (congrFun (V_v46 m c) (ix2 n k)).trans (ax_apply _ _ _ _ n k)

end Cert.KernelIdeal.HostValue

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.KernelBody.lean ====
/-
  What the kernel body computes at one entry of its row block.

  The body sees a block of 1000 rows: `ax` (rows of the neighbourhood sums), `h` and `c` (rows of the two states),
  the three convolution weights side by side as one [128, 384] array `wc` with their biases `bc` : [1, 384], and per
  gate the top and bottom halves of the stacked weight and the bias as a row. At row p and feature j:

    gcat p q = Σ_k ax[p, k] · wc[k, q] + bc[0, q]                                  (three convolutions side by side)
    gate     = Σ_k g[p, k] · wt[k, j] + Σ_k h[p, k] · wb[k, j] + b[0, j]           with g one third of gcat
    c'[p, j] = tanh(gate_ct) · σ(gate_i) + σ(gate_f) · c[p, j] ,  h'[p, j] = σ(gate_o) · tanh(c'[p, j])

  The narrowing of the matrix operands to a shorter float format is the identity on extended reals, and a matrix
  product accumulated into zeros is the plain sum of products.
-/
import proofs.«155784_j56238301774267_2_alg».proof.Proof.Gen.KernelIdeal.Skeleton
import proofs.«155784_j56238301774267_2_alg».proof.Proof.LibDotRows
import proofs.«155784_j56238301774267_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Spec

/-- The first row of a one-row array. -/
abbrev row0 : Fin 1 := 0

/-- A [1000, 128] by [128, 384] product into zeros, at an entry. -/
theorem mm384_apply (x : FVec Ideal S1000x128 .bf16) (w : FVec Ideal S128x384 .bf16) (p : Fin 1000) (q : Fin 384) :
    matmul (F := Ideal) dot_S1000x128_S128x384_S1000x384_1_0_0_1_n_n none x w (constant S1000x384 .f32 0x00000000#32) (ix2 p q)
      = ∑ k : Fin 128, x (ix2 p k) * w (ix2 k q) :=
  Cert.Lib.DotRows.matmul_plain_apply (M := 1000) (K := 128) (N := 384) x w p q

/-- A [1000, 128] by [128, 128] product into zeros, at an entry. -/
theorem mm128_apply (x : FVec Ideal S1000x128 .bf16) (w : FVec Ideal S128x128 .bf16) (p : Fin 1000) (q : Fin 128) :
    matmul (F := Ideal) dot_S1000x128_S128x128_S1000x128_1_0_0_1_n_n none x w (constant S1000x128 .f32 0x00000000#32) (ix2 p q)
      = ∑ k : Fin 128, x (ix2 p k) * w (ix2 k q) :=
  Cert.Lib.DotRows.matmul_plain_apply (M := 1000) (K := 128) (N := 128) x w p q

/-- A bias row [1, 384] spread over 1000 rows, at an entry. -/
theorem bcast384_apply (b : FVec Ideal S1x384 .f32) (p : Fin 1000) (q : Fin 384) :
    broadcastTo S1000x384 b broadcasts_S1x384_S1000x384 (ix2 p q) = b (ix2 row0 q) :=
  broadcastTo_apply b broadcasts_S1x384_S1000x384 (ix2 p q) (ix2 row0 q) (fun a => by
    match a with
    | ⟨0, _⟩ => rfl
    | ⟨1, _⟩ => rfl)

/-- A bias row [1, 128] spread over 1000 rows, at an entry. -/
theorem bcast128_apply (b : FVec Ideal S1x128 .f32) (p : Fin 1000) (q : Fin 128) :
    broadcastTo S1000x128 b broadcasts_S1x128_S1000x128 (ix2 p q) = b (ix2 row0 q) :=
  broadcastTo_apply b broadcasts_S1x128_S1000x128 (ix2 p q) (ix2 row0 q) (fun a => by
    match a with
    | ⟨0, _⟩ => rfl
    | ⟨1, _⟩ => rfl)

/-- Lane `off + j` of a 384-lane row. -/
def lane (off : Nat) (hoff : off + 128 ≤ 384) (j : Fin 128) : Fin 384 := ⟨off + j.val, by have := j.isLt; omega⟩

/-- The three convolutions side by side, at row p and lane q. -/
theorem pay3_apply (v0 : Vec Ideal S1000x128 .f32) (v5 : Vec Ideal S128x384 .f32) (v9 : Vec Ideal S1x384 .f32)
    (p : Fin 1000) (q : Fin 384) :
    k0_pay3 (F := Ideal) v0 v5 v9 (ix2 p q)
      = (∑ k : Fin 128, v0 (ix2 p k) * v5 (ix2 k q)) + v9 (ix2 row0 q) := by
  unfold k0_pay3
  rw [shapeCast_self, shapeCast_self, shapeCast_self]
  show matmul (F := Ideal) dot_S1000x128_S128x384_S1000x384_1_0_0_1_n_n none _ _ _ (ix2 p q)
    + broadcastTo S1000x384 v9 broadcasts_S1x384_S1000x384 (ix2 p q) = _
  rw [mm384_apply, bcast384_apply]
  rfl

/-- A third of the 384 lanes, cut out at lane `off`: entry (p, j) is entry (p, off + j). -/
theorem slice_apply (off : Nat) (hoff : off + 128 ≤ 384) (x : FVec Ideal S1000x384 .f32)
    (hs : S1000x384.Slices ![0, off] S1000x128) (p : Fin 1000) (j : Fin 128) :
    extractStridedSlice S1000x128 ![0, off] x hs (ix2 p j) = x (ix2 p (lane off hoff j)) :=
  extractStridedSlice_apply ![0, off] x hs (ix2 p j) (ix2 p (lane off hoff j)) (fun a => by
    match a with
    | ⟨0, _⟩ => show p.val = 0 + p.val; omega
    | ⟨1, _⟩ => rfl)

/-- One linear layer of the body at row p, feature j: `g` and `h` are [1000, 128] blocks already narrowed, `wt`, `wb`
    the two [128, 128] weights, `b` the bias row. -/
theorem lin_apply (g h : FVec Ideal S1000x128 .bf16) (wt wb : FVec Ideal S128x128 .bf16) (b : FVec Ideal S1x128 .f32)
    (p : Fin 1000) (j : Fin 128) :
    addf (addf (matmul (F := Ideal) dot_S1000x128_S128x128_S1000x128_1_0_0_1_n_n none g wt (constant S1000x128 .f32 0x00000000#32))
        (matmul (F := Ideal) dot_S1000x128_S128x128_S1000x128_1_0_0_1_n_n none h wb (constant S1000x128 .f32 0x00000000#32)))
      (broadcastTo S1000x128 b broadcasts_S1x128_S1000x128) (ix2 p j)
    = Spec.lin (fun k => g (ix2 p k)) (fun k => h (ix2 p k)) (fun k => wt (ix2 k j)) (fun k => wb (ix2 k j)) (b (ix2 row0 j)) := by
  show matmul (F := Ideal) dot_S1000x128_S128x128_S1000x128_1_0_0_1_n_n none g wt _ (ix2 p j)
    + matmul (F := Ideal) dot_S1000x128_S128x128_S1000x128_1_0_0_1_n_n none h wb _ (ix2 p j)
    + broadcastTo S1000x128 b broadcasts_S1x128_S1000x128 (ix2 p j) = _
  rw [mm128_apply, mm128_apply, bcast128_apply]
  rfl

/-- The third of the side-by-side convolutions that starts at lane `off`, as a row of 128 features. -/
def third (v0 : Vec Ideal S1000x128 .f32) (v5 : Vec Ideal S128x384 .f32) (v9 : Vec Ideal S1x384 .f32)
    (off : Nat) (hoff : off + 128 ≤ 384) (p : Fin 1000) (k : Fin 128) : EReal :=
  k0_pay3 (F := Ideal) v0 v5 v9 (ix2 p (lane off hoff k))

theorem pay4_apply (v0 : Vec Ideal S1000x128 .f32) (v5 : Vec Ideal S128x384 .f32) (v9 : Vec Ideal S1x384 .f32)
    (p : Fin 1000) (k : Fin 128) : k0_pay4 (F := Ideal) v0 v5 v9 (ix2 p k) = third v0 v5 v9 128 (by omega) p k := by
  unfold k0_pay4
  exact slice_apply 128 (by omega) _ _ p k

theorem pay5_apply (v0 : Vec Ideal S1000x128 .f32) (v5 : Vec Ideal S128x384 .f32) (v9 : Vec Ideal S1x384 .f32)
    (p : Fin 1000) (k : Fin 128) : k0_pay5 (F := Ideal) v0 v5 v9 (ix2 p k) = third v0 v5 v9 256 (by omega) p k := by
  unfold k0_pay5
  exact slice_apply 256 (by omega) _ _ p k

/-- The input gate at row p, feature j. -/
theorem pay7_apply (v0 v2 : Vec Ideal S1000x128 .f32) (v5 : Vec Ideal S128x384 .f32) (v9 : Vec Ideal S1x384 .f32)
    (v18 v21 : Vec Ideal S128x128 .f32) (v27 : Vec Ideal S1x128 .f32) (p : Fin 1000) (j : Fin 128) :
    k0_pay7 (F := Ideal) v0 v2 v5 v9 v18 v21 v27 (ix2 p j)
      = Ideal.logistic (Spec.lin (third v0 v5 v9 0 (by omega) p) (fun k => v2 (ix2 p k)) (fun k => v18 (ix2 k j))
          (fun k => v21 (ix2 k j)) (v27 (ix2 row0 j))) := by
  unfold k0_pay7 k0_pay6
  dsimp only
  rw [shapeCast_self, shapeCast_self, shapeCast_self]
  refine congrArg Ideal.logistic ?_
  refine (lin_apply _ _ _ _ _ p j).trans ?_
  refine congrArg (fun g => Spec.lin g _ _ _ _) ?_
  funext k
  show extractStridedSlice S1000x128 ![0, 0] (k0_pay3 (F := Ideal) v0 v5 v9) slices_S1000x384_o0_0_S1000x128 (ix2 p k) = _
  exact slice_apply 0 (by omega) _ _ p k

/-- The forget gate at row p, feature j, from the narrowed pieces the first half of the body hands on. -/
theorem pay10_apply (v0 v2 : Vec Ideal S1000x128 .f32) (v5 : Vec Ideal S128x384 .f32) (v9 : Vec Ideal S1x384 .f32)
    (v33 v36 : Vec Ideal S128x128 .f32) (v42 : Vec Ideal S1x128 .f32) (p : Fin 1000) (j : Fin 128) :
    k0_pay10 (F := Ideal) (k0_pay6 v2) (k0_pay8 v0 v5 v9) (k0_pay9 v33) v36 v42 (ix2 p j)
      = Ideal.logistic (Spec.lin (third v0 v5 v9 128 (by omega) p) (fun k => v2 (ix2 p k)) (fun k => v33 (ix2 k j))
          (fun k => v36 (ix2 k j)) (v42 (ix2 row0 j))) := by
  unfold k0_pay10 k0_pay6 k0_pay8 k0_pay9
  dsimp only
  rw [shapeCast_self, shapeCast_self, shapeCast_self]
  refine congrArg Ideal.logistic ?_
  refine (lin_apply _ _ _ _ _ p j).trans ?_
  refine congrArg (fun g => Spec.lin g _ _ _ _) ?_
  funext k
  exact pay4_apply v0 v5 v9 p k

/-- The output gate at row p, feature j. -/
theorem pay11_apply (v0 v2 : Vec Ideal S1000x128 .f32) (v5 : Vec Ideal S128x384 .f32) (v9 : Vec Ideal S1x384 .f32)
    (v48 v51 : Vec Ideal S128x128 .f32) (v57 : Vec Ideal S1x128 .f32) (p : Fin 1000) (j : Fin 128) :
    k0_pay11 (F := Ideal) (k0_pay5 v0 v5 v9) (k0_pay6 v2) v48 v51 v57 (ix2 p j)
      = Ideal.logistic (Spec.lin (third v0 v5 v9 256 (by omega) p) (fun k => v2 (ix2 p k)) (fun k => v48 (ix2 k j))
          (fun k => v51 (ix2 k j)) (v57 (ix2 row0 j))) := by
  unfold k0_pay11 k0_pay6
  dsimp only
  rw [shapeCast_self, shapeCast_self, shapeCast_self]
  refine congrArg Ideal.logistic ?_
  refine (lin_apply _ _ _ _ _ p j).trans ?_
  refine congrArg (fun g => Spec.lin g _ _ _ _) ?_
  funext k
  exact pay5_apply v0 v5 v9 p k

/-- The candidate's pre-activation at row p, feature j (it reads the forget gate's convolution). -/
theorem pay12_apply (v0 v2 : Vec Ideal S1000x128 .f32) (v5 : Vec Ideal S128x384 .f32) (v9 : Vec Ideal S1x384 .f32)
    (v63 v66 : Vec Ideal S128x128 .f32) (v72 : Vec Ideal S1x128 .f32) (p : Fin 1000) (j : Fin 128) :
    k0_pay12 (F := Ideal) (k0_pay4 v0 v5 v9) (k0_pay6 v2) v63 v66 v72 (ix2 p j)
      = Spec.lin (third v0 v5 v9 128 (by omega) p) (fun k => v2 (ix2 p k)) (fun k => v63 (ix2 k j))
          (fun k => v66 (ix2 k j)) (v72 (ix2 row0 j)) := by
  unfold k0_pay12 k0_pay6
  dsimp only
  rw [shapeCast_self, shapeCast_self, shapeCast_self]
  refine (lin_apply _ _ _ _ _ p j).trans ?_
  refine congrArg (fun g => Spec.lin g _ _ _ _) ?_
  funext k
  exact pay4_apply v0 v5 v9 p k

/-- What the body stores as the new cell state, from the seventeen blocks it loads. -/
def cellBlock (v0 v2 v3 : Vec Ideal S1000x128 .f32) (v5 : Vec Ideal S128x384 .f32) (v9 : Vec Ideal S1x384 .f32)
    (v18 v21 : Vec Ideal S128x128 .f32) (v27 : Vec Ideal S1x128 .f32)
    (v33 v36 : Vec Ideal S128x128 .f32) (v42 : Vec Ideal S1x128 .f32)
    (v63 v66 : Vec Ideal S128x128 .f32) (v72 : Vec Ideal S1x128 .f32) : FVec Ideal S1000x128 .f32 :=
  k0_pay1 (F := Ideal) v3 (k0_pay7 v0 v2 v5 v9 v18 v21 v27)
    (k0_pay10 (k0_pay6 v2) (k0_pay8 v0 v5 v9) (k0_pay9 v33) v36 v42)
    (k0_pay12 (k0_pay4 v0 v5 v9) (k0_pay6 v2) v63 v66 v72)

/-- What the body stores as the new hidden state. -/
def hiddenBlock (v0 v2 v3 : Vec Ideal S1000x128 .f32) (v5 : Vec Ideal S128x384 .f32) (v9 : Vec Ideal S1x384 .f32)
    (v18 v21 : Vec Ideal S128x128 .f32) (v27 : Vec Ideal S1x128 .f32)
    (v33 v36 : Vec Ideal S128x128 .f32) (v42 : Vec Ideal S1x128 .f32)
    (v48 v51 : Vec Ideal S128x128 .f32) (v57 : Vec Ideal S1x128 .f32)
    (v63 v66 : Vec Ideal S128x128 .f32) (v72 : Vec Ideal S1x128 .f32) : FVec Ideal S1000x128 .f32 :=
  k0_pay2 (F := Ideal) v3 (k0_pay7 v0 v2 v5 v9 v18 v21 v27)
    (k0_pay10 (k0_pay6 v2) (k0_pay8 v0 v5 v9) (k0_pay9 v33) v36 v42)
    (k0_pay11 (k0_pay5 v0 v5 v9) (k0_pay6 v2) v48 v51 v57)
    (k0_pay12 (k0_pay4 v0 v5 v9) (k0_pay6 v2) v63 v66 v72)

/-- The four pre-activations of row p, feature j, from the blocks. -/
def preIb (v0 v2 : Vec Ideal S1000x128 .f32) (v5 : Vec Ideal S128x384 .f32) (v9 : Vec Ideal S1x384 .f32)
    (wt wb : Vec Ideal S128x128 .f32) (b : Vec Ideal S1x128 .f32) (off : Nat) (hoff : off + 128 ≤ 384)
    (p : Fin 1000) (j : Fin 128) : EReal :=
  Spec.lin (third v0 v5 v9 off hoff p) (fun k => v2 (ix2 p k)) (fun k => wt (ix2 k j)) (fun k => wb (ix2 k j)) (b (ix2 row0 j))

theorem cellBlock_apply (v0 v2 v3 : Vec Ideal S1000x128 .f32) (v5 : Vec Ideal S128x384 .f32) (v9 : Vec Ideal S1x384 .f32)
    (v18 v21 : Vec Ideal S128x128 .f32) (v27 : Vec Ideal S1x128 .f32)
    (v33 v36 : Vec Ideal S128x128 .f32) (v42 : Vec Ideal S1x128 .f32)
    (v63 v66 : Vec Ideal S128x128 .f32) (v72 : Vec Ideal S1x128 .f32) (p : Fin 1000) (j : Fin 128) :
    cellBlock v0 v2 v3 v5 v9 v18 v21 v27 v33 v36 v42 v63 v66 v72 (ix2 p j)
      = Spec.cellOf (preIb v0 v2 v5 v9 v18 v21 v27 0 (by omega) p j) (preIb v0 v2 v5 v9 v33 v36 v42 128 (by omega) p j)
          (preIb v0 v2 v5 v9 v63 v66 v72 128 (by omega) p j) (v3 (ix2 p j)) := by
  unfold cellBlock k0_pay1
  show Ideal.tanh (k0_pay12 (F := Ideal) _ _ v63 v66 v72 (ix2 p j)) * k0_pay7 (F := Ideal) v0 v2 v5 v9 v18 v21 v27 (ix2 p j)
    + k0_pay10 (F := Ideal) _ _ _ v36 v42 (ix2 p j) * v3 (ix2 p j) = _
  rw [pay12_apply, pay7_apply, pay10_apply]
  rfl

theorem hiddenBlock_apply (v0 v2 v3 : Vec Ideal S1000x128 .f32) (v5 : Vec Ideal S128x384 .f32) (v9 : Vec Ideal S1x384 .f32)
    (v18 v21 : Vec Ideal S128x128 .f32) (v27 : Vec Ideal S1x128 .f32)
    (v33 v36 : Vec Ideal S128x128 .f32) (v42 : Vec Ideal S1x128 .f32)
    (v48 v51 : Vec Ideal S128x128 .f32) (v57 : Vec Ideal S1x128 .f32)
    (v63 v66 : Vec Ideal S128x128 .f32) (v72 : Vec Ideal S1x128 .f32) (p : Fin 1000) (j : Fin 128) :
    hiddenBlock v0 v2 v3 v5 v9 v18 v21 v27 v33 v36 v42 v48 v51 v57 v63 v66 v72 (ix2 p j)
      = Spec.hiddenOf (preIb v0 v2 v5 v9 v18 v21 v27 0 (by omega) p j) (preIb v0 v2 v5 v9 v33 v36 v42 128 (by omega) p j)
          (preIb v0 v2 v5 v9 v48 v51 v57 256 (by omega) p j)
          (preIb v0 v2 v5 v9 v63 v66 v72 128 (by omega) p j) (v3 (ix2 p j)) := by
  unfold hiddenBlock k0_pay2
  show k0_pay11 (F := Ideal) _ _ v48 v51 v57 (ix2 p j)
    * Ideal.tanh (cellBlock v0 v2 v3 v5 v9 v18 v21 v27 v33 v36 v42 v63 v66 v72 (ix2 p j)) = _
  rw [pay11_apply, cellBlock_apply]
  rfl

end Cert.KernelIdeal.Body

end
-- ==== Proof.KernelSpec.lean ====
/-
  From the blocks a grid point loads to the cell's specification.

  If the block `ax` holds rows of the neighbourhood sums, `h` and `c` rows of the states (all of node n at block row
  p), the [128, 384] weight holds the three convolution weights side by side and the [1, 384] bias their biases, and each
  gate's two [128, 128] weights are the top and bottom halves of its stacked weight, then what the body stores at row
  p, feature j is the specification's new cell state and new hidden state of node n, feature j.
-/
import proofs.«155784_j56238301774267_2_alg».proof.Proof.KernelBody

set_option maxRecDepth 16384

noncomputable section

open scoped BigOperators

namespace Cert.KernelIdeal.Body

open Cert.KernelIdeal Cert.KernelIdeal.Gen Idealize.ShloMosaic Idealize.ShloMosaic.ValueIdx Cert.Spec

/-- A third of the side-by-side convolutions is one convolution of the specification. -/
theorem third_eq_conv (A : Args) (W : SSq.Idx → EReal) (b : SBias.Idx → EReal)
    (v0 : Vec Ideal S1000x128 .f32) (v5 : Vec Ideal S128x384 .f32) (v9 : Vec Ideal S1x384 .f32)
    (off : Nat) (hoff : off + 128 ≤ 384) (p : Fin 1000) (n : Fin 10000)
    (hax : ∀ k, v0 (ix2 p k) = agg A.X A.src A.dst A.nrm n k)
    (hw : ∀ k j, v5 (ix2 k (lane off hoff j)) = W (ix2 k j))
    (hb : ∀ j, v9 (ix2 row0 (lane off hoff j)) = b (ix1 j)) :
    third v0 v5 v9 off hoff p = conv A.X A.src A.dst A.nrm W b n := by
  funext j
  show k0_pay3 (F := Ideal) v0 v5 v9 (ix2 p (lane off hoff j))
    = (∑ k : Fin 128, agg A.X A.src A.dst A.nrm n k * W (ix2 k j)) + b (ix1 j)
  refine (pay3_apply v0 v5 v9 p _).trans ?_
  rw [hb j]
  refine congrArg (· + b (ix1 j)) ?_
  exact Finset.sum_congr rfl fun k _ => by rw [hax k, hw k j]

/-- One gate's pre-activation from the blocks is the specification's gate. -/
theorem preIb_eq_gate (A : Args) (W : SSq.Idx → EReal) (bcv : SBias.Idx → EReal) (Wl : SStk.Idx → EReal) (bl : SBias.Idx → EReal)
    (v0 v2 : Vec Ideal S1000x128 .f32) (v5 : Vec Ideal S128x384 .f32) (v9 : Vec Ideal S1x384 .f32)
    (wt wb : Vec Ideal S128x128 .f32) (bb : Vec Ideal S1x128 .f32)
    (off : Nat) (hoff : off + 128 ≤ 384) (p : Fin 1000) (n : Fin 10000) (j : Fin 128)
    (hax : ∀ k, v0 (ix2 p k) = agg A.X A.src A.dst A.nrm n k)
    (hh : ∀ k, v2 (ix2 p k) = A.H (ix2 n k))
    (hw : ∀ k j, v5 (ix2 k (lane off hoff j)) = W (ix2 k j))
    (hb : ∀ j, v9 (ix2 row0 (lane off hoff j)) = bcv (ix1 j))
    (hwt : ∀ k j, wt (ix2 k j) = Wl (ix2 (top k) j)) (hwb : ∀ k j, wb (ix2 k j) = Wl (ix2 (bot k) j))
    (hbb : ∀ j, bb (ix2 row0 j) = bl (ix1 j)) :
    preIb v0 v2 v5 v9 wt wb bb off hoff p j
      = gate (conv A.X A.src A.dst A.nrm W bcv n) (A.hrow n) Wl bl j := by
  unfold preIb gate
  rw [third_eq_conv A W bcv v0 v5 v9 off hoff p n hax hw hb, hbb j]
  have e2 : (fun k => v2 (ix2 p k)) = A.hrow n := funext hh
  have e3 : (fun k => wt (ix2 k j)) = fun k => Wl (ix2 (top k) j) := funext fun k => hwt k j
  have e4 : (fun k => wb (ix2 k j)) = fun k => Wl (ix2 (bot k) j) := funext fun k => hwb k j
  rw [e2, e3, e4]

/-- The hypotheses that tie the seventeen blocks of one grid point, at block row p, to the arrays of the specification
    at node n. -/
structure Ties (A : Args) (p : Fin 1000) (n : Fin 10000)
    (v0 v2 v3 : Vec Ideal S1000x128 .f32) (v5 : Vec Ideal S128x384 .f32) (v9 : Vec Ideal S1x384 .f32)
    (v18 v21 : Vec Ideal S128x128 .f32) (v27 : Vec Ideal S1x128 .f32)
    (v33 v36 : Vec Ideal S128x128 .f32) (v42 : Vec Ideal S1x128 .f32)
    (v48 v51 : Vec Ideal S128x128 .f32) (v57 : Vec Ideal S1x128 .f32)
    (v63 v66 : Vec Ideal S128x128 .f32) (v72 : Vec Ideal S1x128 .f32) : Prop where
  ax : ∀ k, v0 (ix2 p k) = agg A.X A.src A.dst A.nrm n k
  h : ∀ k, v2 (ix2 p k) = A.H (ix2 n k)
  c : ∀ j, v3 (ix2 p j) = A.C (ix2 n j)
  wi : ∀ k j, v5 (ix2 k (lane 0 (by omega) j)) = A.Wci (ix2 k j)
  wf : ∀ k j, v5 (ix2 k (lane 128 (by omega) j)) = A.Wcf (ix2 k j)
  wo : ∀ k j, v5 (ix2 k (lane 256 (by omega) j)) = A.Wco (ix2 k j)
  bi : ∀ j, v9 (ix2 row0 (lane 0 (by omega) j)) = A.bci (ix1 j)
  bf : ∀ j, v9 (ix2 row0 (lane 128 (by omega) j)) = A.bcf (ix1 j)
  bo : ∀ j, v9 (ix2 row0 (lane 256 (by omega) j)) = A.bco (ix1 j)
  lit : ∀ k j, v18 (ix2 k j) = A.Wli (ix2 (top k) j)
  lib : ∀ k j, v21 (ix2 k j) = A.Wli (ix2 (bot k) j)
  lib0 : ∀ j, v27 (ix2 row0 j) = A.bli (ix1 j)
  lft : ∀ k j, v33 (ix2 k j) = A.Wlf (ix2 (top k) j)
  lfb : ∀ k j, v36 (ix2 k j) = A.Wlf (ix2 (bot k) j)
  lfb0 : ∀ j, v42 (ix2 row0 j) = A.blf (ix1 j)
  lot : ∀ k j, v48 (ix2 k j) = A.Wlo (ix2 (top k) j)
  lob : ∀ k j, v51 (ix2 k j) = A.Wlo (ix2 (bot k) j)
  lob0 : ∀ j, v57 (ix2 row0 j) = A.blo (ix1 j)
  lct : ∀ k j, v63 (ix2 k j) = A.Wlct (ix2 (top k) j)
  lcb : ∀ k j, v66 (ix2 k j) = A.Wlct (ix2 (bot k) j)
  lcb0 : ∀ j, v72 (ix2 row0 j) = A.blct (ix1 j)

variable {A : Args} {p : Fin 1000} {n : Fin 10000}
    {v0 v2 v3 : Vec Ideal S1000x128 .f32} {v5 : Vec Ideal S128x384 .f32} {v9 : Vec Ideal S1x384 .f32}
    {v18 v21 : Vec Ideal S128x128 .f32} {v27 : Vec Ideal S1x128 .f32}
    {v33 v36 : Vec Ideal S128x128 .f32} {v42 : Vec Ideal S1x128 .f32}
    {v48 v51 : Vec Ideal S128x128 .f32} {v57 : Vec Ideal S1x128 .f32}
    {v63 v66 : Vec Ideal S128x128 .f32} {v72 : Vec Ideal S1x128 .f32}

/-- The stored cell state is the specification's. -/
theorem cellBlock_eq_spec (T : Ties A p n v0 v2 v3 v5 v9 v18 v21 v27 v33 v36 v42 v48 v51 v57 v63 v66 v72) (j : Fin 128) :
    cellBlock v0 v2 v3 v5 v9 v18 v21 v27 v33 v36 v42 v63 v66 v72 (ix2 p j) = A.cNew n j := by
  rw [cellBlock_apply]
  unfold Args.cNew Args.preI Args.preF Args.preCt Args.convI Args.convF
  rw [preIb_eq_gate A A.Wci A.bci A.Wli A.bli v0 v2 v5 v9 v18 v21 v27 0 (by omega) p n j T.ax T.h T.wi T.bi T.lit T.lib T.lib0,
    preIb_eq_gate A A.Wcf A.bcf A.Wlf A.blf v0 v2 v5 v9 v33 v36 v42 128 (by omega) p n j T.ax T.h T.wf T.bf T.lft T.lfb T.lfb0,
    preIb_eq_gate A A.Wcf A.bcf A.Wlct A.blct v0 v2 v5 v9 v63 v66 v72 128 (by omega) p n j T.ax T.h T.wf T.bf T.lct T.lcb T.lcb0,
    T.c j]

/-- The stored hidden state is the specification's. -/
theorem hiddenBlock_eq_spec (T : Ties A p n v0 v2 v3 v5 v9 v18 v21 v27 v33 v36 v42 v48 v51 v57 v63 v66 v72) (j : Fin 128) :
    hiddenBlock v0 v2 v3 v5 v9 v18 v21 v27 v33 v36 v42 v48 v51 v57 v63 v66 v72 (ix2 p j) = A.hNew n j := by
  rw [hiddenBlock_apply]
  unfold Args.hNew Args.preI Args.preF Args.preO Args.preCt Args.convI Args.convF Args.convO
  rw [preIb_eq_gate A A.Wci A.bci A.Wli A.bli v0 v2 v5 v9 v18 v21 v27 0 (by omega) p n j T.ax T.h T.wi T.bi T.lit T.lib T.lib0,
    preIb_eq_gate A A.Wcf A.bcf A.Wlf A.blf v0 v2 v5 v9 v33 v36 v42 128 (by omega) p n j T.ax T.h T.wf T.bf T.lft T.lfb T.lfb0,
    preIb_eq_gate A A.Wco A.bco A.Wlo A.blo v0 v2 v5 v9 v48 v51 v57 256 (by omega) p n j T.ax T.h T.wo T.bo T.lot T.lob T.lob0,
    preIb_eq_gate A A.Wcf A.bcf A.Wlct A.blct v0 v2 v5 v9 v63 v66 v72 128 (by omega) p n j T.ax T.h T.wf T.bf T.lct T.lcb T.lcb0,
    T.c j]

end Cert.KernelIdeal.Body

end
-- ==== Proof.KernelFinal.lean ====
/-
  From the blocks the grid points write back to the two result arrays.

  Grid point t works on rows 1000 t … 1000 t + 999 of the node arrays and sees every weight whole. What it writes back
  is therefore rows 1000 t … of the specification's result arrays; the ten points cover all 10000 rows.
-/
import proofs.«155784_j56238301774267_2_alg».proof.Proof.FrameRun
import proofs.«155784_j56238301774267_2_alg».proof.Proof.KernelHost
import proofs.«155784_j56238301774267_2_alg».proof.Proof.KernelSpec

set_option maxRecDepth 16384

noncomputable section

open scoped BigOperators

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.Body Cert.KernelIdeal.HostValue Cert.Spec

variable (m : (ℓ : Loc nD τ sig) → Buf (Elt Ideal) ℓ) (ρ : Dev nD → PrngReg) (c : Dev nD)

/-- The arrays of the specification, as core `c`'s region finds them. -/
def kArgs : Spec.Args where
  X := (arg m c main_arg0 : S10000x128.Idx → EReal)
  src := (V m c main_v39 : S650000x1.Idx → BitVec 32)
  dst := (V m c main_v45 : S650000x1.Idx → BitVec 32)
  nrm := (V m c main_v33 : S650000.Idx → EReal)
  H := (arg m c main_arg3 : S10000x128.Idx → EReal)
  C := (arg m c main_arg4 : S10000x128.Idx → EReal)
  Wci := (arg m c main_arg5 : S128x128.Idx → EReal)
  bci := (arg m c main_arg6 : S128.Idx → EReal)
  Wli := (arg m c main_arg7 : S256x128.Idx → EReal)
  bli := (arg m c main_arg8 : S128.Idx → EReal)
  Wcf := (arg m c main_arg9 : S128x128.Idx → EReal)
  bcf := (arg m c main_arg10 : S128.Idx → EReal)
  Wlf := (arg m c main_arg11 : S256x128.Idx → EReal)
  blf := (arg m c main_arg12 : S128.Idx → EReal)
  Wco := (arg m c main_arg13 : S128x128.Idx → EReal)
  bco := (arg m c main_arg14 : S128.Idx → EReal)
  Wlo := (arg m c main_arg15 : S256x128.Idx → EReal)
  blo := (arg m c main_arg16 : S128.Idx → EReal)
  Wlct := (arg m c main_arg19 : S256x128.Idx → EReal)
  blct := (arg m c main_arg20 : S128.Idx → EReal)

theorem hz : (![0, 0] : Fin 2 → Nat) = fun _ => 0 := funext fun a => by fin_cases a <;> rfl

theorem N_eq : cfg0.N = 10 := N_0

/-- The node that row p of grid point t's block is. -/
def node (t : Fin cfg0.N) (p : Fin 1000) : Fin 10000 :=
  ⟨1000 * t.val + p.val, by
    have ht : t.val < 10 := lt_of_lt_of_eq t.isLt N_eq
    have hp := p.isLt
    omega⟩

/-- The printed index maps, decided over the ten grid points: the three node windows and the two results are at block
    row t, every weight and bias window at its one block. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = 0
    ∧ win0_14.index t (1 : Fin 2) = 0
    ∧ win0_15.index t (0 : Fin 2) = 0
    ∧ win0_15.index t (1 : Fin 2) = 0
    ∧ win0_16.index t (0 : Fin 2) = 0
    ∧ win0_16.index t (1 : Fin 2) = 0
    ∧ win0_17.index t (0 : Fin 2) = t.val
    ∧ win0_17.index t (1 : Fin 2) = 0
    ∧ win0_18.index t (0 : Fin 2) = t.val
    ∧ win0_18.index t (1 : Fin 2) = 0 :=
  (by decide +kernel : ∀ t : Fin grid0.N, _)

/-- Window 0 read through its block at point t: row p of the block is row 1000 t + p of the array. -/
theorem read0 (A : S10000x128.Idx → EReal) (t : Fin cfg0.N) (p : Fin 1000) (q : Fin 128) :
    (((cfg0.win 0).blk t).view.read (Elt Ideal) A : S1000x128.Idx → EReal) (ix2 p q) = A (ix2 (node t p) q) := by
  show A (((cfg0.win 0).blk t).view.emb (ix2 p q)) = _
  refine congrArg A ?_
  funext a; apply Fin.ext
  match a with
  | ⟨0, _⟩ => show win0_0.index t (0 : Fin 2) * 1000 + 1 * p.val = 1000 * t.val + p.val; have h := (idx_facts t).1; omega
  | ⟨1, _⟩ => show win0_0.index t (1 : Fin 2) * 128 + 1 * q.val = q.val; have h := (idx_facts t).2.1; omega
theorem iblk0_apply (t : Fin cfg0.N) (p : Fin 1000) (q : Fin 128) :
    (iblk m c 0 t : S1000x128.Idx → EReal) (ix2 p q) = (V m c main_v46 : S10000x128.Idx → EReal) (ix2 (node t p) q) :=
  read0 _ t p q
/-- Window 1 read through its block at point t: row p of the block is row 1000 t + p of the array. -/
theorem read1 (A : S10000x128.Idx → EReal) (t : Fin cfg0.N) (p : Fin 1000) (q : Fin 128) :
    (((cfg0.win 1).blk t).view.read (Elt Ideal) A : S1000x128.Idx → EReal) (ix2 p q) = A (ix2 (node t p) q) := by
  show A (((cfg0.win 1).blk t).view.emb (ix2 p q)) = _
  refine congrArg A ?_
  funext a; apply Fin.ext
  match a with
  | ⟨0, _⟩ => show win0_1.index t (0 : Fin 2) * 1000 + 1 * p.val = 1000 * t.val + p.val; have h := (idx_facts t).2.2.1; omega
  | ⟨1, _⟩ => show win0_1.index t (1 : Fin 2) * 128 + 1 * q.val = q.val; have h := (idx_facts t).2.2.2.1; omega
theorem iblk1_apply (t : Fin cfg0.N) (p : Fin 1000) (q : Fin 128) :
    (iblk m c 1 t : S1000x128.Idx → EReal) (ix2 p q) = (V m c main_arg3 : S10000x128.Idx → EReal) (ix2 (node t p) q) :=
  read1 _ t p q
/-- Window 2 read through its block at point t: row p of the block is row 1000 t + p of the array. -/
theorem read2 (A : S10000x128.Idx → EReal) (t : Fin cfg0.N) (p : Fin 1000) (q : Fin 128) :
    (((cfg0.win 2).blk t).view.read (Elt Ideal) A : S1000x128.Idx → EReal) (ix2 p q) = A (ix2 (node t p) q) := by
  show A (((cfg0.win 2).blk t).view.emb (ix2 p q)) = _
  refine congrArg A ?_
  funext a; apply Fin.ext
  match a with
  | ⟨0, _⟩ => show win0_2.index t (0 : Fin 2) * 1000 + 1 * p.val = 1000 * t.val + p.val; have h := (idx_facts t).2.2.2.2.1; omega
  | ⟨1, _⟩ => show win0_2.index t (1 : Fin 2) * 128 + 1 * q.val = q.val; have h := (idx_facts t).2.2.2.2.2.1; omega
theorem iblk2_apply (t : Fin cfg0.N) (p : Fin 1000) (q : Fin 128) :
    (iblk m c 2 t : S1000x128.Idx → EReal) (ix2 p q) = (V m c main_arg4 : S10000x128.Idx → EReal) (ix2 (node t p) q) :=
  read2 _ t p q
/-- Window 3 read through its block at point t: the block is the whole array. -/
theorem read3 (A : S128x384.Idx → EReal) (t : Fin cfg0.N) (p : Fin 128) (q : Fin 384) :
    (((cfg0.win 3).blk t).view.read (Elt Ideal) A : S128x384.Idx → EReal) (ix2 p q) = A (ix2 p q) := by
  show A (((cfg0.win 3).blk t).view.emb (ix2 p q)) = _
  refine congrArg A ?_
  funext a; apply Fin.ext
  match a with
  | ⟨0, _⟩ => show win0_3.index t (0 : Fin 2) * 128 + 1 * p.val = p.val; have h := (idx_facts t).2.2.2.2.2.2.1; omega
  | ⟨1, _⟩ => show win0_3.index t (1 : Fin 2) * 384 + 1 * q.val = q.val; have h := (idx_facts t).2.2.2.2.2.2.2.1; omega
theorem iblk3_apply (t : Fin cfg0.N) (p : Fin 128) (q : Fin 384) :
    (iblk m c 3 t : S128x384.Idx → EReal) (ix2 p q) = (V m c main_v47 : S128x384.Idx → EReal) (ix2 p q) :=
  read3 _ t p q
/-- Window 4 read through its block at point t: the block is the whole array. -/
theorem read4 (A : S1x384.Idx → EReal) (t : Fin cfg0.N) (p : Fin 1) (q : Fin 384) :
    (((cfg0.win 4).blk t).view.read (Elt Ideal) A : S1x384.Idx → EReal) (ix2 p q) = A (ix2 p q) := by
  show A (((cfg0.win 4).blk t).view.emb (ix2 p q)) = _
  refine congrArg A ?_
  funext a; apply Fin.ext
  match a with
  | ⟨0, _⟩ => show win0_4.index t (0 : Fin 2) * 1 + 1 * p.val = p.val; have h := (idx_facts t).2.2.2.2.2.2.2.2.1; omega
  | ⟨1, _⟩ => show win0_4.index t (1 : Fin 2) * 384 + 1 * q.val = q.val; have h := (idx_facts t).2.2.2.2.2.2.2.2.2.1; omega
theorem iblk4_apply (t : Fin cfg0.N) (p : Fin 1) (q : Fin 384) :
    (iblk m c 4 t : S1x384.Idx → EReal) (ix2 p q) = (V m c main_v49 : S1x384.Idx → EReal) (ix2 p q) :=
  read4 _ t p q
/-- Window 5 read through its block at point t: the block is the whole array. -/
theorem read5 (A : S128x128.Idx → EReal) (t : Fin cfg0.N) (p : Fin 128) (q : Fin 128) :
    (((cfg0.win 5).blk t).view.read (Elt Ideal) A : S128x128.Idx → EReal) (ix2 p q) = A (ix2 p q) := by
  show A (((cfg0.win 5).blk t).view.emb (ix2 p q)) = _
  refine congrArg A ?_
  funext a; apply Fin.ext
  match a with
  | ⟨0, _⟩ => show win0_5.index t (0 : Fin 2) * 128 + 1 * p.val = p.val; have h := (idx_facts t).2.2.2.2.2.2.2.2.2.2.1; omega
  | ⟨1, _⟩ => show win0_5.index t (1 : Fin 2) * 128 + 1 * q.val = q.val; have h := (idx_facts t).2.2.2.2.2.2.2.2.2.2.2.1; omega
theorem iblk5_apply (t : Fin cfg0.N) (p : Fin 128) (q : Fin 128) :
    (iblk m c 5 t : S128x128.Idx → EReal) (ix2 p q) = (V m c main_v50 : S128x128.Idx → EReal) (ix2 p q) :=
  read5 _ t p q
/-- Window 6 read through its block at point t: the block is the whole array. -/
theorem read6 (A : S128x128.Idx → EReal) (t : Fin cfg0.N) (p : Fin 128) (q : Fin 128) :
    (((cfg0.win 6).blk t).view.read (Elt Ideal) A : S128x128.Idx → EReal) (ix2 p q) = A (ix2 p q) := by
  show A (((cfg0.win 6).blk t).view.emb (ix2 p q)) = _
  refine congrArg A ?_
  funext a; apply Fin.ext
  match a with
  | ⟨0, _⟩ => show win0_6.index t (0 : Fin 2) * 128 + 1 * p.val = p.val; have h := (idx_facts t).2.2.2.2.2.2.2.2.2.2.2.2.1; omega
  | ⟨1, _⟩ => show win0_6.index t (1 : Fin 2) * 128 + 1 * q.val = q.val; have h := (idx_facts t).2.2.2.2.2.2.2.2.2.2.2.2.2.1; omega
theorem iblk6_apply (t : Fin cfg0.N) (p : Fin 128) (q : Fin 128) :
    (iblk m c 6 t : S128x128.Idx → EReal) (ix2 p q) = (V m c main_v51 : S128x128.Idx → EReal) (ix2 p q) :=
  read6 _ t p q
/-- Window 7 read through its block at point t: the block is the whole array. -/
theorem read7 (A : S1x128.Idx → EReal) (t : Fin cfg0.N) (p : Fin 1) (q : Fin 128) :
    (((cfg0.win 7).blk t).view.read (Elt Ideal) A : S1x128.Idx → EReal) (ix2 p q) = A (ix2 p q) := by
  show A (((cfg0.win 7).blk t).view.emb (ix2 p q)) = _
  refine congrArg A ?_
  funext a; apply Fin.ext
  match a with
  | ⟨0, _⟩ => show win0_7.index t (0 : Fin 2) * 1 + 1 * p.val = p.val; have h := (idx_facts t).2.2.2.2.2.2.2.2.2.2.2.2.2.2.1; omega
  | ⟨1, _⟩ => show win0_7.index t (1 : Fin 2) * 128 + 1 * q.val = q.val; have h := (idx_facts t).2.2.2.2.2.2.2.2.2.2.2.2.2.2.2.1; omega
theorem iblk7_apply (t : Fin cfg0.N) (p : Fin 1) (q : Fin 128) :
    (iblk m c 7 t : S1x128.Idx → EReal) (ix2 p q) = (V m c main_v58 : S1x128.Idx → EReal) (ix2 p q) :=
  read7 _ t p q
/-- Window 8 read through its block at point t: the block is the whole array. -/
theorem read8 (A : S128x128.Idx → EReal) (t : Fin cfg0.N) (p : Fin 128) (q : Fin 128) :
    (((cfg0.win 8).blk t).view.read (Elt Ideal) A : S128x128.Idx → EReal) (ix2 p q) = A (ix2 p q) := by
  show A (((cfg0.win 8).blk t).view.emb (ix2 p q)) = _
  refine congrArg A ?_
  funext a; apply Fin.ext
  match a with
  | ⟨0, _⟩ => show win0_8.index t (0 : Fin 2) * 128 + 1 * p.val = p.val; have h := (idx_facts t).2.2.2.2.2.2.2.2.2.2.2.2.2.2.2.2.1; omega
  | ⟨1, _⟩ => show win0_8.index t (1 : Fin 2) * 128 + 1 * q.val = q.val; have h := (idx_facts t).2.2.2.2.2.2.2.2.2.2.2.2.2.2.2.2.2.1; omega
theorem iblk8_apply (t : Fin cfg0.N) (p : Fin 128) (q : Fin 128) :
    (iblk m c 8 t : S128x128.Idx → EReal) (ix2 p q) = (V m c main_v52 : S128x128.Idx → EReal) (ix2 p q) :=
  read8 _ t p q
/-- Window 9 read through its block at point t: the block is the whole array. -/
theorem read9 (A : S128x128.Idx → EReal) (t : Fin cfg0.N) (p : Fin 128) (q : Fin 128) :
    (((cfg0.win 9).blk t).view.read (Elt Ideal) A : S128x128.Idx → EReal) (ix2 p q) = A (ix2 p q) := by
  show A (((cfg0.win 9).blk t).view.emb (ix2 p q)) = _
  refine congrArg A ?_
  funext a; apply Fin.ext
  match a with
  | ⟨0, _⟩ => show win0_9.index t (0 : Fin 2) * 128 + 1 * p.val = p.val; have h := (idx_facts t).2.2.2.2.2.2.2.2.2.2.2.2.2.2.2.2.2.2.1; omega
  | ⟨1, _⟩ => show win0_9.index t (1 : Fin 2) * 128 + 1 * q.val = q.val; have h := (idx_facts t).2.2.2.2.2.2.2.2.2.2.2.2.2.2.2.2.2.2.2.1; omega
theorem iblk9_apply (t : Fin cfg0.N) (p : Fin 128) (q : Fin 128) :
    (iblk m c 9 t : S128x128.Idx → EReal) (ix2 p q) = (V m c main_v53 : S128x128.Idx → EReal) (ix2 p q) :=
  read9 _ t p q
/-- Window 10 read through its block at point t: the block is the whole array. -/
theorem read10 (A : S1x128.Idx → EReal) (t : Fin cfg0.N) (p : Fin 1) (q : Fin 128) :
    (((cfg0.win 10).blk t).view.read (Elt Ideal) A : S1x128.Idx → EReal) (ix2 p q) = A (ix2 p q) := by
  show A (((cfg0.win 10).blk t).view.emb (ix2 p q)) = _
  refine congrArg A ?_
  funext a; apply Fin.ext
  match a with
  | ⟨0, _⟩ => show win0_10.index t (0 : Fin 2) * 1 + 1 * p.val = p.val; have h := (idx_facts t).2.2.2.2.2.2.2.2.2.2.2.2.2.2.2.2.2.2.2.2.1; omega
  | ⟨1, _⟩ => show win0_10.index t (1 : Fin 2) * 128 + 1 * q.val = q.val; have h := (idx_facts t).2.2.2.2.2.2.2.2.2.2.2.2.2.2.2.2.2.2.2.2.2.1; omega
theorem iblk10_apply (t : Fin cfg0.N) (p : Fin 1) (q : Fin 128) :
    (iblk m c 10 t : S1x128.Idx → EReal) (ix2 p q) = (V m c main_v59 : S1x128.Idx → EReal) (ix2 p q) :=
  read10 _ t p q
/-- Window 11 read through its block at point t: the block is the whole array. -/
theorem read11 (A : S128x128.Idx → EReal) (t : Fin cfg0.N) (p : Fin 128) (q : Fin 128) :
    (((cfg0.win 11).blk t).view.read (Elt Ideal) A : S128x128.Idx → EReal) (ix2 p q) = A (ix2 p q) := by
  show A (((cfg0.win 11).blk t).view.emb (ix2 p q)) = _
  refine congrArg A ?_
  funext a; apply Fin.ext
  match a with
  | ⟨0, _⟩ => show win0_11.index t (0 : Fin 2) * 128 + 1 * p.val = p.val; have h := (idx_facts t).2.2.2.2.2.2.2.2.2.2.2.2.2.2.2.2.2.2.2.2.2.2.1; omega
  | ⟨1, _⟩ => show win0_11.index t (1 : Fin 2) * 128 + 1 * q.val = q.val; have h := (idx_facts t).2.2.2.2.2.2.2.2.2.2.2.2.2.2.2.2.2.2.2.2.2.2.2.1; omega
theorem iblk11_apply (t : Fin cfg0.N) (p : Fin 128) (q : Fin 128) :
    (iblk m c 11 t : S128x128.Idx → EReal) (ix2 p q) = (V m c main_v54 : S128x128.Idx → EReal) (ix2 p q) :=
  read11 _ t p q
/-- Window 12 read through its block at point t: the block is the whole array. -/
theorem read12 (A : S128x128.Idx → EReal) (t : Fin cfg0.N) (p : Fin 128) (q : Fin 128) :
    (((cfg0.win 12).blk t).view.read (Elt Ideal) A : S128x128.Idx → EReal) (ix2 p q) = A (ix2 p q) := by
  show A (((cfg0.win 12).blk t).view.emb (ix2 p q)) = _
  refine congrArg A ?_
  funext a; apply Fin.ext
  match a with
  | ⟨0, _⟩ => show win0_12.index t (0 : Fin 2) * 128 + 1 * p.val = p.val; have h := (idx_facts t).2.2.2.2.2.2.2.2.2.2.2.2.2.2.2.2.2.2.2.2.2.2.2.2.1; omega
  | ⟨1, _⟩ => show win0_12.index t (1 : Fin 2) * 128 + 1 * q.val = q.val; have h := (idx_facts t).2.2.2.2.2.2.2.2.2.2.2.2.2.2.2.2.2.2.2.2.2.2.2.2.2.1; omega
theorem iblk12_apply (t : Fin cfg0.N) (p : Fin 128) (q : Fin 128) :
    (iblk m c 12 t : S128x128.Idx → EReal) (ix2 p q) = (V m c main_v55 : S128x128.Idx → EReal) (ix2 p q) :=
  read12 _ t p q
/-- Window 13 read through its block at point t: the block is the whole array. -/
theorem read13 (A : S1x128.Idx → EReal) (t : Fin cfg0.N) (p : Fin 1) (q : Fin 128) :
    (((cfg0.win 13).blk t).view.read (Elt Ideal) A : S1x128.Idx → EReal) (ix2 p q) = A (ix2 p q) := by
  show A (((cfg0.win 13).blk t).view.emb (ix2 p q)) = _
  refine congrArg A ?_
  funext a; apply Fin.ext
  match a with
  | ⟨0, _⟩ => show win0_13.index t (0 : Fin 2) * 1 + 1 * p.val = p.val; have h := (idx_facts t).2.2.2.2.2.2.2.2.2.2.2.2.2.2.2.2.2.2.2.2.2.2.2.2.2.2.1; omega
  | ⟨1, _⟩ => show win0_13.index t (1 : Fin 2) * 128 + 1 * q.val = q.val; have h := (idx_facts t).2.2.2.2.2.2.2.2.2.2.2.2.2.2.2.2.2.2.2.2.2.2.2.2.2.2.2.1; omega
theorem iblk13_apply (t : Fin cfg0.N) (p : Fin 1) (q : Fin 128) :
    (iblk m c 13 t : S1x128.Idx → EReal) (ix2 p q) = (V m c main_v60 : S1x128.Idx → EReal) (ix2 p q) :=
  read13 _ t p q
/-- Window 14 read through its block at point t: the block is the whole array. -/
theorem read14 (A : S128x128.Idx → EReal) (t : Fin cfg0.N) (p : Fin 128) (q : Fin 128) :
    (((cfg0.win 14).blk t).view.read (Elt Ideal) A : S128x128.Idx → EReal) (ix2 p q) = A (ix2 p q) := by
  show A (((cfg0.win 14).blk t).view.emb (ix2 p q)) = _
  refine congrArg A ?_
  funext a; apply Fin.ext
  match a with
  | ⟨0, _⟩ => show win0_14.index t (0 : Fin 2) * 128 + 1 * p.val = p.val; have h := (idx_facts t).2.2.2.2.2.2.2.2.2.2.2.2.2.2.2.2.2.2.2.2.2.2.2.2.2.2.2.2.1; omega
  | ⟨1, _⟩ => show win0_14.index t (1 : Fin 2) * 128 + 1 * q.val = q.val; have h := (idx_facts t).2.2.2.2.2.2.2.2.2.2.2.2.2.2.2.2.2.2.2.2.2.2.2.2.2.2.2.2.2.1; omega
theorem iblk14_apply (t : Fin cfg0.N) (p : Fin 128) (q : Fin 128) :
    (iblk m c 14 t : S128x128.Idx → EReal) (ix2 p q) = (V m c main_v56 : S128x128.Idx → EReal) (ix2 p q) :=
  read14 _ t p q
/-- Window 15 read through its block at point t: the block is the whole array. -/
theorem read15 (A : S128x128.Idx → EReal) (t : Fin cfg0.N) (p : Fin 128) (q : Fin 128) :
    (((cfg0.win 15).blk t).view.read (Elt Ideal) A : S128x128.Idx → EReal) (ix2 p q) = A (ix2 p q) := by
  show A (((cfg0.win 15).blk t).view.emb (ix2 p q)) = _
  refine congrArg A ?_
  funext a; apply Fin.ext
  match a with
  | ⟨0, _⟩ => show win0_15.index t (0 : Fin 2) * 128 + 1 * p.val = p.val; have h := (idx_facts t).2.2.2.2.2.2.2.2.2.2.2.2.2.2.2.2.2.2.2.2.2.2.2.2.2.2.2.2.2.2.1; omega
  | ⟨1, _⟩ => show win0_15.index t (1 : Fin 2) * 128 + 1 * q.val = q.val; have h := (idx_facts t).2.2.2.2.2.2.2.2.2.2.2.2.2.2.2.2.2.2.2.2.2.2.2.2.2.2.2.2.2.2.2.1; omega
theorem iblk15_apply (t : Fin cfg0.N) (p : Fin 128) (q : Fin 128) :
    (iblk m c 15 t : S128x128.Idx → EReal) (ix2 p q) = (V m c main_v57 : S128x128.Idx → EReal) (ix2 p q) :=
  read15 _ t p q
/-- Window 16 read through its block at point t: the block is the whole array. -/
theorem read16 (A : S1x128.Idx → EReal) (t : Fin cfg0.N) (p : Fin 1) (q : Fin 128) :
    (((cfg0.win 16).blk t).view.read (Elt Ideal) A : S1x128.Idx → EReal) (ix2 p q) = A (ix2 p q) := by
  show A (((cfg0.win 16).blk t).view.emb (ix2 p q)) = _
  refine congrArg A ?_
  funext a; apply Fin.ext
  match a with
  | ⟨0, _⟩ => show win0_16.index t (0 : Fin 2) * 1 + 1 * p.val = p.val; have h := (idx_facts t).2.2.2.2.2.2.2.2.2.2.2.2.2.2.2.2.2.2.2.2.2.2.2.2.2.2.2.2.2.2.2.2.1; omega
  | ⟨1, _⟩ => show win0_16.index t (1 : Fin 2) * 128 + 1 * q.val = q.val; have h := (idx_facts t).2.2.2.2.2.2.2.2.2.2.2.2.2.2.2.2.2.2.2.2.2.2.2.2.2.2.2.2.2.2.2.2.2.1; omega
theorem iblk16_apply (t : Fin cfg0.N) (p : Fin 1) (q : Fin 128) :
    (iblk m c 16 t : S1x128.Idx → EReal) (ix2 p q) = (V m c main_v61 : S1x128.Idx → EReal) (ix2 p q) :=
  read16 _ t p q

/-! ## Lanes of the side-by-side arrays -/

theorem side3_lane0 (a b cc : S128x128.Idx → EReal) (k j : Fin 128) :
    Cert.LibConcat3.side3 (n := 128) (w := 384) rfl a b cc k (lane 0 (by omega) j) = a (ix2 k j) := by
  unfold Cert.LibConcat3.side3
  have h0 : (lane 0 (by omega) j).val < 128 := by show 0 + j.val < 128; have := j.isLt; omega
  rw [dif_pos h0]
  exact congrArg (fun q => a (ix2 k q)) (Fin.ext (by show 0 + j.val = j.val; omega))

theorem side3_lane128 (a b cc : S128x128.Idx → EReal) (k j : Fin 128) :
    Cert.LibConcat3.side3 (n := 128) (w := 384) rfl a b cc k (lane 128 (by omega) j) = b (ix2 k j) := by
  unfold Cert.LibConcat3.side3
  have h0 : ¬ (lane 128 (by omega) j).val < 128 := by show ¬ 128 + j.val < 128; omega
  have h1 : (lane 128 (by omega) j).val < 128 + 128 := by show 128 + j.val < 128 + 128; have := j.isLt; omega
  rw [dif_neg h0, dif_pos h1]
  exact congrArg (fun q => b (ix2 k q)) (Fin.ext (by show 128 + j.val - 128 = j.val; omega))

theorem side3_lane256 (a b cc : S128x128.Idx → EReal) (k j : Fin 128) :
    Cert.LibConcat3.side3 (n := 128) (w := 384) rfl a b cc k (lane 256 (by omega) j) = cc (ix2 k j) := by
  unfold Cert.LibConcat3.side3
  have h0 : ¬ (lane 256 (by omega) j).val < 128 := by show ¬ 256 + j.val < 128; omega
  have h1 : ¬ (lane 256 (by omega) j).val < 128 + 128 := by show ¬ 256 + j.val < 128 + 128; omega
  rw [dif_neg h0, dif_neg h1]
  exact congrArg (fun q => cc (ix2 k q)) (Fin.ext (by show 256 + j.val - (128 + 128) = j.val; omega))

theorem end3_lane0 (a b cc : S128.Idx → EReal) (j : Fin 128) : end3 a b cc (lane 0 (by omega) j) = a (ix1 j) := by
  unfold end3
  have h0 : (lane 0 (by omega) j).val < 128 := by show 0 + j.val < 128; have := j.isLt; omega
  rw [dif_pos h0]
  exact congrArg (fun q => a (ix1 q)) (Fin.ext (by show 0 + j.val = j.val; omega))

theorem end3_lane128 (a b cc : S128.Idx → EReal) (j : Fin 128) : end3 a b cc (lane 128 (by omega) j) = b (ix1 j) := by
  unfold end3
  have h0 : ¬ (lane 128 (by omega) j).val < 128 := by show ¬ 128 + j.val < 128; omega
  have h1 : (lane 128 (by omega) j).val < 256 := by show 128 + j.val < 256; have := j.isLt; omega
  rw [dif_neg h0, dif_pos h1]
  exact congrArg (fun q => b (ix1 q)) (Fin.ext (by show 128 + j.val - 128 = j.val; omega))

theorem end3_lane256 (a b cc : S128.Idx → EReal) (j : Fin 128) : end3 a b cc (lane 256 (by omega) j) = cc (ix1 j) := by
  unfold end3
  have h0 : ¬ (lane 256 (by omega) j).val < 128 := by show ¬ 256 + j.val < 128; omega
  have h1 : ¬ (lane 256 (by omega) j).val < 256 := by show ¬ 256 + j.val < 256; omega
  rw [dif_neg h0, dif_neg h1]
  exact congrArg (fun q => cc (ix1 q)) (Fin.ext (by show 256 + j.val - 256 = j.val; omega))

/-! ## The blocks of grid point t are tied to the specification's arrays at node 1000 t + p -/

/-- A bundle of arrays IS the one the region finds: field by field. -/
structure ArgsAre (A : Spec.Args) : Prop where
  X : A.X = (arg m c main_arg0 : S10000x128.Idx → EReal)
  src : A.src = (V m c main_v39 : S650000x1.Idx → BitVec 32)
  dst : A.dst = (V m c main_v45 : S650000x1.Idx → BitVec 32)
  nrm : A.nrm = (V m c main_v33 : S650000.Idx → EReal)
  H : A.H = (arg m c main_arg3 : S10000x128.Idx → EReal)
  C : A.C = (arg m c main_arg4 : S10000x128.Idx → EReal)
  Wci : A.Wci = (arg m c main_arg5 : S128x128.Idx → EReal)
  bci : A.bci = (arg m c main_arg6 : S128.Idx → EReal)
  Wli : A.Wli = (arg m c main_arg7 : S256x128.Idx → EReal)
  bli : A.bli = (arg m c main_arg8 : S128.Idx → EReal)
  Wcf : A.Wcf = (arg m c main_arg9 : S128x128.Idx → EReal)
  bcf : A.bcf = (arg m c main_arg10 : S128.Idx → EReal)
  Wlf : A.Wlf = (arg m c main_arg11 : S256x128.Idx → EReal)
  blf : A.blf = (arg m c main_arg12 : S128.Idx → EReal)
  Wco : A.Wco = (arg m c main_arg13 : S128x128.Idx → EReal)
  bco : A.bco = (arg m c main_arg14 : S128.Idx → EReal)
  Wlo : A.Wlo = (arg m c main_arg15 : S256x128.Idx → EReal)
  blo : A.blo = (arg m c main_arg16 : S128.Idx → EReal)
  Wlct : A.Wlct = (arg m c main_arg19 : S256x128.Idx → EReal)
  blct : A.blct = (arg m c main_arg20 : S128.Idx → EReal)

theorem kArgs_are : ArgsAre m c (kArgs m c) where
  X := by unfold kArgs; rfl
  src := by unfold kArgs; rfl
  dst := by unfold kArgs; rfl
  nrm := by unfold kArgs; rfl
  H := by unfold kArgs; rfl
  C := by unfold kArgs; rfl
  Wci := by unfold kArgs; rfl
  bci := by unfold kArgs; rfl
  Wli := by unfold kArgs; rfl
  bli := by unfold kArgs; rfl
  Wcf := by unfold kArgs; rfl
  bcf := by unfold kArgs; rfl
  Wlf := by unfold kArgs; rfl
  blf := by unfold kArgs; rfl
  Wco := by unfold kArgs; rfl
  bco := by unfold kArgs; rfl
  Wlo := by unfold kArgs; rfl
  blo := by unfold kArgs; rfl
  Wlct := by unfold kArgs; rfl
  blct := by unfold kArgs; rfl

section Ties
variable (t : Fin cfg0.N) (p : Fin 1000)

theorem tie_ax (k : Fin 128) : (iblk m c 0 t : S1000x128.Idx → EReal) (ix2 p k)
    = agg (arg m c main_arg0) (V m c main_v39) (V m c main_v45) (V m c main_v33) (node t p) k :=
  (iblk0_apply m c t p k).trans (V_v46_apply m c (node t p) k)
theorem tie_h (k : Fin 128) : (iblk m c 1 t : S1000x128.Idx → EReal) (ix2 p k) = (arg m c main_arg3 : S10000x128.Idx → EReal) (ix2 (node t p) k) :=
  (iblk1_apply m c t p k).trans (congrFun (V_main_arg3 m c) (ix2 (node t p) k))
theorem tie_c (j : Fin 128) : (iblk m c 2 t : S1000x128.Idx → EReal) (ix2 p j) = (arg m c main_arg4 : S10000x128.Idx → EReal) (ix2 (node t p) j) :=
  (iblk2_apply m c t p j).trans (congrFun (V_main_arg4 m c) (ix2 (node t p) j))
theorem tie_wi (k j : Fin 128) : (iblk m c 3 t : S128x384.Idx → EReal) (ix2 k (lane 0 (by omega) j)) = (arg m c main_arg5 : S128x128.Idx → EReal) (ix2 k j) :=
  (iblk3_apply m c t k (lane 0 (by omega) j)).trans ((V_v47_apply m c k (lane 0 (by omega) j)).trans (side3_lane0 (arg m c main_arg5) (arg m c main_arg9) (arg m c main_arg13) k j))
theorem tie_wf (k j : Fin 128) : (iblk m c 3 t : S128x384.Idx → EReal) (ix2 k (lane 128 (by omega) j)) = (arg m c main_arg9 : S128x128.Idx → EReal) (ix2 k j) :=
  (iblk3_apply m c t k (lane 128 (by omega) j)).trans ((V_v47_apply m c k (lane 128 (by omega) j)).trans (side3_lane128 (arg m c main_arg5) (arg m c main_arg9) (arg m c main_arg13) k j))
theorem tie_wo (k j : Fin 128) : (iblk m c 3 t : S128x384.Idx → EReal) (ix2 k (lane 256 (by omega) j)) = (arg m c main_arg13 : S128x128.Idx → EReal) (ix2 k j) :=
  (iblk3_apply m c t k (lane 256 (by omega) j)).trans ((V_v47_apply m c k (lane 256 (by omega) j)).trans (side3_lane256 (arg m c main_arg5) (arg m c main_arg9) (arg m c main_arg13) k j))
theorem tie_bi (j : Fin 128) : (iblk m c 4 t : S1x384.Idx → EReal) (ix2 row0 (lane 0 (by omega) j)) = (arg m c main_arg6 : S128.Idx → EReal) (ix1 j) :=
  (iblk4_apply m c t row0 (lane 0 (by omega) j)).trans ((V_v49_apply m c (lane 0 (by omega) j)).trans (end3_lane0 (arg m c main_arg6) (arg m c main_arg10) (arg m c main_arg14) j))
theorem tie_bf (j : Fin 128) : (iblk m c 4 t : S1x384.Idx → EReal) (ix2 row0 (lane 128 (by omega) j)) = (arg m c main_arg10 : S128.Idx → EReal) (ix1 j) :=
  (iblk4_apply m c t row0 (lane 128 (by omega) j)).trans ((V_v49_apply m c (lane 128 (by omega) j)).trans (end3_lane128 (arg m c main_arg6) (arg m c main_arg10) (arg m c main_arg14) j))
theorem tie_bo (j : Fin 128) : (iblk m c 4 t : S1x384.Idx → EReal) (ix2 row0 (lane 256 (by omega) j)) = (arg m c main_arg14 : S128.Idx → EReal) (ix1 j) :=
  (iblk4_apply m c t row0 (lane 256 (by omega) j)).trans ((V_v49_apply m c (lane 256 (by omega) j)).trans (end3_lane256 (arg m c main_arg6) (arg m c main_arg10) (arg m c main_arg14) j))
theorem tie_it (k j : Fin 128) : (iblk m c 5 t : S128x128.Idx → EReal) (ix2 k j) = (arg m c main_arg7 : S256x128.Idx → EReal) (ix2 (top k) j) :=
  (iblk5_apply m c t k j).trans ((congrFun (V_v50 m c) (ix2 k j)).trans (top_apply (arg m c main_arg7) k j))
theorem tie_ib (k j : Fin 128) : (iblk m c 6 t : S128x128.Idx → EReal) (ix2 k j) = (arg m c main_arg7 : S256x128.Idx → EReal) (ix2 (bot k) j) :=
  (iblk6_apply m c t k j).trans ((congrFun (V_v51 m c) (ix2 k j)).trans (bot_apply (arg m c main_arg7) k j))
theorem tie_i0 (j : Fin 128) : (iblk m c 7 t : S1x128.Idx → EReal) (ix2 row0 j) = (arg m c main_arg8 : S128.Idx → EReal) (ix1 j) :=
  (iblk7_apply m c t row0 j).trans ((congrFun (V_v58 m c) (ix2 row0 j)).trans (row_apply (arg m c main_arg8) j))
theorem tie_ft (k j : Fin 128) : (iblk m c 8 t : S128x128.Idx → EReal) (ix2 k j) = (arg m c main_arg11 : S256x128.Idx → EReal) (ix2 (top k) j) :=
  (iblk8_apply m c t k j).trans ((congrFun (V_v52 m c) (ix2 k j)).trans (top_apply (arg m c main_arg11) k j))
theorem tie_fb (k j : Fin 128) : (iblk m c 9 t : S128x128.Idx → EReal) (ix2 k j) = (arg m c main_arg11 : S256x128.Idx → EReal) (ix2 (bot k) j) :=
  (iblk9_apply m c t k j).trans ((congrFun (V_v53 m c) (ix2 k j)).trans (bot_apply (arg m c main_arg11) k j))
theorem tie_f0 (j : Fin 128) : (iblk m c 10 t : S1x128.Idx → EReal) (ix2 row0 j) = (arg m c main_arg12 : S128.Idx → EReal) (ix1 j) :=
  (iblk10_apply m c t row0 j).trans ((congrFun (V_v59 m c) (ix2 row0 j)).trans (row_apply (arg m c main_arg12) j))
theorem tie_ot (k j : Fin 128) : (iblk m c 11 t : S128x128.Idx → EReal) (ix2 k j) = (arg m c main_arg15 : S256x128.Idx → EReal) (ix2 (top k) j) :=
  (iblk11_apply m c t k j).trans ((congrFun (V_v54 m c) (ix2 k j)).trans (top_apply (arg m c main_arg15) k j))
theorem tie_ob (k j : Fin 128) : (iblk m c 12 t : S128x128.Idx → EReal) (ix2 k j) = (arg m c main_arg15 : S256x128.Idx → EReal) (ix2 (bot k) j) :=
  (iblk12_apply m c t k j).trans ((congrFun (V_v55 m c) (ix2 k j)).trans (bot_apply (arg m c main_arg15) k j))
theorem tie_o0 (j : Fin 128) : (iblk m c 13 t : S1x128.Idx → EReal) (ix2 row0 j) = (arg m c main_arg16 : S128.Idx → EReal) (ix1 j) :=
  (iblk13_apply m c t row0 j).trans ((congrFun (V_v60 m c) (ix2 row0 j)).trans (row_apply (arg m c main_arg16) j))
theorem tie_ctt (k j : Fin 128) : (iblk m c 14 t : S128x128.Idx → EReal) (ix2 k j) = (arg m c main_arg19 : S256x128.Idx → EReal) (ix2 (top k) j) :=
  (iblk14_apply m c t k j).trans ((congrFun (V_v56 m c) (ix2 k j)).trans (top_apply (arg m c main_arg19) k j))
theorem tie_ctb (k j : Fin 128) : (iblk m c 15 t : S128x128.Idx → EReal) (ix2 k j) = (arg m c main_arg19 : S256x128.Idx → EReal) (ix2 (bot k) j) :=
  (iblk15_apply m c t k j).trans ((congrFun (V_v57 m c) (ix2 k j)).trans (bot_apply (arg m c main_arg19) k j))
theorem tie_ct0 (j : Fin 128) : (iblk m c 16 t : S1x128.Idx → EReal) (ix2 row0 j) = (arg m c main_arg20 : S128.Idx → EReal) (ix1 j) :=
  (iblk16_apply m c t row0 j).trans ((congrFun (V_v61 m c) (ix2 row0 j)).trans (row_apply (arg m c main_arg20) j))

variable {m c} in
theorem ties (A : Spec.Args) (hA : ArgsAre m c A) : Ties A p (node t p) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) where
  ax k := by rw [hA.X, hA.src, hA.dst, hA.nrm]; exact tie_ax m c t p k
  h k := by rw [hA.H]; exact tie_h m c t p k
  c j := by rw [hA.C]; exact tie_c m c t p j
  wi k j := by rw [hA.Wci]; exact tie_wi m c t k j
  wf k j := by rw [hA.Wcf]; exact tie_wf m c t k j
  wo k j := by rw [hA.Wco]; exact tie_wo m c t k j
  bi j := by rw [hA.bci]; exact tie_bi m c t j
  bf j := by rw [hA.bcf]; exact tie_bf m c t j
  bo j := by rw [hA.bco]; exact tie_bo m c t j
  lit k j := by rw [hA.Wli]; exact tie_it m c t k j
  lib k j := by rw [hA.Wli]; exact tie_ib m c t k j
  lib0 j := by rw [hA.bli]; exact tie_i0 m c t j
  lft k j := by rw [hA.Wlf]; exact tie_ft m c t k j
  lfb k j := by rw [hA.Wlf]; exact tie_fb m c t k j
  lfb0 j := by rw [hA.blf]; exact tie_f0 m c t j
  lot k j := by rw [hA.Wlo]; exact tie_ot m c t k j
  lob k j := by rw [hA.Wlo]; exact tie_ob m c t k j
  lob0 j := by rw [hA.blo]; exact tie_o0 m c t j
  lct k j := by rw [hA.Wlct]; exact tie_ctt m c t k j
  lcb k j := by rw [hA.Wlct]; exact tie_ctb m c t k j
  lcb0 j := by rw [hA.blct]; exact tie_ct0 m c t j

end Ties

/-! ## What each grid point writes back -/

/-- The emb of a block row is the node: rows 1000 t … of the result arrays. -/
theorem emb17 (t : Fin cfg0.N) (p : Fin 1000) (q : Fin 128) :
    (((cfg0.win 17).blk t).view.emb (ix2 p q) : S10000x128.Idx) = ix2 (node t p) q := by
  funext a; apply Fin.ext
  match a with
  | ⟨0, _⟩ => show win0_17.index t (0 : Fin 2) * 1000 + 1 * p.val = 1000 * t.val + p.val; have h := (idx_facts t).2.2.2.2.2.2.2.2.2.2.2.2.2.2.2.2.2.2.2.2.2.2.2.2.2.2.2.2.2.2.2.2.2.2.1; omega
  | ⟨1, _⟩ => show win0_17.index t (1 : Fin 2) * 128 + 1 * q.val = q.val; have h := (idx_facts t).2.2.2.2.2.2.2.2.2.2.2.2.2.2.2.2.2.2.2.2.2.2.2.2.2.2.2.2.2.2.2.2.2.2.2.1; omega

theorem emb18 (t : Fin cfg0.N) (p : Fin 1000) (q : Fin 128) :
    (((cfg0.win 18).blk t).view.emb (ix2 p q) : S10000x128.Idx) = ix2 (node t p) q := by
  funext a; apply Fin.ext
  match a with
  | ⟨0, _⟩ => show win0_18.index t (0 : Fin 2) * 1000 + 1 * p.val = 1000 * t.val + p.val; have h := (idx_facts t).2.2.2.2.2.2.2.2.2.2.2.2.2.2.2.2.2.2.2.2.2.2.2.2.2.2.2.2.2.2.2.2.2.2.2.2.1; omega
  | ⟨1, _⟩ => show win0_18.index t (1 : Fin 2) * 128 + 1 * q.val = q.val; have h := (idx_facts t).2.2.2.2.2.2.2.2.2.2.2.2.2.2.2.2.2.2.2.2.2.2.2.2.2.2.2.2.2.2.2.2.2.2.2.2.2; omega

/-- The payloads of the two stores are the block functions of the loaded blocks. -/
theorem payC_eq (x0 : Vec Ideal S1000x128 .f32) (x1 : Vec Ideal S1000x128 .f32) (x2 : Vec Ideal S1000x128 .f32) (x3 : Vec Ideal S128x384 .f32) (x4 : Vec Ideal S1x384 .f32) (x5 : Vec Ideal S128x128 .f32) (x6 : Vec Ideal S128x128 .f32) (x7 : Vec Ideal S1x128 .f32) (x8 : Vec Ideal S128x128 .f32) (x9 : Vec Ideal S128x128 .f32) (x10 : Vec Ideal S1x128 .f32) (x11 : Vec Ideal S128x128 .f32) (x12 : Vec Ideal S128x128 .f32) (x13 : Vec Ideal S1x128 .f32) (x14 : Vec Ideal S128x128 .f32) (x15 : Vec Ideal S128x128 .f32) (x16 : Vec Ideal S1x128 .f32) :
    payC x0 x1 x2 x3 x4 x5 x6 x7 x8 x9 x10 x11 x12 x13 x14 x15 x16 = cellBlock (View.ld x0 rA) (View.ld x1 rA) (View.ld x2 rA) (View.ld x3 rB) (View.ld x4 rC) (View.ld x5 rD) (View.ld x6 rD) (View.ld x7 rE) (View.ld x8 rD) (View.ld x9 rD) (View.ld x10 rE) (View.ld x14 rD) (View.ld x15 rD) (View.ld x16 rE) := rfl

theorem payH_eq (x0 : Vec Ideal S1000x128 .f32) (x1 : Vec Ideal S1000x128 .f32) (x2 : Vec Ideal S1000x128 .f32) (x3 : Vec Ideal S128x384 .f32) (x4 : Vec Ideal S1x384 .f32) (x5 : Vec Ideal S128x128 .f32) (x6 : Vec Ideal S128x128 .f32) (x7 : Vec Ideal S1x128 .f32) (x8 : Vec Ideal S128x128 .f32) (x9 : Vec Ideal S128x128 .f32) (x10 : Vec Ideal S1x128 .f32) (x11 : Vec Ideal S128x128 .f32) (x12 : Vec Ideal S128x128 .f32) (x13 : Vec Ideal S1x128 .f32) (x14 : Vec Ideal S128x128 .f32) (x15 : Vec Ideal S128x128 .f32) (x16 : Vec Ideal S1x128 .f32) :
    payH x0 x1 x2 x3 x4 x5 x6 x7 x8 x9 x10 x11 x12 x13 x14 x15 x16 = hiddenBlock (View.ld x0 rA) (View.ld x1 rA) (View.ld x2 rA) (View.ld x3 rB) (View.ld x4 rC) (View.ld x5 rD) (View.ld x6 rD) (View.ld x7 rE) (View.ld x8 rD) (View.ld x9 rD) (View.ld x10 rE) (View.ld x11 rD) (View.ld x12 rD) (View.ld x13 rE) (View.ld x14 rD) (View.ld x15 rD) (View.ld x16 rE) := rfl

section BlockFun
variable {A : Spec.Args} {t : Fin cfg0.N}
    {v0 v2 v3 : Vec Ideal S1000x128 .f32} {v5 : Vec Ideal S128x384 .f32} {v9 : Vec Ideal S1x384 .f32}
    {v18 v21 : Vec Ideal S128x128 .f32} {v27 : Vec Ideal S1x128 .f32}
    {v33 v36 : Vec Ideal S128x128 .f32} {v42 : Vec Ideal S1x128 .f32}
    {v48 v51 : Vec Ideal S128x128 .f32} {v57 : Vec Ideal S1x128 .f32}
    {v63 v66 : Vec Ideal S128x128 .f32} {v72 : Vec Ideal S1x128 .f32}

/-- The stored cell-state block as one function of the block index. -/
theorem cellBlock_fun (T : ∀ p : Fin 1000, Ties A p (node t p) v0 v2 v3 v5 v9 v18 v21 v27 v33 v36 v42 v48 v51 v57 v63 v66 v72) :
    cellBlock v0 v2 v3 v5 v9 v18 v21 v27 v33 v36 v42 v63 v66 v72
      = fun j : S1000x128.Idx => A.cArr (ix2 (node t (j 0)) (j 1)) := by
  funext j
  obtain ⟨p, q, rfl⟩ : ∃ (p : Fin 1000) (q : Fin 128), j = ix2 p q := ⟨j 0, j 1, eq_ix2 j⟩
  exact cellBlock_eq_spec (T p) q

/-- The stored hidden-state block as one function of the block index. -/
theorem hiddenBlock_fun (T : ∀ p : Fin 1000, Ties A p (node t p) v0 v2 v3 v5 v9 v18 v21 v27 v33 v36 v42 v48 v51 v57 v63 v66 v72) :
    hiddenBlock v0 v2 v3 v5 v9 v18 v21 v27 v33 v36 v42 v48 v51 v57 v63 v66 v72
      = fun j : S1000x128.Idx => A.hArr (ix2 (node t (j 0)) (j 1)) := by
  funext j
  obtain ⟨p, q, rfl⟩ : ∃ (p : Fin 1000) (q : Fin 128), j = ix2 p q := ⟨j 0, j 1, eq_ix2 j⟩
  exact hiddenBlock_eq_spec (T p) q

end BlockFun

section OverBlocks
variable {A : Spec.Args} {t : Fin cfg0.N}

/-- The cell-state buffer after the body, as one function of the block index, for any seventeen blocks tied to the
    specification's arrays. -/
theorem out18_fun (x0 : Vec Ideal S1000x128 .f32) (x1 : Vec Ideal S1000x128 .f32) (x2 : Vec Ideal S1000x128 .f32) (x3 : Vec Ideal S128x384 .f32) (x4 : Vec Ideal S1x384 .f32) (x5 : Vec Ideal S128x128 .f32) (x6 : Vec Ideal S128x128 .f32) (x7 : Vec Ideal S1x128 .f32) (x8 : Vec Ideal S128x128 .f32) (x9 : Vec Ideal S128x128 .f32) (x10 : Vec Ideal S1x128 .f32) (x11 : Vec Ideal S128x128 .f32) (x12 : Vec Ideal S128x128 .f32) (x13 : Vec Ideal S1x128 .f32) (x14 : Vec Ideal S128x128 .f32) (x15 : Vec Ideal S128x128 .f32) (x16 : Vec Ideal S1x128 .f32)
    (T : ∀ p : Fin 1000, Ties A p (node t p) x0 x1 x2 x3 x4 x5 x6 x7 x8 x9 x10 x11 x12 x13 x14 x15 x16) :
    out18 x0 x1 x2 x3 x4 x5 x6 x7 x8 x9 x10 x11 x12 x13 x14 x15 x16 = fun j : S1000x128.Idx => A.cArr (ix2 (node t (j 0)) (j 1)) := by
  unfold out18
  rw [View.canon_unit_zero hz, payC_eq]
  simp only [View.ld_unit_zero (S := S1000x128) hz, View.ld_unit_zero (S := S128x384) hz, View.ld_unit_zero (S := S1x384) hz,
    View.ld_unit_zero (S := S128x128) hz, View.ld_unit_zero (S := S1x128) hz]
  exact cellBlock_fun T

/-- The hidden-state buffer after the body, likewise. -/
theorem out17_fun (x0 : Vec Ideal S1000x128 .f32) (x1 : Vec Ideal S1000x128 .f32) (x2 : Vec Ideal S1000x128 .f32) (x3 : Vec Ideal S128x384 .f32) (x4 : Vec Ideal S1x384 .f32) (x5 : Vec Ideal S128x128 .f32) (x6 : Vec Ideal S128x128 .f32) (x7 : Vec Ideal S1x128 .f32) (x8 : Vec Ideal S128x128 .f32) (x9 : Vec Ideal S128x128 .f32) (x10 : Vec Ideal S1x128 .f32) (x11 : Vec Ideal S128x128 .f32) (x12 : Vec Ideal S128x128 .f32) (x13 : Vec Ideal S1x128 .f32) (x14 : Vec Ideal S128x128 .f32) (x15 : Vec Ideal S128x128 .f32) (x16 : Vec Ideal S1x128 .f32)
    (T : ∀ p : Fin 1000, Ties A p (node t p) x0 x1 x2 x3 x4 x5 x6 x7 x8 x9 x10 x11 x12 x13 x14 x15 x16) :
    out17 x0 x1 x2 x3 x4 x5 x6 x7 x8 x9 x10 x11 x12 x13 x14 x15 x16 = fun j : S1000x128.Idx => A.hArr (ix2 (node t (j 0)) (j 1)) := by
  unfold out17
  rw [View.canon_unit_zero hz, payH_eq]
  simp only [View.ld_unit_zero (S := S1000x128) hz, View.ld_unit_zero (S := S128x384) hz, View.ld_unit_zero (S := S1x384) hz,
    View.ld_unit_zero (S := S128x128) hz, View.ld_unit_zero (S := S1x128) hz]
  exact hiddenBlock_fun T

end OverBlocks

/-- A buffer whose row p holds row 1000 t + p of an array G, cut to window 18's block at point t, is G read through
    that block. -/
theorem cut18_fun (X : Vec Ideal S1000x128 .f32) (G : S10000x128.Idx → EReal) (t : Fin cfg0.N)
    (h : ∀ j : S1000x128.Idx, X j = G (ix2 (node t (j 0)) (j 1))) :
    (cfg0.win 18).cut (grid0.coords t) X = ((cfg0.win 18).blk t).view.read (Elt Ideal) G := by
  obtain ⟨e0, e1⟩ : win0_18.index t (0 : Fin 2) = t.val ∧ win0_18.index t (1 : Fin 2) = 0 := ⟨(idx_facts t).2.2.2.2.2.2.2.2.2.2.2.2.2.2.2.2.2.2.2.2.2.2.2.2.2.2.2.2.2.2.2.2.2.2.2.2.1, (idx_facts t).2.2.2.2.2.2.2.2.2.2.2.2.2.2.2.2.2.2.2.2.2.2.2.2.2.2.2.2.2.2.2.2.2.2.2.2.2⟩
  funext j
  show X j = G (((cfg0.win 18).blk t).view.emb j)
  rw [h j]
  refine congrArg G ?_
  funext a; apply Fin.ext
  match a with
  | ⟨0, _⟩ => show 1000 * t.val + (j 0).val = win0_18.index t (0 : Fin 2) * 1000 + 1 * (j 0).val; omega
  | ⟨1, _⟩ => show (j 1).val = win0_18.index t (1 : Fin 2) * 128 + 1 * (j 1).val; omega

theorem cut17_fun (X : Vec Ideal S1000x128 .f32) (G : S10000x128.Idx → EReal) (t : Fin cfg0.N)
    (h : ∀ j : S1000x128.Idx, X j = G (ix2 (node t (j 0)) (j 1))) :
    (cfg0.win 17).cut (grid0.coords t) X = ((cfg0.win 17).blk t).view.read (Elt Ideal) G := by
  obtain ⟨e0, e1⟩ : win0_17.index t (0 : Fin 2) = t.val ∧ win0_17.index t (1 : Fin 2) = 0 := ⟨(idx_facts t).2.2.2.2.2.2.2.2.2.2.2.2.2.2.2.2.2.2.2.2.2.2.2.2.2.2.2.2.2.2.2.2.2.2.1, (idx_facts t).2.2.2.2.2.2.2.2.2.2.2.2.2.2.2.2.2.2.2.2.2.2.2.2.2.2.2.2.2.2.2.2.2.2.2.1⟩
  funext j
  show X j = G (((cfg0.win 17).blk t).view.emb j)
  rw [h j]
  refine congrArg G ?_
  funext a; apply Fin.ext
  match a with
  | ⟨0, _⟩ => show 1000 * t.val + (j 0).val = win0_17.index t (0 : Fin 2) * 1000 + 1 * (j 0).val; omega
  | ⟨1, _⟩ => show (j 1).val = win0_17.index t (1 : Fin 2) * 128 + 1 * (j 1).val; omega

/-- What point t writes back to the cell-state result is block t of the specification's new cell state. -/
theorem flushed18_eq (A : Spec.Args) (hA : ArgsAre m c A) (t : Fin cfg0.N) :
    (dats m 0 c).flushed 18 t = ((cfg0.win 18).blk t).view.read (Elt Ideal) (A.cArr) :=
  (flushed18 m c t).trans (cut18_fun _ A.cArr t
    (fun j => congrFun (out18_fun (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun p => ties t p A hA)) j))

/-- What point t writes back to the hidden-state result is block t of the specification's new hidden state. -/
theorem flushed17_eq (A : Spec.Args) (hA : ArgsAre m c A) (t : Fin cfg0.N) :
    (dats m 0 c).flushed 17 t = ((cfg0.win 17).blk t).view.read (Elt Ideal) (A.hArr) :=
  (flushed17 m c t).trans (cut17_fun _ A.hArr t
    (fun j => congrFun (out17_fun (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (fun p => ties t p A hA)) j))

/-! ## The ten blocks cover the array -/

theorem mem_blk17 (t : Fin cfg0.N) (i : S10000x128.Idx) :
    i ∈ ((cfg0.win 17).blk t).view.set ↔ ∀ a : Fin 2, win0_17.index t a * S1000x128.size a ≤ (i a).val
      ∧ (i a).val < win0_17.index t a * S1000x128.size a + S1000x128.size a := by
  show i ∈ ((View.whole main_v62_0).slice (win0_17.rect t)).set ↔ _
  rw [View.set_slice_whole, Rect.mem_set_unit]
  exact Iff.rfl

theorem mem_blk18 (t : Fin cfg0.N) (i : S10000x128.Idx) :
    i ∈ ((cfg0.win 18).blk t).view.set ↔ ∀ a : Fin 2, win0_18.index t a * S1000x128.size a ≤ (i a).val
      ∧ (i a).val < win0_18.index t a * S1000x128.size a + S1000x128.size a := by
  show i ∈ ((View.whole main_v62_1).slice (win0_18.rect t)).set ↔ _
  rw [View.set_slice_whole, Rect.mem_set_unit]
  exact Iff.rfl

/-- The point whose block holds row r is r / 1000. -/
def pointOf (i : S10000x128.Idx) : Fin cfg0.N :=
  ⟨(i 0).val / 1000, by rw [N_eq]; have h : (i 0).val < 10000 := (i 0).isLt; omega⟩

theorem cover17 (i : S10000x128.Idx) :
    ∃ t : Fin cfg0.N, (cfg0.win 17).flush t = true ∧ i ∈ ((cfg0.win 17).blk t).view.set := by
  refine ⟨pointOf i, flush0_17 _, ?_⟩
  rw [mem_blk17]
  have h0 : (i 0).val < 10000 := (i 0).isLt
  have h1 : (i 1).val < 128 := (i 1).isLt
  have ht : (pointOf i).val = (i 0).val / 1000 := rfl
  intro a
  match a with
  | ⟨0, _⟩ =>
    show win0_17.index (pointOf i) (0 : Fin 2) * 1000 ≤ (i 0).val ∧ (i 0).val < win0_17.index (pointOf i) (0 : Fin 2) * 1000 + 1000
    have h := (idx_facts (pointOf i)).2.2.2.2.2.2.2.2.2.2.2.2.2.2.2.2.2.2.2.2.2.2.2.2.2.2.2.2.2.2.2.2.2.2.1
    omega
  | ⟨1, _⟩ =>
    show win0_17.index (pointOf i) (1 : Fin 2) * 128 ≤ (i 1).val ∧ (i 1).val < win0_17.index (pointOf i) (1 : Fin 2) * 128 + 128
    have h := (idx_facts (pointOf i)).2.2.2.2.2.2.2.2.2.2.2.2.2.2.2.2.2.2.2.2.2.2.2.2.2.2.2.2.2.2.2.2.2.2.2.1
    omega

theorem cover18 (i : S10000x128.Idx) :
    ∃ t : Fin cfg0.N, (cfg0.win 18).flush t = true ∧ i ∈ ((cfg0.win 18).blk t).view.set := by
  refine ⟨pointOf i, flush0_18 _, ?_⟩
  rw [mem_blk18]
  have h0 : (i 0).val < 10000 := (i 0).isLt
  have h1 : (i 1).val < 128 := (i 1).isLt
  have ht : (pointOf i).val = (i 0).val / 1000 := rfl
  intro a
  match a with
  | ⟨0, _⟩ =>
    show win0_18.index (pointOf i) (0 : Fin 2) * 1000 ≤ (i 0).val ∧ (i 0).val < win0_18.index (pointOf i) (0 : Fin 2) * 1000 + 1000
    have h := (idx_facts (pointOf i)).2.2.2.2.2.2.2.2.2.2.2.2.2.2.2.2.2.2.2.2.2.2.2.2.2.2.2.2.2.2.2.2.2.2.2.2.1
    omega
  | ⟨1, _⟩ =>
    show win0_18.index (pointOf i) (1 : Fin 2) * 128 ≤ (i 1).val ∧ (i 1).val < win0_18.index (pointOf i) (1 : Fin 2) * 128 + 128
    have h := (idx_facts (pointOf i)).2.2.2.2.2.2.2.2.2.2.2.2.2.2.2.2.2.2.2.2.2.2.2.2.2.2.2.2.2.2.2.2.2.2.2.2.2
    omega

/-- After the run the hidden-state result is the specification's, -/
theorem final17_of (A : Spec.Args) (hA : ArgsAre m c A) : (dats m 0 c).arrAt 17 cfg0.N = A.hArr :=
  (dats m 0 c).arrAt_eq_of_cover 17 A.hArr (fun t _ => flushed17_eq m c A hA t) cover17

theorem final17 : (dats m 0 c).arrAt 17 cfg0.N = (kArgs m c).hArr := final17_of m c (kArgs m c) (kArgs_are m c)

/-- and the cell-state result too. -/
theorem final18_of (A : Spec.Args) (hA : ArgsAre m c A) : (dats m 0 c).arrAt 18 cfg0.N = A.cArr :=
  (dats m 0 c).arrAt_eq_of_cover 18 A.cArr (fun t _ => flushed18_eq m c A hA t) cover18

theorem final18 : (dats m 0 c).arrAt 18 cfg0.N = (kArgs m c).cArr := final18_of m c (kArgs m c) (kArgs_are m c)

end Cert.KernelIdeal.Final

end
-- ==== Proof.KernelBridge.lean ====
/- The host operations of the kernel program compute, from the edge list, the same source column and the same
   destination column as the reference program: on both sides the same composition of the same operations (the
   self-loops appended to each end list, negative indices wrapped, the list made a column). -/
import proofs.«155784_j56238301774267_2_alg».proof.Proof.KernelHost
import proofs.«155784_j56238301774267_2_alg».proof.Proof.Gen.ReferenceIdeal.Read

set_option maxRecDepth 16384

noncomputable section

namespace Cert.KernelIdeal.Bridge

open Idealize.ShloMosaic Idealize.ShloMosaic.TcCoe Idealize.SL.Sem
open Idealize.ShloMosaic.StableHlo
open Cert.KernelIdeal Cert.KernelIdeal.Gen Cert.KernelIdeal.Hand Cert.KernelIdeal.HostValue

variable (m : (ℓ : Loc nD τ sig) → Buf (Elt Ideal) ℓ) (c : Dev nD)

/-- The source column the kernel program gathers by is the reference's. -/
theorem src_eq : (V m c main_v39 : S650000x1.Idx → BitVec 32)
    = Cert.ReferenceIdeal.Read.val_main_v40 (F := Ideal) (m ((c : Thread nD τ).loc main_arg1)) := by
  host_results
  rfl

/-- The destination column the kernel program scatters by is the reference's. -/
theorem dst_eq : (V m c main_v45 : S650000x1.Idx → BitVec 32)
    = Cert.ReferenceIdeal.Read.val_main_v46 (F := Ideal) (m ((c : Thread nD τ).loc main_arg1)) := by
  host_results
  rfl

end Cert.KernelIdeal.Bridge

end
-- ==== Proof.KernelBridgeNrm.lean ====
/- The host operations of the kernel program compute, from the edge list and the edge weights, the same edge normaliser
   as the reference program: the weight (a one for each self-loop) times the inverse square root of the degree — zero
   where the degree is not positive — gathered at both ends of the edge; on both sides the same composition of the same
   operations. -/
import proofs.«155784_j56238301774267_2_alg».proof.Proof.FrameData
import proofs.«155784_j56238301774267_2_alg».proof.Proof.Gen.ReferenceIdeal.Read
import Idealize.ShloMosaic.Lib.StableHlo.Run

set_option maxRecDepth 16384

noncomputable section

namespace Cert.KernelIdeal.Bridge

open Idealize.ShloMosaic Idealize.ShloMosaic.TcCoe Idealize.SL.Sem
open Idealize.ShloMosaic.StableHlo
open Cert.KernelIdeal Cert.KernelIdeal.Gen Cert.KernelIdeal.Hand

/-- The buffers' contents after the host operations, by one pass over the operations (none of the operations the
    normaliser depends on has three operands). -/
macro "host_pass" : tactic =>
  `(tactic| (dsimp only [V]
             simp only [hostOps0, hostOps0_1, hostOps0_2, List.flatten_cons, List.flatten_nil, List.append_nil, List.cons_append,
               List.nil_append]
             simp (disch := decide) only [after_cons, after_nil,
               nullary_result', unary_result', binary_result', ternary_result', quaternary_result', reshape_result', nary_result',
               unaryIndexed_result', binaryIndexed_result',
               nullary_result_ne', unary_result_ne', binary_result_ne', ternary_result_ne', quaternary_result_ne', reshape_result_ne',
               nary_result_ne', unaryIndexed_result_ne', binaryIndexed_result_ne']))

/-! The operations of the module-local selection move each value to its buffer's own type and back; at these literal
    buffers the move is the identity (whatever the proofs carried). -/
theorem to_v17 (h1 : main_v17.ty = (⟨S10000, .f32⟩ : BufTy)) (h2 h3) (v : (⟨S10000, .f32⟩ : BufTy).Contents (Elt Ideal)) :
    (TRef.of (T := ⟨S10000, .f32⟩) main_v17 h1 h2 h3).toBuf v = v := rfl
theorem of_v13 (h1 : main_v13.ty = (⟨S10000, .i1⟩ : BufTy)) (h2 h3) (v : main_v13.ty.Contents (Elt Ideal)) :
    (TRef.of (T := ⟨S10000, .i1⟩) main_v13 h1 h2 h3).ofBuf v = v := rfl
theorem of_v16 (h1 : main_v16.ty = (⟨S10000, .f32⟩ : BufTy)) (h2 h3) (v : main_v16.ty.Contents (Elt Ideal)) :
    (TRef.of (T := ⟨S10000, .f32⟩) main_v16 h1 h2 h3).ofBuf v = v := rfl
theorem of_c1 (h1 : main_call0_v1.ty = (⟨S10000, .f32⟩ : BufTy)) (h2 h3) (v : main_call0_v1.ty.Contents (Elt Ideal)) :
    (TRef.of (T := ⟨S10000, .f32⟩) main_call0_v1 h1 h2 h3).ofBuf v = v := rfl
theorem to_c1 (h1 : main_call0_v1.ty = (⟨S10000, .f32⟩ : BufTy)) (h2 h3) (v : (⟨S10000, .f32⟩ : BufTy).Contents (Elt Ideal)) :
    (TRef.of (T := ⟨S10000, .f32⟩) main_call0_v1 h1 h2 h3).toBuf v = v := rfl
theorem of_c0 (h1 : main_call0_v0.ty = (⟨S_, .f32⟩ : BufTy)) (h2 h3) (v : main_call0_v0.ty.Contents (Elt Ideal)) :
    (TRef.of (T := ⟨S_, .f32⟩) main_call0_v0 h1 h2 h3).ofBuf v = v := rfl
theorem to_c0 (h1 : main_call0_v0.ty = (⟨S_, .f32⟩ : BufTy)) (h2 h3) (v : (⟨S_, .f32⟩ : BufTy).Contents (Elt Ideal)) :
    (TRef.of (T := ⟨S_, .f32⟩) main_call0_v0 h1 h2 h3).toBuf v = v := rfl
theorem of_cst3 (h1 : main_cst_3.ty = (⟨S_, .f32⟩ : BufTy)) (h2 h3) (v : main_cst_3.ty.Contents (Elt Ideal)) :
    (TRef.of (T := ⟨S_, .f32⟩) main_cst_3 h1 h2 h3).ofBuf v = v := rfl

variable (m : (ℓ : Loc nD τ sig) → Buf (Elt Ideal) ℓ) (c : Dev nD)

/-- The edge normaliser (the weight times the inverse square root of the degree at both ends) is the reference's. -/
theorem nrm_eq : (V m c main_v33 : S650000.Idx → EReal)
    = Cert.ReferenceIdeal.Read.val_main_v33 (F := Ideal) (m ((c : Thread nD τ).loc main_arg1)) (m ((c : Thread nD τ).loc main_arg2)) := by
  host_pass
  simp only [to_v17, of_v13, of_v16, of_c1, to_c1, of_c0, to_c0, of_cst3]
  rfl

end Cert.KernelIdeal.Bridge

end
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.RefConv.lean ====
/-
  One graph convolution of the reference, read at an entry.

  The reference forms the product X · W first, takes for every edge the row of the product at the edge's source,
  scales that row by the edge's weight, scatter-adds the scaled rows onto the destination rows of a zero array, and
  adds the bias. At node n and output feature j this is

      0 + Σ over the edges e landing on n of (Σ_k X[src e, k] · W[k, j]) · nrm e  +  b[j] .

  When the features, the weights and the edge weights are real numbers, the double sum may be taken in the other
  order, Σ_k (Σ_e X[src e, k] · nrm e) · W[k, j]: the neighbourhood sum of X against column j of the weight.
-/
import proofs.«155784_j56238301774267_2_alg».proof.Proof.Gen.ReferenceIdeal
import Idealize.ShloMosaic.Lib.Pipeline.Value
import Idealize.ShloMosaic.Lib.ValueIdx
import Idealize.ShloMosaic.PureOps.Ideal.Laws
import Idealize.ShloMosaic.Lib.IdealHost
import proofs.«155784_j56238301774267_2_alg».proof.Proof.Spec
import proofs.«155784_j56238301774267_2_alg».proof.Proof.LibRowGather
import proofs.«155784_j56238301774267_2_alg».proof.Proof.LibRowScatterSum
import proofs.«155784_j56238301774267_2_alg».proof.Proof.LibDotRows
import proofs.«155784_j56238301774267_2_alg».proof.Proof.LibRealSum

noncomputable section

open scoped BigOperators

namespace Cert.ReferenceIdeal.RefConv

open Cert.ReferenceIdeal Cert.ReferenceIdeal.Gen Idealize.ShloMosaic Idealize.ShloMosaic.TcCoe Idealize.SL.Sem Idealize.ShloMosaic.StableHlo
open Idealize.ShloMosaic.ValueIdx Cert.LibRowGather Cert.LibRowScatterSum Cert.LibRealSum

/-- The zero array [10000, 128]. -/
def zeros : FVec Ideal S10000x128 .f32 :=
  broadcastInDim S10000x128 ![] bcast_S_S10000x128 (constant (F := Ideal) S_ .f32 0x00000000#32)

/-- A bias [128] laid over the 10000 rows. -/
def biasRows (b : FVec Ideal S128 .f32) : FVec Ideal S10000x128 .f32 :=
  broadcastInDim S10000x128 ![0, 1] bcast_S1x128_S10000x128_0_1 (broadcastInDim S1x128 ![1] bcast_S128_S1x128_1 b)

/-- An edge weight [650000] laid along the 128 lanes of the edge's row. -/
def laneWeight (nrm : FVec Ideal S650000 .f32) : FVec Ideal S650000x128 .f32 :=
  broadcastInDim S650000x128 ![0, 1] bcast_S650000x1_S650000x128_0_1 (broadcastInDim S650000x1 ![0] bcast_S650000_S650000x1_0 nrm)

/-- The product X · W as the host forms it. -/
def prod (X : FVec Ideal S10000x128 .f32) (W : FVec Ideal S128x128 .f32) : FVec Ideal S10000x128 .f32 :=
  Host.dotGeneral (F := Ideal) dot_S10000x128_S128x128_S10000x128_1_0_0_1_n_n none X W

/-- The convolution as the reference computes it: product, row gather, scaling, scatter-add into zero, bias. -/
def convStage (X : FVec Ideal S10000x128 .f32) (src dst : IVec S650000x1 32)
    (nrm : FVec Ideal S650000 .f32) (W : FVec Ideal S128x128 .f32) (b : FVec Ideal S128 .f32) : FVec Ideal S10000x128 .f32 :=
  addf
    (Host.scatterAdd scatter_S10000x128_S650000x1_S650000x128_1_0_0_1 zeros dst
      (mulf (Host.gather gather_S10000x128_S650000x1_S650000x128_1_0_n_n_0_1_1128 (prod X W) src) (laneWeight nrm)))
    (biasRows b)

/-- The zero array is zero at every entry. -/
theorem zeros_apply (i : S10000x128.Idx) : zeros i = 0 := by
  unfold zeros
  rw [broadcastInDim_scalar_apply, constant_apply, Ideal.ofBits_zero_f32]

/-- The bias laid over the rows reads, at (n, j), its entry j. -/
theorem biasRows_apply (b : FVec Ideal S128 .f32) (n : Fin 10000) (j : Fin 128) : biasRows b (ix2 n j) = b (ix1 j) := by
  unfold biasRows
  refine (broadcastInDim_apply _ bcast_S1x128_S10000x128_0_1 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])).trans ?_
  exact broadcastInDim_apply _ bcast_S128_S1x128_1 b (ix2 (0 : Fin 1) j) (ix1 j) (fun a => match a with
    | ⟨0, _⟩ => by show j.val = if (128 : Nat) = 1 then 0 else j.val; rw [if_neg (by decide)])

/-- The edge weight laid along the lanes reads, at (e, c), the weight of edge e. -/
theorem laneWeight_apply (nrm : FVec Ideal S650000 .f32) (e : Fin 650000) (c : Fin 128) :
    laneWeight nrm (ix2 e c) = nrm (ix1 e) := by
  unfold laneWeight
  refine (broadcastInDim_apply _ bcast_S650000x1_S650000x128_0_1 _ (ix2 e c) (ix2 e (0 : Fin 1)) (fun a => match a with
    | ⟨0, _⟩ => by show e.val = if (650000 : Nat) = 1 then 0 else e.val; rw [if_neg (by decide)]
    | ⟨1, _⟩ => by show 0 = if (1 : Nat) = 1 then 0 else c.val; rw [if_pos rfl])).trans ?_
  exact broadcastInDim_apply _ bcast_S650000_S650000x1_0 nrm (ix2 e (0 : Fin 1)) (ix1 e) (fun a => match a with
    | ⟨0, _⟩ => by show e.val = if (650000 : Nat) = 1 then 0 else e.val; rw [if_neg (by decide)])

/-- Entry (p, q) of the product X · W. -/
theorem prod_apply (X : FVec Ideal S10000x128 .f32) (W : FVec Ideal S128x128 .f32) (p : Fin 10000) (q : Fin 128) :
    prod X W (ix2 p q) = ∑ k : Fin 128, X (ix2 p k) * W (ix2 k q) :=
  Cert.Lib.DotRows.dotGeneral_plain_apply (M := 10000) (K := 128) (N := 128) X W p q

/-- The scaled row of edge e at lane j: the product's row at the edge's source, times the edge's weight. -/
theorem update_apply (X : FVec Ideal S10000x128 .f32) (src : IVec S650000x1 32)
    (nrm : FVec Ideal S650000 .f32) (W : FVec Ideal S128x128 .f32) (e : Fin 650000) (j : Fin 128) :
    mulf (Host.gather gather_S10000x128_S650000x1_S650000x128_1_0_n_n_0_1_1128 (prod X W) src) (laneWeight nrm) (ix2 e j)
      = (∑ k : Fin 128, X (ix2 (Cert.Spec.srcRow src e) k) * W (ix2 k j)) * nrm (ix1 e) := by
  rw [mulf_apply, laneWeight_apply]
  refine congrArg (· * nrm (ix1 e)) ?_
  refine (gather_row_apply (N := 10000) (E := 650000) (C := 128) (by decide)
    gather_S10000x128_S650000x1_S650000x128_1_0_n_n_0_1_1128_wf (prod X W) src e j).trans ?_
  exact prod_apply X W _ j

/-- The host's row scatter-add at entry (n, j): the operand's entry plus the updates (e, j) of the edges landing on n. -/
theorem scatter_apply (Z : FVec Ideal S10000x128 .f32) (dst : IVec S650000x1 32) (u : FVec Ideal S650000x128 .f32)
    (n : Fin 10000) (j : Fin 128) :
    Host.scatterAdd scatter_S10000x128_S650000x1_S650000x128_1_0_0_1 Z dst u (ix2 n j)
      = Z (ix2 n j) + ∑ e ∈ Cert.Spec.landing dst n, u (ix2 e j) := by
  have h1 : Host.scatterAdd scatter_S10000x128_S650000x1_S650000x128_1_0_0_1 Z dst u
      = Ideal.hostScatterAdd scatter_S10000x128_S650000x1_S650000x128_1_0_0_1 Z dst u := rfl
  have h2 : scatter_S10000x128_S650000x1_S650000x128_1_0_0_1
      = rowScatterDims 10000 650000 128 scatter_S10000x128_S650000x1_S650000x128_1_0_0_1_wf := rfl
  rw [h1, h2]
  exact hostScatterAdd_rows_apply scatter_S10000x128_S650000x1_S650000x128_1_0_0_1_wf Z dst u n j

/-- **The convolution stage at node n, feature j** is the convolution of the neighbourhood sums, when the features,
    the edge weights and the weight matrix are real. -/
theorem convStage_apply (X : FVec Ideal S10000x128 .f32) (src dst : IVec S650000x1 32)
    (nrm : FVec Ideal S650000 .f32) (W : FVec Ideal S128x128 .f32) (b : FVec Ideal S128 .f32)
    (hX : ∀ i, IsReal (X i)) (hN : ∀ i, IsReal (nrm i)) (hW : ∀ i, IsReal (W i)) (n : Fin 10000) (j : Fin 128) :
    convStage X src dst nrm W b (ix2 n j) = Cert.Spec.conv X src dst nrm W b n j := by
  unfold convStage Cert.Spec.conv Cert.Spec.dotb
  rw [addf_apply, biasRows_apply, scatter_apply, zeros_apply, zero_add]
  refine congrArg (· + b (ix1 j)) ?_
  refine (Finset.sum_congr rfl fun e _ => update_apply X src nrm W e j).trans ?_
  exact sum_mul_sum_swap (Cert.Spec.landing dst n) (fun e k => X (ix2 (Cert.Spec.srcRow src e) k)) (fun e => nrm (ix1 e))
    (fun k => W (ix2 k j)) (fun _ _ => hX _) (fun _ => hN _) (fun _ => hW _)

end Cert.ReferenceIdeal.RefConv

end
-- ==== Proof.RefGate.lean ====
/-
  One linear layer of the reference on the row [g, h], read at an entry.

  The reference lays the convolution g [10000, 128] and the hidden state h [10000, 128] side by side into a
  [10000, 256] array, multiplies it by the stacked weight [256, 128] and adds the bias. At node n and feature j the
  sum over the 256 positions splits into the first 128 (the row of g against the top half of the weight) and the last
  128 (the row of h against the bottom half); only the commutative-monoid laws of the sum are used.
-/
import proofs.«155784_j56238301774267_2_alg».proof.Proof.Gen.ReferenceIdeal
import Idealize.ShloMosaic.Lib.Pipeline.Value
import Idealize.ShloMosaic.Lib.ValueIdx
import Idealize.ShloMosaic.PureOps.Ideal.Laws
import Idealize.ShloMosaic.Lib.IdealHost
import proofs.«155784_j56238301774267_2_alg».proof.Proof.Spec
import proofs.«155784_j56238301774267_2_alg».proof.Proof.LibDotRows
import proofs.«155784_j56238301774267_2_alg».proof.Proof.RefConv

noncomputable section

open scoped BigOperators

namespace Cert.ReferenceIdeal.RefGate

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefConv

/-- Two [10000, 128] arrays laid side by side along the lanes. -/
def sideBySide (g h : FVec Ideal S10000x128 .f32) : FVec Ideal S10000x256 .f32 :=
  concatenate S10000x256 1 [⟨S10000x128, g⟩, ⟨S10000x128, h⟩] concatenates_S10000x128_S10000x128_S10000x256_d1

/-- The linear layer as the reference computes it: the rows [g, h] times the stacked weight, plus the bias. -/
def gateStage (g h : FVec Ideal S10000x128 .f32) (Wl : FVec Ideal S256x128 .f32) (bl : FVec Ideal S128 .f32) : FVec Ideal S10000x128 .f32 :=
  addf (Host.dotGeneral (F := Ideal) dot_S10000x256_S256x128_S10000x128_1_0_0_1_n_n none (sideBySide g h) Wl) (biasRows bl)

/-- Off the joined axis a piece's index and the joined index share their coordinate. -/
theorem off_axis (n : Fin 10000) (k : Fin 128) (l : Fin 256) :
    ∀ bb : Fin S10000x128.rank, bb.cast (rfl : S10000x128.rank = S10000x256.rank) ≠ (1 : Fin 2) →
      ((ix2 n k : S10000x128.Idx) bb).val = ((ix2 n l : S10000x256.Idx) (bb.cast rfl)).val := by
  intro bb hbb
  match bb with
  | ⟨0, _⟩ => rfl
  | ⟨1, _⟩ => exact absurd rfl hbb

/-- The first 128 lanes of the joined row are the row of g. -/
theorem sideBySide_top (g h : FVec Ideal S10000x128 .f32) (n : Fin 10000) (k : Fin 128) :
    sideBySide g h (ix2 n (Cert.Spec.top k)) = g (ix2 n k) := by
  unfold sideBySide
  exact concatenate_apply_piece (t := S10000x256) (1 : Fin 2) ([⟨S10000x128, g⟩, ⟨S10000x128, h⟩] : List ((s : Shape) × (s.Idx → EReal)))
    concatenates_S10000x128_S10000x128_S10000x256_d1 (ix2 n (Cert.Spec.top k)) 0 (by simp)
    S10000x128 g rfl rfl 0 rfl (ix2 n k) (off_axis n k _) (by show 0 + k.val = k.val; omega)

/-- The last 128 lanes of the joined row are the row of h. -/
theorem sideBySide_bot (g h : FVec Ideal S10000x128 .f32) (n : Fin 10000) (k : Fin 128) :
    sideBySide g h (ix2 n (Cert.Spec.bot k)) = h (ix2 n k) := by
  unfold sideBySide
  exact concatenate_apply_piece (t := S10000x256) (1 : Fin 2) ([⟨S10000x128, g⟩, ⟨S10000x128, h⟩] : List ((s : Shape) × (s.Idx → EReal)))
    concatenates_S10000x128_S10000x128_S10000x256_d1 (ix2 n (Cert.Spec.bot k)) 1 (by simp)
    S10000x128 h rfl rfl 128 (by simp) (ix2 n k) (off_axis n k _) (by show 128 + k.val = 128 + k.val; rfl)

/-- A sum over 256 positions is the sum over the first 128 plus the sum over the last 128. -/
theorem sum_256_split (f : Fin 256 → EReal) :
    ∑ k : Fin 256, f k = (∑ k : Fin 128, f (Cert.Spec.top k)) + ∑ k : Fin 128, f (Cert.Spec.bot k) :=
  Fin.sum_univ_add (a := 128) (b := 128) f

/-- **The linear layer at node n, feature j**: the row of g against the top half of the stacked weight, the row of h
    against the bottom half, plus the bias. -/
theorem gateStage_apply (g h : FVec Ideal S10000x128 .f32) (Wl : FVec Ideal S256x128 .f32) (bl : FVec Ideal S128 .f32) (n : Fin 10000) (j : Fin 128) :
    gateStage g h Wl bl (ix2 n j) = Cert.Spec.gate (fun k => g (ix2 n k)) (fun k => h (ix2 n k)) Wl bl j := by
  unfold gateStage Cert.Spec.gate Cert.Spec.lin
  rw [addf_apply, biasRows_apply]
  refine congrArg (· + bl (ix1 j)) ?_
  refine (Cert.Lib.DotRows.dotGeneral_plain_apply (M := 10000) (K := 256) (N := 128) (sideBySide g h) Wl n j).trans ?_
  rw [sum_256_split]
  congr 1
  · exact Finset.sum_congr rfl fun k _ => by rw [sideBySide_top]
  · exact Finset.sum_congr rfl fun k _ => by rw [sideBySide_bot]

end Cert.ReferenceIdeal.RefGate

end
-- ==== Proof.RefValue.lean ====
/-
  The reference's two results, entry by entry, are the cell's closed form.

  Each gate is a graph convolution followed by a linear layer on the row [convolution, hidden state]; the input,
  forget and output gates pass through the logistic function 1 / (1 + e^(-x)), the candidate through tanh. The new
  cell state is tanh(candidate) · σ(input) + σ(forget) · c and the new hidden state σ(output) · tanh(new cell state).
  The forget gate and the candidate share one convolution. The convolutions need the features, the edge weights and
  the convolution weights to be real numbers (so that the weighted double sum may be taken in either order); the
  linear layers, the logistic function and tanh need nothing.
-/
import proofs.«155784_j56238301774267_2_alg».proof.Proof.Gen.ReferenceIdeal.Read
import proofs.«155784_j56238301774267_2_alg».proof.Proof.Spec
import proofs.«155784_j56238301774267_2_alg».proof.Proof.RefConv
import proofs.«155784_j56238301774267_2_alg».proof.Proof.RefGate
import Idealize.ShloMosaic.Lib.IdealHost

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.RefConv Cert.ReferenceIdeal.RefGate

/-- The arrays the cell's closed form reads, taken from the reference's arguments: the source and destination index
    columns and the edge weights are the reference's own intermediate arrays. -/
def refArgs (x0 : FVec Ideal S10000x128 .f32) (x1 : IVec S2x640000 32) (x2 : FVec Ideal S640000 .f32) (x3 x4 : FVec Ideal S10000x128 .f32)
    (x5 : FVec Ideal S128x128 .f32) (x6 : FVec Ideal S128 .f32) (x7 : FVec Ideal S256x128 .f32) (x8 : FVec Ideal S128 .f32)
    (x9 : FVec Ideal S128x128 .f32) (x10 : FVec Ideal S128 .f32) (x11 : FVec Ideal S256x128 .f32) (x12 : FVec Ideal S128 .f32)
    (x13 : FVec Ideal S128x128 .f32) (x14 : FVec Ideal S128 .f32) (x15 : FVec Ideal S256x128 .f32) (x16 : FVec Ideal S128 .f32)
    (x17 : FVec Ideal S128x128 .f32) (x18 : FVec Ideal S128 .f32) (x19 : FVec Ideal S256x128 .f32) (x20 : FVec Ideal S128 .f32) : Cert.Spec.Args :=
  { X := x0, src := Read.val_main_v40 (F := Ideal) x1, dst := Read.val_main_v46 (F := Ideal) x1,
    nrm := Read.val_main_v33 (F := Ideal) x1 x2, H := x3, C := x4,
    Wci := x5, bci := x6, Wli := x7, bli := x8, Wcf := x9, bcf := x10, Wlf := x11, blf := x12,
    Wco := x13, bco := x14, Wlo := x15, blo := x16, Wlct := x19, blct := x20 }

/-- The three convolutions read one source column and one destination column. -/
theorem src_f (x1 : IVec S2x640000 32) : Read.val_main_v57 (F := Ideal) x1 = Read.val_main_v40 (F := Ideal) x1 := rfl
theorem src_o (x1 : IVec S2x640000 32) : Read.val_main_v74 (F := Ideal) x1 = Read.val_main_v40 (F := Ideal) x1 := rfl
theorem dst_f (x1 : IVec S2x640000 32) : Read.val_main_v63 (F := Ideal) x1 = Read.val_main_v46 (F := Ideal) x1 := rfl
theorem dst_o (x1 : IVec S2x640000 32) : Read.val_main_v80 (F := Ideal) x1 = Read.val_main_v46 (F := Ideal) x1 := rfl

/-- The reference's three convolution stages are the convolution stage of their weight and bias. -/
theorem conv_i (x0 : FVec Ideal S10000x128 .f32) (x1 : IVec S2x640000 32) (x2 : FVec Ideal S640000 .f32) (x5 : FVec Ideal S128x128 .f32) (x6 : FVec Ideal S128 .f32) :
    Read.val_main_v50 (F := Ideal) x0 x1 x2 x5 x6
      = convStage x0 (Read.val_main_v40 (F := Ideal) x1) (Read.val_main_v46 (F := Ideal) x1) (Read.val_main_v33 (F := Ideal) x1 x2) x5 x6 := rfl
theorem conv_f (x0 : FVec Ideal S10000x128 .f32) (x1 : IVec S2x640000 32) (x2 : FVec Ideal S640000 .f32) (x9 : FVec Ideal S128x128 .f32) (x10 : FVec Ideal S128 .f32) :
    Read.val_main_v67 (F := Ideal) x0 x1 x2 x9 x10
      = convStage x0 (Read.val_main_v40 (F := Ideal) x1) (Read.val_main_v46 (F := Ideal) x1) (Read.val_main_v33 (F := Ideal) x1 x2) x9 x10 := rfl
theorem conv_o (x0 : FVec Ideal S10000x128 .f32) (x1 : IVec S2x640000 32) (x2 : FVec Ideal S640000 .f32) (x13 : FVec Ideal S128x128 .f32) (x14 : FVec Ideal S128 .f32) :
    Read.val_main_v84 (F := Ideal) x0 x1 x2 x13 x14
      = convStage x0 (Read.val_main_v40 (F := Ideal) x1) (Read.val_main_v46 (F := Ideal) x1) (Read.val_main_v33 (F := Ideal) x1 x2) x13 x14 := rfl

/-- The logistic function as the reference spells it: one over one plus the exponential of the negation. -/
def sigStage (p : FVec Ideal S10000x128 .f32) : FVec Ideal S10000x128 .f32 :=
  Host.divf (Read.val_main_v94 (F := Ideal)) (addf (Read.val_main_v92 (F := Ideal)) (Host.exp (Host.negf p)))

/-- The constant one array is one at every entry. -/
theorem one_apply_92 (i : S10000x128.Idx) : Read.val_main_v92 (F := Ideal) i = 1 := by
  rw [Read.val_main_v92_apply, Read.val_main_cst_16_apply, Ideal.ofBits_def, Ideal.ofBits_one_f32]
theorem one_apply_94 (i : S10000x128.Idx) : Read.val_main_v94 (F := Ideal) i = 1 := by
  rw [Read.val_main_v94_apply, Read.val_main_cst_17_apply, Ideal.ofBits_def, Ideal.ofBits_one_f32]

/-- The reference's spelling of the logistic function is the logistic function, entry by entry. -/
theorem sigStage_apply (p : FVec Ideal S10000x128 .f32) (i : S10000x128.Idx) : sigStage p i = Ideal.logistic (p i) := by
  show Ideal.div (Read.val_main_v94 (F := Ideal) i) (Read.val_main_v92 (F := Ideal) i + Ideal.exp (-(p i))) = _
  rw [one_apply_92, one_apply_94]
  rfl

section
variable (x0 : FVec Ideal S10000x128 .f32) (x1 : IVec S2x640000 32) (x2 : FVec Ideal S640000 .f32) (x3 x4 : FVec Ideal S10000x128 .f32)
    (x5 : FVec Ideal S128x128 .f32) (x6 : FVec Ideal S128 .f32) (x7 : FVec Ideal S256x128 .f32) (x8 : FVec Ideal S128 .f32)
    (x9 : FVec Ideal S128x128 .f32) (x10 : FVec Ideal S128 .f32) (x11 : FVec Ideal S256x128 .f32) (x12 : FVec Ideal S128 .f32)
    (x13 : FVec Ideal S128x128 .f32) (x14 : FVec Ideal S128 .f32) (x15 : FVec Ideal S256x128 .f32) (x16 : FVec Ideal S128 .f32)
    (x17 : FVec Ideal S128x128 .f32) (x18 : FVec Ideal S128 .f32) (x19 : FVec Ideal S256x128 .f32) (x20 : FVec Ideal S128 .f32)

/-- The four pre-activations as stages of the reference. -/
theorem pre_i_eq : Read.val_main_v89 (F := Ideal) x0 x1 x2 x3 x5 x6 x7 x8
    = gateStage (Read.val_main_v50 (F := Ideal) x0 x1 x2 x5 x6) x3 x7 x8 := rfl
theorem pre_f_eq : Read.val_main_v100 (F := Ideal) x0 x1 x2 x3 x9 x10 x11 x12
    = gateStage (Read.val_main_v67 (F := Ideal) x0 x1 x2 x9 x10) x3 x11 x12 := rfl
theorem pre_o_eq : Read.val_main_v111 (F := Ideal) x0 x1 x2 x3 x13 x14 x15 x16
    = gateStage (Read.val_main_v84 (F := Ideal) x0 x1 x2 x13 x14) x3 x15 x16 := rfl
theorem pre_ct_eq : Read.val_main_v122 (F := Ideal) x0 x1 x2 x3 x9 x10 x19 x20
    = gateStage (Read.val_main_v67 (F := Ideal) x0 x1 x2 x9 x10) x3 x19 x20 := rfl

/-- The three logistic stages and the candidate's tanh as stages of the reference. -/
theorem sig_i_eq : Read.val_main_v95 (F := Ideal) x0 x1 x2 x3 x5 x6 x7 x8
    = sigStage (Read.val_main_v89 (F := Ideal) x0 x1 x2 x3 x5 x6 x7 x8) := rfl
theorem sig_f_eq : Read.val_main_v106 (F := Ideal) x0 x1 x2 x3 x9 x10 x11 x12
    = sigStage (Read.val_main_v100 (F := Ideal) x0 x1 x2 x3 x9 x10 x11 x12) := rfl
theorem sig_o_eq : Read.val_main_v117 (F := Ideal) x0 x1 x2 x3 x13 x14 x15 x16
    = sigStage (Read.val_main_v111 (F := Ideal) x0 x1 x2 x3 x13 x14 x15 x16) := rfl

variable (hX : ∀ i, ∃ r : ℝ, x0 i = (r : EReal)) (hN : ∀ i, ∃ r : ℝ, Read.val_main_v33 (F := Ideal) x1 x2 i = (r : EReal))
    (hWi : ∀ i, ∃ r : ℝ, x5 i = (r : EReal)) (hWf : ∀ i, ∃ r : ℝ, x9 i = (r : EReal)) (hWo : ∀ i, ∃ r : ℝ, x13 i = (r : EReal))
include hX hN hWi hWf hWo

/-- The input gate's pre-activation at node n, feature j. -/
theorem pre_i_apply (n : Fin 10000) (j : Fin 128) :
    Read.val_main_v89 (F := Ideal) x0 x1 x2 x3 x5 x6 x7 x8 (ix2 n j) = (refArgs x0 x1 x2 x3 x4 x5 x6 x7 x8 x9 x10 x11 x12 x13 x14 x15 x16 x17 x18 x19 x20).preI n j := by
  rw [pre_i_eq, gateStage_apply, conv_i]
  unfold Cert.Spec.Args.preI
  refine congrArg (fun g => Cert.Spec.gate g _ _ _ j) (funext fun k => ?_)
  exact convStage_apply x0 _ _ _ x5 x6 hX hN hWi n k

/-- The forget gate's pre-activation at node n, feature j. -/
theorem pre_f_apply (n : Fin 10000) (j : Fin 128) :
    Read.val_main_v100 (F := Ideal) x0 x1 x2 x3 x9 x10 x11 x12 (ix2 n j) = (refArgs x0 x1 x2 x3 x4 x5 x6 x7 x8 x9 x10 x11 x12 x13 x14 x15 x16 x17 x18 x19 x20).preF n j := by
  rw [pre_f_eq, gateStage_apply, conv_f]
  unfold Cert.Spec.Args.preF
  refine congrArg (fun g => Cert.Spec.gate g _ _ _ j) (funext fun k => ?_)
  exact convStage_apply x0 _ _ _ x9 x10 hX hN hWf n k

/-- The output gate's pre-activation at node n, feature j. -/
theorem pre_o_apply (n : Fin 10000) (j : Fin 128) :
    Read.val_main_v111 (F := Ideal) x0 x1 x2 x3 x13 x14 x15 x16 (ix2 n j) = (refArgs x0 x1 x2 x3 x4 x5 x6 x7 x8 x9 x10 x11 x12 x13 x14 x15 x16 x17 x18 x19 x20).preO n j := by
  rw [pre_o_eq, gateStage_apply, conv_o]
  unfold Cert.Spec.Args.preO
  refine congrArg (fun g => Cert.Spec.gate g _ _ _ j) (funext fun k => ?_)
  exact convStage_apply x0 _ _ _ x13 x14 hX hN hWo n k

/-- The candidate's pre-activation at node n, feature j (it reads the forget gate's convolution). -/
theorem pre_ct_apply (n : Fin 10000) (j : Fin 128) :
    Read.val_main_v122 (F := Ideal) x0 x1 x2 x3 x9 x10 x19 x20 (ix2 n j) = (refArgs x0 x1 x2 x3 x4 x5 x6 x7 x8 x9 x10 x11 x12 x13 x14 x15 x16 x17 x18 x19 x20).preCt n j := by
  rw [pre_ct_eq, gateStage_apply, conv_f]
  unfold Cert.Spec.Args.preCt
  refine congrArg (fun g => Cert.Spec.gate g _ _ _ j) (funext fun k => ?_)
  exact convStage_apply x0 _ _ _ x9 x10 hX hN hWf n k

/-- **The reference's new cell state** is the closed form's, as whole arrays. -/
theorem ref_cell :
    Read.val_main_v126 (F := Ideal) x0 x1 x2 x3 x4 x5 x6 x7 x8 x9 x10 x11 x12 x19 x20 = (refArgs x0 x1 x2 x3 x4 x5 x6 x7 x8 x9 x10 x11 x12 x13 x14 x15 x16 x17 x18 x19 x20).cArr := by
  funext i
  obtain ⟨n, j, rfl⟩ : ∃ (n : Fin 10000) (j : Fin 128), i = ix2 n j := ⟨i 0, i 1, eq_ix2 i⟩
  have hR : (refArgs x0 x1 x2 x3 x4 x5 x6 x7 x8 x9 x10 x11 x12 x13 x14 x15 x16 x17 x18 x19 x20).cArr (ix2 n j)
      = Cert.Spec.cellOf ((refArgs x0 x1 x2 x3 x4 x5 x6 x7 x8 x9 x10 x11 x12 x13 x14 x15 x16 x17 x18 x19 x20).preI n j) ((refArgs x0 x1 x2 x3 x4 x5 x6 x7 x8 x9 x10 x11 x12 x13 x14 x15 x16 x17 x18 x19 x20).preF n j) ((refArgs x0 x1 x2 x3 x4 x5 x6 x7 x8 x9 x10 x11 x12 x13 x14 x15 x16 x17 x18 x19 x20).preCt n j) (x4 (ix2 n j)) := rfl
  rw [hR, Read.val_main_v126_apply, Read.val_main_v124_apply, Read.val_main_v125_apply, Read.val_main_v123_apply,
    sig_i_eq, sig_f_eq, sigStage_apply, sigStage_apply,
    pre_i_apply x0 x1 x2 x3 x4 x5 x6 x7 x8 x9 x10 x11 x12 x13 x14 x15 x16 x17 x18 x19 x20 hX hN hWi hWf hWo, pre_f_apply x0 x1 x2 x3 x4 x5 x6 x7 x8 x9 x10 x11 x12 x13 x14 x15 x16 x17 x18 x19 x20 hX hN hWi hWf hWo, pre_ct_apply x0 x1 x2 x3 x4 x5 x6 x7 x8 x9 x10 x11 x12 x13 x14 x15 x16 x17 x18 x19 x20 hX hN hWi hWf hWo]
  simp only [Ideal.addf_def, Ideal.mulf_def, Ideal.hostUnary_tanh_def]
  rfl

/-- **The reference's new hidden state** is the closed form's, as whole arrays. -/
theorem ref_hidden :
    Read.val_main_v128 (F := Ideal) x0 x1 x2 x3 x4 x5 x6 x7 x8 x9 x10 x11 x12 x13 x14 x15 x16 x19 x20 = (refArgs x0 x1 x2 x3 x4 x5 x6 x7 x8 x9 x10 x11 x12 x13 x14 x15 x16 x17 x18 x19 x20).hArr := by
  funext i
  obtain ⟨n, j, rfl⟩ : ∃ (n : Fin 10000) (j : Fin 128), i = ix2 n j := ⟨i 0, i 1, eq_ix2 i⟩
  have hR : (refArgs x0 x1 x2 x3 x4 x5 x6 x7 x8 x9 x10 x11 x12 x13 x14 x15 x16 x17 x18 x19 x20).hArr (ix2 n j)
      = Cert.Spec.hiddenOf ((refArgs x0 x1 x2 x3 x4 x5 x6 x7 x8 x9 x10 x11 x12 x13 x14 x15 x16 x17 x18 x19 x20).preI n j) ((refArgs x0 x1 x2 x3 x4 x5 x6 x7 x8 x9 x10 x11 x12 x13 x14 x15 x16 x17 x18 x19 x20).preF n j) ((refArgs x0 x1 x2 x3 x4 x5 x6 x7 x8 x9 x10 x11 x12 x13 x14 x15 x16 x17 x18 x19 x20).preO n j) ((refArgs x0 x1 x2 x3 x4 x5 x6 x7 x8 x9 x10 x11 x12 x13 x14 x15 x16 x17 x18 x19 x20).preCt n j) (x4 (ix2 n j)) := rfl
  have hC : (refArgs x0 x1 x2 x3 x4 x5 x6 x7 x8 x9 x10 x11 x12 x13 x14 x15 x16 x17 x18 x19 x20).cArr (ix2 n j)
      = Cert.Spec.cellOf ((refArgs x0 x1 x2 x3 x4 x5 x6 x7 x8 x9 x10 x11 x12 x13 x14 x15 x16 x17 x18 x19 x20).preI n j) ((refArgs x0 x1 x2 x3 x4 x5 x6 x7 x8 x9 x10 x11 x12 x13 x14 x15 x16 x17 x18 x19 x20).preF n j) ((refArgs x0 x1 x2 x3 x4 x5 x6 x7 x8 x9 x10 x11 x12 x13 x14 x15 x16 x17 x18 x19 x20).preCt n j) (x4 (ix2 n j)) := rfl
  rw [hR, Read.val_main_v128_apply, Read.val_main_v127_apply, ref_cell x0 x1 x2 x3 x4 x5 x6 x7 x8 x9 x10 x11 x12 x13 x14 x15 x16 x17 x18 x19 x20 hX hN hWi hWf hWo, hC,
    sig_o_eq, sigStage_apply, pre_o_apply x0 x1 x2 x3 x4 x5 x6 x7 x8 x9 x10 x11 x12 x13 x14 x15 x16 x17 x18 x19 x20 hX hN hWi hWf hWo]
  simp only [Ideal.mulf_def, Ideal.hostUnary_tanh_def]
  rfl

end

end Cert.ReferenceIdeal.RefValue

end
-- ==== Proof.FiniteInputs.lean ====
/-
  Finite inputs are real numbers.  The precondition is a conjunction, over the float arguments, of
  "every entry x satisfies |x| < +∞"; at the extended reals an entry with |x| < +∞ is neither +∞ nor -∞,
  hence the coercion of a real number.  Stated once for abstract arguments, for the five arrays whose
  entries the algebra needs as real numbers.
-/
import proofs.«155784_j56238301774267_2_alg».proof.Pre_finite_inputs
import Idealize.ShloMosaic.Lib.ReduceAll
import Idealize.ShloMosaic.Lib.ValueIdx
import Idealize.ShloMosaic.PureOps.Ideal

open Idealize.ShloMosaic

namespace Cert.Pre_finite_inputs

/-- The scalar shape has exactly one index. -/
instance subsingleton_scalar_idx : Subsingleton S_.Idx := ⟨fun a b => funext fun d => d.elim0⟩

/-- An extended real whose absolute value is strictly below +∞ is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    simp [Ideal.cmp, Ideal.ofBits, Ideal.ieee] at h'
  | coe r => exact ⟨r, rfl⟩
  | top =>
    exfalso
    have h' : Ideal.cmp .olt (max (⊤ : EReal) (-⊤)) (Ideal.ofBits .f32 0x7F800000#32) = 1#1 := h
    simp [Ideal.cmp, Ideal.ofBits, Ideal.ieee] at h'

/-- A pointwise "and" of two one-bit arrays that is 1 at an index has both operands 1 there. -/
theorem andi_one {s : Shape} {a b : IVec s 1} {i : s.Idx} (h : andi a b i = 1#1) : a i = 1#1 ∧ b i = 1#1 :=
  IntOp.andi_eq_one.1 h

variable [Facts]
open Facts

/-- One conjunct read back: if "all entries have |x| < +∞" reduced to 1, every entry is a real number. -/
theorem reals_of_all {s : Shape} {axes : List (Fin s.rank)} (x : FVec Ideal s .f32) (b : S_.BroadcastsInDim s (![] : Fin 0 → Fin s.rank))
    (hr : s.ReducesTo axes S_) (hu : 0 < S_.numel)
    (e : Host.reduce IntOp.andi (cmpf .olt (Host.absf x) (broadcastInDim s ![] b (constant S_ .f32 0x7F800000#32)))
      (constantI S_ 1 1#1) hr hu ValueIdx.ix0 = 1#1) : ∀ i, ∃ r : ℝ, x i = (r : EReal) :=
  fun i => real_of_abs_lt_inf (x i) (Host.reduce_andi_all _ _ hr hu ValueIdx.ix0 e i)

/-- The precondition makes the entries of the node features (argument 0), of the edge weights (argument 2)
    and of three of the graph-convolution weight matrices (arguments 5, 9, 13) real numbers. -/
theorem reals_of_pre (x0 : FVec Ideal S10000x128 .f32) (x1 : IVec S2x640000 32) (x2 : FVec Ideal S640000 .f32)
    (x3 x4 : FVec Ideal S10000x128 .f32)
    (x5 : FVec Ideal S128x128 .f32) (x6 : FVec Ideal S128 .f32) (x7 : FVec Ideal S256x128 .f32) (x8 : FVec Ideal S128 .f32)
    (x9 : FVec Ideal S128x128 .f32) (x10 : FVec Ideal S128 .f32) (x11 : FVec Ideal S256x128 .f32) (x12 : FVec Ideal S128 .f32)
    (x13 : FVec Ideal S128x128 .f32) (x14 : FVec Ideal S128 .f32) (x15 : FVec Ideal S256x128 .f32) (x16 : FVec Ideal S128 .f32)
    (x17 : FVec Ideal S128x128 .f32) (x18 : FVec Ideal S128 .f32) (x19 : FVec Ideal S256x128 .f32) (x20 : FVec Ideal S128 .f32)
    (h : fn (F := Ideal) x0 x1 x2 x3 x4 x5 x6 x7 x8 x9 x10 x11 x12 x13 x14 x15 x16 x17 x18 x19 x20 = (fun _ => 1#1)) :
    (∀ i, ∃ r : ℝ, x0 i = (r : EReal)) ∧ (∀ i, ∃ r : ℝ, x2 i = (r : EReal)) ∧ (∀ i, ∃ r : ℝ, x5 i = (r : EReal))
      ∧ (∀ i, ∃ r : ℝ, x9 i = (r : EReal)) ∧ (∀ i, ∃ r : ℝ, x13 i = (r : EReal)) := by
  have h0 := congrFun h ValueIdx.ix0
  dsimp only [fn, fn_part1, fn_part2, fn_part3, fn_part4, fn_part5] at h0
  exact ⟨reals_of_all x0 _ _ _ (andi_one (andi_one (andi_one (andi_one (andi_one (andi_one (andi_one (andi_one (andi_one (andi_one (andi_one (andi_one (andi_one (andi_one (andi_one (andi_one (andi_one (andi_one (andi_one h0).1).1).1).1).1).1).1).1).1).1).1).1).1).1).1).1).1).1).1,
    reals_of_all x2 _ _ _ (andi_one (andi_one (andi_one (andi_one (andi_one (andi_one (andi_one (andi_one (andi_one (andi_one (andi_one (andi_one (andi_one (andi_one (andi_one (andi_one (andi_one (andi_one (andi_one h0).1).1).1).1).1).1).1).1).1).1).1).1).1).1).1).1).1).1).2,
    reals_of_all x5 _ _ _ (andi_one (andi_one (andi_one (andi_one (andi_one (andi_one (andi_one (andi_one (andi_one (andi_one (andi_one (andi_one (andi_one (andi_one (andi_one (andi_one h0).1).1).1).1).1).1).1).1).1).1).1).1).1).1).1).2,
    reals_of_all x9 _ _ _ (andi_one (andi_one (andi_one (andi_one (andi_one (andi_one (andi_one (andi_one (andi_one (andi_one (andi_one (andi_one h0).1).1).1).1).1).1).1).1).1).1).1).2,
    reals_of_all x13 _ _ _ (andi_one (andi_one (andi_one (andi_one (andi_one (andi_one (andi_one (andi_one h0).1).1).1).1).1).1).1).2⟩

end Cert.Pre_finite_inputs
-- ==== Proof.NormReal.lean ====
/-
  The edge normaliser is a real number whenever the edge weights are.

  The normaliser of edge e is dinv[src e] * w[e] * dinv[dst e]. Here w is the edge weights followed by ones, so
  each w[e] is an edge weight or the constant 1. And dinv[n] is either 0 or the reciprocal square root of
  max(deg[n], c) for a positive real constant c: since max(y, c) ≥ c > 0 for every extended real y, that value is
  the reciprocal square root of a positive real or of +∞, a real number in both cases — whatever deg[n] is, so the
  degree sum is never opened. A gathered entry is an entry of the gathered array, and a product of real numbers is
  a real number.
-/
import Mathlib
import proofs.«155784_j56238301774267_2_alg».proof.Proof.Gen.ReferenceIdeal.Read
import Idealize.ShloMosaic.PureOps.Ideal
import Idealize.ShloMosaic.PureOps.Ideal.Laws
import Idealize.ShloMosaic.Lib.Pipeline.Value
import Idealize.ShloMosaic.Lib.ValueIdx

namespace Cert.NormReal

open Idealize.ShloMosaic Cert.ReferenceIdeal Cert.ReferenceIdeal.Read

/-- Every entry of a concatenation is an entry of one of the pieces. -/
theorem concatenate_forall {α : Type} (P : α → Prop) {t : Shape} (a : Fin t.rank)
    (xs : List ((s : Shape) × (s.Idx → α))) (h : Shape.Concatenates (xs.map (·.1)) t a)
    (hP : ∀ p ∈ xs, ∀ i, P (p.2 i)) (j : t.Idx) : P (concatenate t a xs h j) := by
  unfold concatenate
  dsimp only
  exact hP _ (List.getElem_mem _) _

/-- The f32 word 0x2B8CBCCC denotes a positive real number. -/
theorem eps_pos : ∃ c : ℝ, 0 < c ∧ Ideal.ofBits .f32 0x2B8CBCCC#32 = (c : EReal) := by
  simp [Ideal.ofBits, Ideal.ieee]
  exact ⟨9223372 * (2 ^ 63)⁻¹, by positivity, (EReal.coe_mul _ _).symm⟩

/-- The f32 word 0x3F800000 denotes a real number. -/
theorem one_real : ∃ c : ℝ, Ideal.ofBits .f32 0x3F800000#32 = (c : EReal) := by
  simp [Ideal.ofBits, Ideal.ieee]
  exact ⟨8388608 * (2 ^ 23)⁻¹, (EReal.coe_mul _ _).symm⟩

/-- The reciprocal square root of the larger of any extended real and a positive real is a real number. -/
theorem rsqrt_max_real (y : EReal) (c : ℝ) (hc : 0 < c) : ∃ r : ℝ, Ideal.rsqrt (max y (c : EReal)) = (r : EReal) := by
  have hle : (c : EReal) ≤ max y (c : EReal) := le_max_right _ _
  generalize max y (c : EReal) = z at hle
  induction z using EReal.rec with
  | bot => exact absurd hle (not_le.mpr (EReal.bot_lt_coe c))
  | top => exact ⟨0, rfl⟩
  | coe r =>
    have hr : c ≤ r := by exact_mod_cast hle
    have h1 : ¬ r < 0 := by linarith
    have h2 : ¬ r = 0 := by intro h0; rw [h0] at hr; linarith
    refine ⟨(Real.sqrt r)⁻¹, ?_⟩
    show (if r < 0 then ⊥ else if r = 0 then ⊤ else (((Real.sqrt r)⁻¹ : ℝ) : EReal)) = _
    rw [if_neg h1, if_neg h2]

/-- The weights followed by ones: every entry is an edge weight or 1, a real number. -/
theorem w_real (x2 : (⟨S640000, .f32⟩ : BufTy).Contents (Elt Ideal)) (h2 : ∀ i, ∃ r : ℝ, x2 i = (r : EReal)) :
    ∀ i, ∃ r : ℝ, val_main_v8 (F := Ideal) x2 i = (r : EReal) := by
  intro i
  unfold val_main_v8
  refine concatenate_forall (fun x : EReal => ∃ r : ℝ, x = (r : EReal)) _ _ _ ?_ i
  intro p hp
  simp only [List.mem_cons, List.not_mem_nil, or_false] at hp
  rcases hp with rfl | rfl
  · exact h2
  · intro j
    show ∃ r : ℝ, val_main_v7 (F := Ideal) j = (r : EReal)
    rw [val_main_v7_apply, val_main_cst_apply]
    exact one_real

/-- The inverse square-root degree is a real number at every node, whatever the degree sum is. -/
theorem dinv_real (x1 : (⟨S2x640000, .i32⟩ : BufTy).Contents (Elt Ideal)) (x2 : (⟨S640000, .f32⟩ : BufTy).Contents (Elt Ideal)) :
    ∀ n, ∃ r : ℝ, val_main_v17 (F := Ideal) x1 x2 n = (r : EReal) := by
  intro n
  rw [val_main_v17_apply]
  unfold Scalar.select
  split
  · rw [val_main_v16_apply, val_main_v15_apply, val_main_v14_apply, val_main_cst_2_apply]
    generalize val_main_v11 (F := Ideal) x1 x2 n = y
    obtain ⟨c, hc, he⟩ := eps_pos
    rw [Ideal.hostUnary_rsqrt_def, Ideal.maximumf_def, Ideal.ofBits_def, he]
    exact rsqrt_max_real y c hc
  · rw [val_main_call0_v1_apply, val_main_call0_v0_apply, val_main_cst_3_apply]
    exact ⟨0, by rw [EReal.coe_zero]; exact Ideal.ofBits_zero_f32⟩

/-- The edge normaliser is a real number at every edge when the edge weights are real numbers. -/
theorem norm_real (x1 : (⟨S2x640000, .i32⟩ : BufTy).Contents (Elt Ideal)) (x2 : (⟨S640000, .f32⟩ : BufTy).Contents (Elt Ideal))
    (h2 : ∀ i, ∃ r : ℝ, x2 i = (r : EReal)) :
    ∀ i, ∃ r : ℝ, val_main_v33 (F := Ideal) x1 x2 i = (r : EReal) := by
  intro i
  rw [val_main_v33_apply, val_main_v25_apply]
  obtain ⟨a, ha⟩ : ∃ r : ℝ, val_main_v24 (F := Ideal) x1 x2 i = (r : EReal) := by
    unfold val_main_v24 Host.gather
    exact dinv_real x1 x2 _
  obtain ⟨b, hb⟩ := w_real x2 h2 i
  obtain ⟨c, hc⟩ : ∃ r : ℝ, val_main_v32 (F := Ideal) x1 x2 i = (r : EReal) := by
    unfold val_main_v32 Host.gather
    exact dinv_real x1 x2 _
  rw [ha, hb, hc]
  rw [Ideal.mulf_def, Ideal.mulf_def, ← EReal.coe_mul, ← EReal.coe_mul]
  exact ⟨a * b * c, rfl⟩

end Cert.NormReal
-- ==== Proof.lean ====
/-
  The certificate of a graph-convolution LSTM cell: a fused kernel against its reference, over the extended reals.

  Both programs compute, on the host, the same source and destination index columns and the same edge weights
  nrm e = dinv[src e] · w e · dinv[dst e]. The reference convolves three times — X · W first, then for every edge the
  source row scaled by the edge weight and scatter-added onto the destination row — while the kernel takes the
  neighbourhood sum of X once and multiplies by the three weights laid side by side inside the kernel. With real
  features, real weights and real edge weights (the precondition: every float input is finite; the edge weights are
  real whatever the degrees are) the two orders of the double sum agree. The four linear layers on [conv, H] are the
  same sums cut at row 128 of the stacked weight, and the gates are the same functions of the pre-activations
  (the logistic is 1 / (1 + e^(-x)) on both sides). The kernel's frame, at both instances, is the pipeline's run over a
  body that loads every window whole and stores each result block whole.
-/
import proofs.«155784_j56238301774267_2_alg».proof.Defs
import proofs.«155784_j56238301774267_2_alg».proof.Proof.Gen.Kernel
import proofs.«155784_j56238301774267_2_alg».proof.Proof.Gen.Kernel.Skeleton
import proofs.«155784_j56238301774267_2_alg».proof.Proof.Gen.Kernel.Launch
import proofs.«155784_j56238301774267_2_alg».proof.Proof.Gen.Kernel.Points
import proofs.«155784_j56238301774267_2_alg».proof.Proof.Gen.KernelIdeal
import proofs.«155784_j56238301774267_2_alg».proof.Proof.Gen.KernelIdeal.Skeleton
import proofs.«155784_j56238301774267_2_alg».proof.Proof.Gen.KernelIdeal.Launch
import proofs.«155784_j56238301774267_2_alg».proof.Proof.Gen.KernelIdeal.Points
import proofs.«155784_j56238301774267_2_alg».proof.Proof.Gen.ReferenceIdeal
import proofs.«155784_j56238301774267_2_alg».proof.Proof.Gen.ReferenceIdeal.Run
import proofs.«155784_j56238301774267_2_alg».proof.Proof.Gen.ReferenceIdeal.Read
import proofs.«155784_j56238301774267_2_alg».proof.Proof.Gen.Pre_finite_inputs
import proofs.«155784_j56238301774267_2_alg».proof.Proof.FrameRun
import proofs.«155784_j56238301774267_2_alg».proof.Proof.KFrameRun
import proofs.«155784_j56238301774267_2_alg».proof.Proof.KernelFinal
import proofs.«155784_j56238301774267_2_alg».proof.Proof.KernelBridge
import proofs.«155784_j56238301774267_2_alg».proof.Proof.KernelBridgeNrm
import proofs.«155784_j56238301774267_2_alg».proof.Proof.RefValue
import proofs.«155784_j56238301774267_2_alg».proof.Proof.FiniteInputs
import proofs.«155784_j56238301774267_2_alg».proof.Proof.NormReal
import Idealize.ShloMosaic.Adequacy
import Idealize.ShloMosaic.Init

set_option maxRecDepth 16384

noncomputable section

namespace Cert.Proof

open Idealize.ShloMosaic Idealize.SL.Sem

/-! ## The three frames -/

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-! ## The two programs end with the same results -/

open Cert.KernelIdeal.Final in
/-- The arrays the kernel's region finds are the reference's own: same arguments, and the index columns and edge
    weights are the same terms of them. -/
theorem kArgs_eq (m : (ℓ : Loc Cert.KernelIdeal.nD Cert.KernelIdeal.τ Cert.KernelIdeal.sig) → Buf (Elt Ideal) ℓ)
    (c : Dev Cert.KernelIdeal.nD) :
    kArgs m c = Cert.ReferenceIdeal.RefValue.refArgs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) := by
  unfold kArgs Cert.ReferenceIdeal.RefValue.refArgs
  rw [Cert.KernelIdeal.Bridge.src_eq m c, Cert.KernelIdeal.Bridge.dst_eq m c, Cert.KernelIdeal.Bridge.nrm_eq m c]

set_option maxHeartbeats 2000000 in
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Final.kArgs m c).hArr, fun c => (Cert.KernelIdeal.Final.kArgs m c).cArr, ?_, ?_⟩
  · exact (θ_run Cert.KernelIdeal.defs _ _).mono
      (fun r h c => ⟨(h c).1.trans (Cert.KernelIdeal.Final.final17 m c), (h c).2.1.trans (Cert.KernelIdeal.Final.final18 m c), (h c).2.2⟩)
      (Cert.KernelIdeal.Hand.run_blocks m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨e0, e1, e2, e3, e4, e5, e6, e7, e8, e9, e10, e11, e12, e13, e14, e15, e16, e17, e18, e19, e20⟩ := hagree c
      obtain ⟨hX, hE, hWi, hWf, hWo⟩ := Cert.Pre_finite_inputs.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (hpre c)
      have hN := Cert.NormReal.norm_real (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) hE
      beta_reduce
      rw [kArgs_eq m c, Cert.ReferenceIdeal.Read.val_main_v128_eq, e0, e1, e2, e3, e4, e5, e6, e7, e8, e9, e10, e11, e12, e13, e14, e15, e16, e19, e20]
      exact Cert.ReferenceIdeal.RefValue.ref_hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) hX hN hWi hWf hWo
    · obtain ⟨e0, e1, e2, e3, e4, e5, e6, e7, e8, e9, e10, e11, e12, e13, e14, e15, e16, e17, e18, e19, e20⟩ := hagree c
      obtain ⟨hX, hE, hWi, hWf, hWo⟩ := Cert.Pre_finite_inputs.reals_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (hpre c)
      have hN := Cert.NormReal.norm_real (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) hE
      beta_reduce
      rw [kArgs_eq m c, Cert.ReferenceIdeal.Read.val_main_v126_eq, e0, e1, e2, e3, e4, e5, e6, e7, e8, e9, e10, e11, e12, e19, e20]
      exact Cert.ReferenceIdeal.RefValue.ref_cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) hX hN hWi hWf hWo

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
